-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32x512 : Shape := ⟨3, ![1024, 32, 512]⟩
abbrev S512x512 : Shape := ⟨2, ![512, 512]⟩
abbrev S512x1024 : Shape := ⟨2, ![512, 1024]⟩
abbrev S512 : Shape := ⟨1, ![512]⟩
abbrev S_ : Shape := ⟨0, ![]⟩

class Facts : Prop where
  bcast_S_S1024x32x512 : S_.BroadcastsInDim S1024x32x512 (![] : Fin 0 → Fin S1024x32x512.rank)
  reducesTo_S1024x32x512_S_d0_1_2 : S1024x32x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512x1024 .f32) (main_arg9 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x512 .f32) (main_arg5 : FVec F S512x512 .f32) (main_arg6 : FVec F S512x512 .f32) (main_arg7 : FVec F S512x512 .f32) (main_arg8 : FVec F S512x1024 .f32) (main_arg9 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x32x512 .f32) (main_arg1 : FVec F S1024x32x512 .f32) (main_arg2 : FVec F S512x512 .f32) (main_arg3 : FVec F S512x512 .f32) (main_arg4 : FVec F S512x512 .f32) (main_arg5 : FVec F S512x512 .f32) (main_arg6 : FVec F S512x512 .f32) (main_arg7 : FVec F S512x512 .f32) (main_arg8 : FVec F S512x1024 .f32) (main_arg9 : FVec F S512 .f32) : IVec S_ 1 :=
  let main_v0 : FVec F S1024x32x512 .f32 := Host.absf main_arg0
  let main_cst : FVec F S_ .f32 := constant S_ .f32 0x7F800000#32
  let main_v1 : FVec F S1024x32x512 .f32 := broadcastInDim S1024x32x512 ![] bcast_S_S1024x32x512 main_cst
  let main_v2 : IVec S1024x32x512 1 := cmpf .olt main_v0 main_v1
  let main_c : IVec S_ 1 := constantI S_ 1 1#1
  let main_v3 : IVec S_ 1 := (fun x v => Host.reduce IntOp.andi x v reducesTo_S1024x32x512_S_d0_1_2 h_S_) main_v2 main_c
  let main_v4 : FVec F S1024x32x512 .f32 := Host.absf main_arg1
  let main_cst_0 : FVec F S_ .f32 := constant S_ .f32 0x7F800000#32
  let main_v5 : FVec F S1024x32x512 .f32 := broadcastInDim S1024x32x512 ![] bcast_S_S1024x32x512 main_cst_0
  let main_v6 : IVec S1024x32x512 1 := cmpf .olt main_v4 main_v5
  let main_c_1 : IVec S_ 1 := constantI S_ 1 1#1
  let main_v7 : IVec S_ 1 := (fun x v => Host.reduce IntOp.andi x v reducesTo_S1024x32x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_v13 main_v16
-- ==== Kernel.lean ====
abbrev S1024x32x512 : Shape := ⟨3, ![1024, 32, 512]⟩
abbrev S512x512 : Shape := ⟨2, ![512, 512]⟩
abbrev S512x1024 : Shape := ⟨2, ![512, 1024]⟩
abbrev S512 : Shape := ⟨1, ![512]⟩
abbrev S32x1024x512 : Shape := ⟨3, ![32, 1024, 512]⟩
abbrev S32768x512 : Shape := ⟨2, ![32768, 512]⟩
abbrev S512x1536 : Shape := ⟨2, ![512, 1536]⟩
abbrev S32768x1536 : Shape := ⟨2, ![32768, 1536]⟩
abbrev S1024x512 : Shape := ⟨2, ![1024, 512]⟩
abbrev S1024x1536 : Shape := ⟨2, ![1024, 1536]⟩
abbrev S32x1024x1536 : Shape := ⟨3, ![32, 1024, 1536]⟩
abbrev S1x512 : Shape := ⟨2, ![1, 512]⟩
abbrev S1x1024x512 : Shape := ⟨3, ![1, 1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 39
  | .vmem => 26
  | .smem => 0
  | _ => 0

abbrev bufTy : (tb : Table) → Fin (tcTables nBuf tb) → BufTy
  | .hbm, ⟨0, _⟩ => ⟨S1024x32x512, .f32⟩
  | .hbm, ⟨1, _⟩ => ⟨S1024x32x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x1024, .f32⟩
  | .hbm, ⟨9, _⟩ => ⟨S512, .f32⟩
  | .hbm, ⟨10, _⟩ => ⟨S32x1024x512, .f32⟩
  | .hbm, ⟨11, _⟩ => ⟨S32x1024x512, .f32⟩
  | .hbm, ⟨12, _⟩ => ⟨S32768x512, .f32⟩
  | .hbm, ⟨13, _⟩ => ⟨S32768x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x1536, .f32⟩
  | .hbm, ⟨18, _⟩ => ⟨S512x1536, .bf16⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x1536, .f32⟩
  | .hbm, ⟨23, _⟩ => ⟨S512x1536, .bf16⟩
  | .hbm, ⟨24, _⟩ => ⟨S32768x1536, .bf16⟩
  | .hbm, ⟨25, _⟩ => ⟨S32768x1536, .bf16⟩
  | .hbm, ⟨26, _⟩ => ⟨S32x1024x1536, .bf16⟩
  | .hbm, ⟨27, _⟩ => ⟨S32x1024x1536, .bf16⟩
  | .hbm, ⟨28, _⟩ => ⟨S32x1024x512, .bf16⟩
  | .hbm, ⟨29, _⟩ => ⟨S32x1024x512, .bf16⟩
  | .hbm, ⟨30, _⟩ => ⟨S32x1024x512, .bf16⟩
  | .hbm, ⟨31, _⟩ => ⟨S32x1024x512, .bf16⟩
  | .hbm, ⟨32, _⟩ => ⟨S32x1024x512, .bf16⟩
  | .hbm, ⟨33, _⟩ => ⟨S32x1024x512, .bf16⟩
  | .hbm, ⟨34, _⟩ => ⟨S1024x512, .f32⟩
  | .hbm, ⟨35, _⟩ => ⟨S1024x512, .bf16⟩
  | .hbm, ⟨36, _⟩ => ⟨S1x512, .f32⟩
  | .hbm, ⟨37, _⟩ => ⟨S32x1024x512, .f32⟩
  | .hbm, ⟨38, _⟩ => ⟨S1024x32x512, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x512, .f32⟩
  | .local _ .vmem, ⟨6, _⟩ => ⟨S1024x512, .f32⟩
  | .local _ .vmem, ⟨7, _⟩ => ⟨S512x1536, .bf16⟩
  | .local _ .vmem, ⟨8, _⟩ => ⟨S1024x1536, .bf16⟩
  | .local _ .vmem, ⟨9, _⟩ => ⟨S1024x1536, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1024x512, .bf16⟩
  | .local _ .vmem, ⟨23, _⟩ => ⟨S1x512, .f32⟩
  | .local _ .vmem, ⟨24, _⟩ => ⟨S1x1024x512, .f32⟩
  | .local _ .vmem, ⟨25, _⟩ => ⟨S1x1024x512, .f32⟩
  | _, _ => ⟨S1024x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem7_0 : DmaSem sig := 23
abbrev cc2_sem8_0 : DmaSem sig := 24
abbrev cc2_sem8_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1024x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1024x512 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1x1024x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  transposes_S1024x32x512_S32x1024x512_1_0_2 : S1024x32x512.Transposes [1, 0, 2] S32x1024x512
  shapeCasts_S32x1024x512_S32768x512 : S32x1024x512.ShapeCasts S32768x512
  transposes_S512x512_S512x512_1_0 : S512x512.Transposes [1, 0] S512x512
  concatenates_S512x512_S512x512_S512x512_S512x1536_d1 : Shape.Concatenates [S512x512, S512x512, S512x512] S512x1536 1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  shapeCasts_S32768x1536_S32x1024x1536 : S32768x1536.ShapeCasts S32x1024x1536
  slices_S32x1024x1536_S32x1024x512_0_0_0 : S32x1024x1536.Slices ![0, 0, 0] S32x1024x512
  slices_S32x1024x1536_S32x1024x512_0_0_512 : S32x1024x1536.Slices ![0, 0, 512] S32x1024x512
  slices_S32x1024x1536_S32x1024x512_0_0_1024 : S32x1024x1536.Slices ![0, 0, 1024] S32x1024x512
  transposes_S512x1024_S1024x512_1_0 : S512x1024.Transposes [1, 0] S1024x512
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x1024_S1024 : S1024x1024.Reduces [1] S1024
  shapeCasts_S1024_S1024x1 : S1024.ShapeCasts S1024x1
  broadcasts_S1024x1_S1024x1024 : S1024x1.Broadcasts S1024x1024
  concatenates_S1024x512_S1024x512_S1024x1024_d1 : Shape.Concatenates [S1024x512, S1024x512] S1024x1024 1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  transposes_S32x1024x512_S1024x32x512_1_0_2 : S32x1024x512.Transposes [1, 0, 2] S1024x32x512
  dot_S1024x512_S512x1536_S1024x1536_1_0_0_1_n_n_wf : DotDims.WF S1024x512 S512x1536 S1024x1536 [1] [0] [0] [1] [] []
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1536.size a ≤ S32768x1536.size a
  hwx0_2 : ∀ i : grid0.Coords, EltTy.bits .bf16 = 32 ∨ (Rect.block (s := S32768x1536) S1024x1536.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S32768x512.size a
  hwx1_0 : ∀ i : grid1.Coords, EltTy.bits .f32 = 32 ∨ (Rect.block (s := S32768x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1536.size a ≤ S512x1536.size a
  hwx1_1 : ∀ i : grid1.Coords, EltTy.bits .bf16 = 32 ∨ (Rect.block (s := S512x1536) S512x1536.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1536.size a ≤ S32768x1536.size a
  hwx1_2 : ∀ i : grid1.Coords, EltTy.bits .bf16 = 32 ∨ (Rect.block (s := S32768x1536) S1024x1536.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S32x1024x512.size a
  hwx2_0 : ∀ i : grid2.Coords, EltTy.bits .bf16 = 32 ∨ (Rect.block (s := S32x1024x512) S1x1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x512.size a ≤ S32x1024x512.size a
  hwx2_1 : ∀ i : grid2.Coords, EltTy.bits .bf16 = 32 ∨ (Rect.block (s := S32x1024x512) S1x1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x512.size a ≤ S32x1024x512.size a
  hwx2_2 : ∀ i : grid2.Coords, EltTy.bits .bf16 = 32 ∨ (Rect.block (s := S32x1024x512) S1x1024x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x512.size a ≤ S32x1024x512.size a
  hwx2_3 : ∀ i : grid2.Coords, EltTy.bits .bf16 = 32 ∨ (Rect.block (s := S32x1024x512) S1x1024x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x512.size a ≤ S32x1024x512.size a
  hwx2_4 : ∀ i : grid2.Coords, EltTy.bits .bf16 = 32 ∨ (Rect.block (s := S32x1024x512) S1x1024x512.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024x512.size a ≤ S32x1024x512.size a
  hwx2_5 : ∀ i : grid2.Coords, EltTy.bits .bf16 = 32 ∨ (Rect.block (s := S32x1024x512) S1x1024x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S1024x512.size a
  hwx2_6 : ∀ i : grid2.Coords, EltTy.bits .bf16 = 32 ∨ (Rect.block (s := S1024x512) S1024x512.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x512.size a
  hwx2_7 : ∀ i : grid2.Coords, EltTy.bits .f32 = 32 ∨ (Rect.block (s := S1x512) S1x512.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1024x512.size a ≤ S32x1024x512.size a
  hwx2_8 : ∀ i : grid2.Coords, EltTy.bits .f32 = 32 ∨ (Rect.block (s := S32x1024x512) S1x1024x512.size (cc2_transform_8 i) (hinb2_8 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S512x1536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x1536.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x1024x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x1024x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1x1024x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1024x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26) S1x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v27) S1x1024x512.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1024x32x512 : Shape := ⟨3, ![1024, 32, 512]⟩
abbrev S512x512 : Shape := ⟨2, ![512, 512]⟩
abbrev S512x1024 : Shape := ⟨2, ![512, 1024]⟩
abbrev S512 : Shape := ⟨1, ![512]⟩
abbrev S32x1024x512 : Shape := ⟨3, ![32, 1024, 512]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩
abbrev S1024x32x1024 : Shape := ⟨3, ![1024, 32, 1024]⟩
abbrev S1x1x512 : Shape := ⟨3, ![1, 1, 512]⟩

abbrev nBuf : Space → Nat
  | .hbm => 56
  | .vmem => 0
  | .smem => 0
  | _ => 0

abbrev bufTy : (tb : Table) → Fin (tcTables nBuf tb) → BufTy
  | .hbm, ⟨0, _⟩ => ⟨S1024x32x512, .f32⟩
  | .hbm, ⟨1, _⟩ => ⟨S1024x32x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x1024, .f32⟩
  | .hbm, ⟨9, _⟩ => ⟨S512, .f32⟩
  | .hbm, ⟨10, _⟩ => ⟨S32x1024x512, .f32⟩
  | .hbm, ⟨11, _⟩ => ⟨S32x1024x512, .f32⟩
  | .hbm, ⟨12, _⟩ => ⟨S32x1024x512, .f32⟩
  | .hbm, ⟨13, _⟩ => ⟨S32x1024x512, .f32⟩
  | .hbm, ⟨14, _⟩ => ⟨S32x1024x512, .f32⟩
  | .hbm, ⟨15, _⟩ => ⟨S32x1024x512, .f32⟩
  | .hbm, ⟨16, _⟩ => ⟨S32x1024x512, .f32⟩
  | .hbm, ⟨17, _⟩ => ⟨S32x1024x512, .f32⟩
  | .hbm, ⟨18, _⟩ => ⟨S32x1024x1024, .f32⟩
  | .hbm, ⟨19, _⟩ => ⟨S_, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S32x1024x1, .f32⟩
  | .hbm, ⟨25, _⟩ => ⟨S32x1024x1024, .f32⟩
  | .hbm, ⟨26, _⟩ => ⟨S32x1024x1024, .f32⟩
  | .hbm, ⟨27, _⟩ => ⟨S32x1024x1024, .f32⟩
  | .hbm, ⟨28, _⟩ => ⟨S_, .f32⟩
  | .hbm, ⟨29, _⟩ => ⟨S32x1024, .f32⟩
  | .hbm, ⟨30, _⟩ => ⟨S32x1024x1, .f32⟩
  | .hbm, ⟨31, _⟩ => ⟨S32x1024x1024, .f32⟩
  | .hbm, ⟨32, _⟩ => ⟨S32x1024x1024, .f32⟩
  | .hbm, ⟨33, _⟩ => ⟨S32x1024x1024, .f32⟩
  | .hbm, ⟨34, _⟩ => ⟨S_, .f32⟩
  | .hbm, ⟨35, _⟩ => ⟨S32x1024, .f32⟩
  | .hbm, ⟨36, _⟩ => ⟨S_, .f32⟩
  | .hbm, ⟨37, _⟩ => ⟨S32x1024, .f32⟩
  | .hbm, ⟨38, _⟩ => ⟨S32x1024, .f32⟩
  | .hbm, ⟨39, _⟩ => ⟨S32x1024x1, .f32⟩
  | .hbm, ⟨40, _⟩ => ⟨S32x1024x1024, .f32⟩
  | .hbm, ⟨41, _⟩ => ⟨S32x1024x1024, .f32⟩
  | .hbm, ⟨42, _⟩ => ⟨S32x1024x1024, .f32⟩
  | .hbm, ⟨43, _⟩ => ⟨S_, .f32⟩
  | .hbm, ⟨44, _⟩ => ⟨S32x1024, .f32⟩
  | .hbm, ⟨45, _⟩ => ⟨S32x1024x1, .f32⟩
  | .hbm, ⟨46, _⟩ => ⟨S32x1024x1024, .f32⟩
  | .hbm, ⟨47, _⟩ => ⟨S32x1024x1024, .f32⟩
  | .hbm, ⟨48, _⟩ => ⟨S32x1024x512, .f32⟩
  | .hbm, ⟨49, _⟩ => ⟨S32x1024x512, .f32⟩
  | .hbm, ⟨50, _⟩ => ⟨S32x1024x1024, .f32⟩
  | .hbm, ⟨51, _⟩ => ⟨S1024x32x1024, .f32⟩
  | .hbm, ⟨52, _⟩ => ⟨S1024x32x512, .f32⟩
  | .hbm, ⟨53, _⟩ => ⟨S1x1x512, .f32⟩
  | .hbm, ⟨54, _⟩ => ⟨S1024x32x512, .f32⟩
  | .hbm, ⟨55, _⟩ => ⟨S1024x32x512, .f32⟩
  | _, _ => ⟨S1024x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  transposes_S1024x32x512_S32x1024x512_1_0_2 : S1024x32x512.Transposes [1, 0, 2] S32x1024x512
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  concatenates_S32x1024x512_S32x1024x512_S32x1024x1024_d2 : Shape.Concatenates [S32x1024x512, S32x1024x512] S32x1024x1024 2
  transposes_S32x1024x1024_S1024x32x1024_1_0_2 : S32x1024x1024.Transposes [1, 0, 2] S1024x32x1024
  bcast_S512_S1x1x512_2 : S512.BroadcastsInDim S1x1x512 (![2] : Fin 1 → Fin S1x1x512.rank)
  bcast_S1x1x512_S1024x32x512_0_1_2 : S1x1x512.BroadcastsInDim S1024x32x512 (![0, 1, 2] : Fin 3 → Fin S1024x32x512.rank)
  dot_S32x1024x512_S512x512_S32x1024x512_2_1_01_0_n_n_wf : DotDims.WF S32x1024x512 S512x512 S32x1024x512 [2] [1] [0, 1] [0] [] []
  dot_S32x1024x512_S32x1024x512_S32x1024x1024_2_2_1_1_0_0_wf : DotDims.WF S32x1024x512 S32x1024x512 S32x1024x1024 [2] [2] [1] [1] [0] [0]
  dot_S32x1024x1024_S32x1024x512_S32x1024x512_2_1_1_2_0_0_wf : DotDims.WF S32x1024x1024 S32x1024x512 S32x1024x512 [2] [1] [1] [2] [0] [0]
  dot_S1024x32x1024_S512x1024_S1024x32x512_2_1_01_0_n_n_wf : DotDims.WF S1024x32x1024 S512x1024 S1024x32x512 [2] [1] [0, 1] [0] [] []

variable [Facts₀]

def dot_S32x1024x512_S512x512_S32x1024x512_2_1_01_0_n_n : DotDims S32x1024x512 S512x512 S32x1024x512 where
  lhsContracting := [2]
  rhsContracting := [1]
  lhsNonContracting := [0, 1]
  rhsNonContracting := [0]
  lhsBatch := []
  rhsBatch := []
  wf := dot_S32x1024x512_S512x512_S32x1024x512_2_1_01_0_n_n_wf
def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf
def dot_S1024x32x1024_S512x1024_S1024x32x512_2_1_01_0_n_n : DotDims S1024x32x1024 S512x1024 S1024x32x512 where
  lhsContracting := [2]
  rhsContracting := [1]
  lhsNonContracting := [0, 1]
  rhsNonContracting := [0]
  lhsBatch := []
  rhsBatch := []
  wf := dot_S1024x32x1024_S512x1024_S1024x32x512_2_1_01_0_n_n_wf

class Facts : Prop extends Facts₀ where

variable [Facts]
-- ==== Proof.FrameDefsB.lean ====
/-
  The data of the three regions' frame, at any float instance.

  The program is three kernel regions among stretches of host operations.  For each region, at a parameter V (the
  core's buffer contents when the region is entered): a window's block at a grid point, what the body leaves in the
  output window's buffer as a function of the input blocks (its one whole-block store of the body's arithmetic), and
  the proof data of the pipeline (arrays as entered; after the body every input buffer at its block and the output
  buffer at that function; nothing owed; full shares).  Then the buffer contents at every boundary between items,
  folded from the launch memory: a host stretch applies its operations, a region replaces its arrays by what its
  write-backs leave.
-/
import proofs.«136491_j13649406066964_1_alg».proof.Proof.Gen.Kernel.Launch
import proofs.«136491_j13649406066964_1_alg».proof.Proof.Gen.Kernel.Skeleton
import proofs.«136491_j13649406066964_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

variable (V : (c : Dev nD) → (b : Ref sig .tc) → Buf (Elt F) ((c : Thread nD τ).loc b))

/-! ## The whole-block rectangles the bodies load and store through -/

abbrev rX : Rect S1024x512 := Rect.unit (s := S1024x512) ![0, 0] S1024x512.size inb_S1024x512_S1024x512_0_0
abbrev rW : Rect S512x1536 := Rect.unit (s := S512x1536) ![0, 0] S512x1536.size inb_S512x1536_S512x1536_0_0
abbrev rY : Rect S1024x1536 := Rect.unit (s := S1024x1536) ![0, 0] S1024x1536.size inb_S1024x1536_S1024x1536_0_0
abbrev rB : Rect S1x1024x512 := Rect.unit (s := S1x1024x512) ![0, 0, 0] S1x1024x512.size inb_S1x1024x512_S1x1024x512_0_0_0
abbrev rR : Rect S1x512 := Rect.unit (s := S1x512) ![0, 0] S1x512.size inb_S1x512_S1x512_0_0

/-! ## Region 0: the first sequence's three projections, 1024 rows at a time -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output window's buffer after the body: its one whole-block store of the rows' product with the weights. -/
def out0_2 (x0 : Vec F S1024x512 .f32) (x1 : Vec F S512x1536 .bf16) : Vec F S1024x1536 .bf16 :=
  View.canon [⟨rY, k0_pay1 (View.ld x0 rX) (View.ld x1 rW)⟩]

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## Region 1: the second sequence's three projections -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_2 (x0 : Vec F S1024x512 .f32) (x1 : Vec F S512x1536 .bf16) : Vec F S1024x1536 .bf16 :=
  View.canon [⟨rY, k1_pay1 (View.ld x0 rX) (View.ld x1 rW)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-! ## Region 2: one batch's two attentions and the output map -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output window's buffer after the body, from the eight input blocks (queries, keys, values of the first
    sequence; of the second; the output weights; the bias row): its one whole-block store. -/
def out2_8 (x0 x1 x2 x3 x4 x5 : Vec F S1x1024x512 .bf16) (x6 : Vec F S1024x512 .bf16) (x7 : Vec F S1x512 .f32) :
    Vec F S1x1024x512 .f32 :=
  View.canon [⟨rB, k2_pay1 (k2_pay2 (View.ld x5 rB)) (k2_pay3 (View.ld x1 rB) (View.ld x2 rB) (View.ld x3 rB))
    (k2_pay4 (View.ld x0 rB) (View.ld x4 rB)) (View.ld x6 rX) (View.ld x7 rR)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t)
        (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t)
      (iblk2 V c 5 t) (iblk2 V c 6 t) (iblk2 V c 7 t) := by dsimp only [dat2]

end Regions

/-! ## The buffer contents at each boundary between items: a fold through the program -/

variable (m : (ℓ : Loc nD τ sig) → Buf (Elt F) ℓ)

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the core's references. -/
abbrev E0 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (E0 m) c).arrAt w cfg0.N
abbrev E1 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (E1 m) c).arrAt w cfg1.N
abbrev X1 : (c : Dev nD) → (b : Ref sig .tc) → Buf (Elt F) ((c : Thread nD τ).loc b) := fun c b => W3 m c b
/-- After the second host stretch (region 2's entry). -/
abbrev W4 : Dev nD → Valuation τ sig (Elt F) := fun c => StableHlo.after hostOps2 (W3 m c)
abbrev E2 : (c : Dev nD) → (b : Ref sig .tc) → Buf (Elt F) ((c : Thread nD τ).loc b) := fun c b => W4 m c b
/-- At region 2's exit. -/
def W5 (c : Dev nD) : Valuation τ sig (Elt F) :=
  Pipeline.withArrays spec2 c (W4 m c) fun w => (dat2 (E2 m) c).arrAt w cfg2.N
abbrev X2 : (c : Dev nD) → (b : Ref sig .tc) → Buf (Elt F) ((c : Thread nD τ).loc b) := fun c b => W5 m c b
/-- After the last host stretch: the program's end. -/
abbrev W6 : Dev nD → Valuation τ sig (Elt F) := fun c => StableHlo.after hostOps3 (W5 m c)

theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (dat2 (E2 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

/-- Every pipeline's proof data, each at its region's entry contents. -/
abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c

end Cert.Kernel.Fr

end
-- ==== Proof.FrameRun0B.lean ====
/-
  Region 0: the body's triple and the pipeline's body obligation, at any float instance and any entry contents V.
-/
import proofs.«136491_j13649406066964_1_alg».proof.Proof.FrameDefsB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input window's buffer holds its block at every point

  A window that is fetched at a point holds that point's block; one that is not fetched there has an index map that
  did not move since its last fetch, so the block is the same.  Either way the buffer the body reads is the block of
  the array as the region found it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store covers the output buffer -/

theorem cover0_2 (p0 : Vec F S1024x1536 .bf16) (y : S1024x1536.Idx) :
    ∃ pc ∈ ([⟨rY, p0⟩] : List (View.Piece (Elt F) S1024x1536 .bf16)), y ∈ pc.1.set :=
  View.cover_of_tiled [⟨rY, p0⟩] S1024x1536.size (by rfl) y

/-! ## The body's triple

  On whole buffers, the two inputs' at contents x0 and x1 and the output's at anything, the body runs to a state that
  holds the inputs' as they were and the output's at the product written over the whole block. -/

set_option maxHeartbeats 1000000 in
theorem sound_kernel0 (c : Dev nD) (E : Set ℕ) (i : grid0.Coords)
    (arg1 : Memref sig .tc .vmem S1024x512 .f32) (harg1 : arg1.IsWhole)
    (arg2 : Memref sig .tc .vmem S512x1536 .bf16) (harg2 : arg2.IsWhole)
    (arg3 : Memref sig .tc .vmem S1024x1536 .bf16) (harg3 : arg3.IsWhole)
    (x0 : Vec F S1024x512 .f32) (x1 : Vec F S512x1536 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_proj_kernel i arg1 harg1 arg2 harg2 arg3 harg3) K := by
  simp only [cc0__linear_proj_kernel_eq_skeleton]; unfold cc0__linear_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data's input buffers at a point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point

  The body is entered with the invariant, the core's dues, and each window's current buffer whole (an input's at its
  block, the output's at anything); it returns the same with the output's buffer at the product of the two input
  blocks.  The invariant and the dues pass through unread. -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrameRun1B.lean ====
/-
  Region 1: the body's triple and the pipeline's body obligation, at any float instance and any entry contents V.
-/
import proofs.«136491_j13649406066964_1_alg».proof.Proof.FrameDefsB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input window's buffer holds its block at every point

  A window that is fetched at a point holds that point's block; one that is not fetched there has an index map that
  did not move since its last fetch, so the block is the same.  Either way the buffer the body reads is the block of
  the array as the region found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store covers the output buffer -/

theorem cover1_2 (p0 : Vec F S1024x1536 .bf16) (y : S1024x1536.Idx) :
    ∃ pc ∈ ([⟨rY, p0⟩] : List (View.Piece (Elt F) S1024x1536 .bf16)), y ∈ pc.1.set :=
  View.cover_of_tiled [⟨rY, p0⟩] S1024x1536.size (by rfl) y

/-! ## The body's triple

  On whole buffers, the two inputs' at contents x0 and x1 and the output's at anything, the body runs to a state that
  holds the inputs' as they were and the output's at the product written over the whole block. -/

set_option maxHeartbeats 1000000 in
theorem sound_kernel1 (c : Dev nD) (E : Set ℕ) (i : grid1.Coords)
    (arg1 : Memref sig .tc .vmem S1024x512 .f32) (harg1 : arg1.IsWhole)
    (arg2 : Memref sig .tc .vmem S512x1536 .bf16) (harg2 : arg2.IsWhole)
    (arg3 : Memref sig .tc .vmem S1024x1536 .bf16) (harg3 : arg3.IsWhole)
    (x0 : Vec F S1024x512 .f32) (x1 : Vec F S512x1536 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_proj_kernel i arg1 harg1 arg2 harg2 arg3 harg3) K := by
  simp only [cc1__linear_proj_kernel_eq_skeleton]; unfold cc1__linear_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data's input buffers at a point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point

  The body is entered with the invariant, the core's dues, and each window's current buffer whole (an input's at its
  block, the output's at anything); it returns the same with the output's buffer at the product of the two input
  blocks.  The invariant and the dues pass through unread. -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrameRun2B.lean ====
/-
  Region 2: the body's triple and the pipeline's body obligation, at any float instance and any entry contents V.
-/
import proofs.«136491_j13649406066964_1_alg».proof.Proof.FrameDefsB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input window's buffer holds its block at every point

  A window that is fetched at a point holds that point's block; one that is not fetched there (the output weights and
  the bias row, fetched once) has an index map that did not move since its last fetch, so the block is the same. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store covers the output buffer -/

theorem cover2_8 (p0 : Vec F S1x1024x512 .f32) (y : S1x1024x512.Idx) :
    ∃ pc ∈ ([⟨rB, p0⟩] : List (View.Piece (Elt F) S1x1024x512 .f32)), y ∈ pc.1.set :=
  View.cover_of_tiled [⟨rB, p0⟩] S1x1024x512.size (by rfl) y

/-! ## The body's triple

  On whole buffers, the eight inputs' at contents x0 … x7 and the output's at anything, the body — six loads in its
  first part, whose three results it passes on, then two more loads and one store of the whole block — runs to a state
  that holds the inputs' as they were and the output's at the attention output written over the whole block. -/

set_option maxHeartbeats 4000000 in
theorem sound_kernel2 (c : Dev nD) (E : Set ℕ) (i : grid2.Coords)
    (arg1 : Memref sig .tc .vmem S1x1024x512 .bf16) (harg1 : arg1.IsWhole)
    (arg2 : Memref sig .tc .vmem S1x1024x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S1024x512 .bf16) (harg7 : arg7.IsWhole)
    (arg8 : Memref sig .tc .vmem S1x512 .f32) (harg8 : arg8.IsWhole)
    (arg9 : Memref sig .tc .vmem S1x1024x512 .f32) (harg9 : arg9.IsWhole)
    (x0 x1 x2 x3 x4 x5 : Vec F S1x1024x512 .bf16) (x6 : Vec F S1024x512 .bf16) (x7 : Vec F S1x512 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__attn_kernel i arg1 harg1 arg2 harg2 arg3 harg3 arg4 harg4 arg5 harg5 arg6 harg6 arg7 harg7 arg8 harg8 arg9 harg9) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The proof data's input buffers at a point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation at a generic point

  The body is entered with the invariant, the core's dues, and each window's current buffer whole (an input's at its
  block, the output's at anything); it returns the same with the output's buffer at the attention output of the eight
  input blocks.  The invariant and the dues pass through unread. -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrameRunB.lean ====
/-
  The run of the whole program, at any float instance: every weakly fair execution from a memory with zero counters
  terminates without a fault and ends with every unscoped buffer at the last boundary's contents W6; in particular every
  argument array ends as launched.

  The program is six items: a host stretch, two regions back to back, a host stretch, a region, a host stretch.  Between
  two items a core holds every unscoped buffer whole at that boundary's contents (W0 … W6), its generator register at
  some state, and owes nothing.  A host stretch moves the contents by its operations; a region splits its arrays out,
  runs its pipeline on the body obligation, and puts them back at what the write-backs leave.
-/
import proofs.«136491_j13649406066964_1_alg».proof.Proof.FrameRun0B
import proofs.«136491_j13649406066964_1_alg».proof.Proof.FrameRun1B
import proofs.«136491_j13649406066964_1_alg».proof.Proof.FrameRun2B
import proofs.«136491_j13649406066964_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's exit contents: its arrays at what the pipeline leaves, every other buffer as entered -/

theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)
theorem hF1 (c : Dev nD) (w : Fin cfg1.W) : (dat1 (E1 m) c).arrAt w cfg1.N = X1 m c (Pipeline.arrRef spec1 w) :=
  (W3_arr m c w).symm
theorem hrest1 (c : Dev nD) : ∀ b, b ∉ Finset.univ.image (Pipeline.arrRef spec1) → X1 m c b = E1 m c b :=
  fun b hb => W3_of_ne m c b fun w e => hb (Finset.mem_image.mpr ⟨w, Finset.mem_univ _, e⟩)
theorem hF2 (c : Dev nD) (w : Fin cfg2.W) : (dat2 (E2 m) c).arrAt w cfg2.N = X2 m c (Pipeline.arrRef spec2 w) :=
  (W5_arr m c w).symm
theorem hrest2 (c : Dev nD) : ∀ b, b ∉ Finset.univ.image (Pipeline.arrRef spec2) → X2 m c b = E2 m c b :=
  fun b hb => W5_of_ne m c b fun w e => hb (Finset.mem_image.mpr ⟨w, Finset.mem_univ _, e⟩)

/-! ## The arguments end as launched

  No host operation writes an argument (each writes a fresh result), and no region's window is staged from one (every
  window's array is a host result), so the fold at an argument's buffer walks back to the launch memory. -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps3 _ hostOps3_writes (by decide)
    _ = W4 m c (Proc.devRef .tc main_arg0) := W5_of_ne m c main_arg0 (by decide)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps3 _ hostOps3_writes (by decide)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps3 _ hostOps3_writes (by decide)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps3 _ hostOps3_writes (by decide)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps3 _ hostOps3_writes (by decide)
    _ = W4 m c (Proc.devRef .tc main_arg4) := W5_of_ne m c main_arg4 (by decide)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps3 _ hostOps3_writes (by decide)
    _ = W4 m c (Proc.devRef .tc main_arg5) := W5_of_ne m c main_arg5 (by decide)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps3 _ hostOps3_writes (by decide)
    _ = W4 m c (Proc.devRef .tc main_arg6) := W5_of_ne m c main_arg6 (by decide)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps3 _ hostOps3_writes (by decide)
    _ = W4 m c (Proc.devRef .tc main_arg7) := W5_of_ne m c main_arg7 (by decide)
    _ = W3 m c (Proc.devRef .tc main_arg7) := StableHlo.after_of_writes_sub hostOps2 _ hostOps2_writes (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := StableHlo.after_of_writes_sub hostOps3 _ hostOps3_writes (by decide)
    _ = W4 m c (Proc.devRef .tc main_arg8) := W5_of_ne m c main_arg8 (by decide)
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W6_main_arg9 (c : Dev nD) : W6 m c (Proc.devRef .tc main_arg9) = m ((c : Thread nD τ).loc main_arg9) :=
  calc W6 m c (Proc.devRef .tc main_arg9)
    _ = W5 m c (Proc.devRef .tc main_arg9) := StableHlo.after_of_writes_sub hostOps3 _ hostOps3_writes (by decide)
    _ = W4 m c (Proc.devRef .tc main_arg9) := W5_of_ne m c main_arg9 (by decide)
    _ = W3 m c (Proc.devRef .tc main_arg9) := StableHlo.after_of_writes_sub hostOps2 _ hostOps2_writes (by decide)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along; it ends with those
    references at the stretch's operations applied to W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at W6, the generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered with every unscoped buffer at W1, left with them at W2.  Its arrays are
    split out of the unscoped buffers and put back at what the write-backs leave; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W2, left with them at W3.  Its arrays are
    split out of the unscoped buffers and put back at what the write-backs leave; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W4, left with them at W5.  Its arrays are
    split out of the unscoped buffers and put back at what the write-backs leave; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in
/-- Every weakly fair execution of the program from memory m with zero counters terminates, nothing faulting, and every
    final memory holds each unscoped buffer of each core at W6. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- Every weakly fair execution terminates, nothing faulting, and every final memory has the ten argument arrays as
    launched: each is an unscoped buffer, read at W6 and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c),
      (h c _ (mem_uc main_arg9 (by decide))).trans (W6_main_arg9 m c)⟩) (run_all m ρ)

end Cert.Kernel.Fr

end
-- ==== Proof.FrameDefsI.lean ====
/-
  The data of the three regions' frame, at any float instance.

  The program is three kernel regions among stretches of host operations.  For each region, at a parameter V (the
  core's buffer contents when the region is entered): a window's block at a grid point, what the body leaves in the
  output window's buffer as a function of the input blocks (its one whole-block store of the body's arithmetic), and
  the proof data of the pipeline (arrays as entered; after the body every input buffer at its block and the output
  buffer at that function; nothing owed; full shares).  Then the buffer contents at every boundary between items,
  folded from the launch memory: a host stretch applies its operations, a region replaces its arrays by what its
  write-backs leave.
-/
import proofs.«136491_j13649406066964_1_alg».proof.Proof.Gen.KernelIdeal.Launch
import proofs.«136491_j13649406066964_1_alg».proof.Proof.Gen.KernelIdeal.Skeleton
import proofs.«136491_j13649406066964_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

variable (V : (c : Dev nD) → (b : Ref sig .tc) → Buf (Elt F) ((c : Thread nD τ).loc b))

/-! ## The whole-block rectangles the bodies load and store through -/

abbrev rX : Rect S1024x512 := Rect.unit (s := S1024x512) ![0, 0] S1024x512.size inb_S1024x512_S1024x512_0_0
abbrev rW : Rect S512x1536 := Rect.unit (s := S512x1536) ![0, 0] S512x1536.size inb_S512x1536_S512x1536_0_0
abbrev rY : Rect S1024x1536 := Rect.unit (s := S1024x1536) ![0, 0] S1024x1536.size inb_S1024x1536_S1024x1536_0_0
abbrev rB : Rect S1x1024x512 := Rect.unit (s := S1x1024x512) ![0, 0, 0] S1x1024x512.size inb_S1x1024x512_S1x1024x512_0_0_0
abbrev rR : Rect S1x512 := Rect.unit (s := S1x512) ![0, 0] S1x512.size inb_S1x512_S1x512_0_0

/-! ## Region 0: the first sequence's three projections, 1024 rows at a time -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output window's buffer after the body: its one whole-block store of the rows' product with the weights. -/
def out0_2 (x0 : Vec F S1024x512 .f32) (x1 : Vec F S512x1536 .bf16) : Vec F S1024x1536 .bf16 :=
  View.canon [⟨rY, k0_pay1 (View.ld x0 rX) (View.ld x1 rW)⟩]

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## Region 1: the second sequence's three projections -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_2 (x0 : Vec F S1024x512 .f32) (x1 : Vec F S512x1536 .bf16) : Vec F S1024x1536 .bf16 :=
  View.canon [⟨rY, k1_pay1 (View.ld x0 rX) (View.ld x1 rW)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-! ## Region 2: one batch's two attentions and the output map -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output window's buffer after the body, from the eight input blocks (queries, keys, values of the first
    sequence; of the second; the output weights; the bias row): its one whole-block store. -/
def out2_8 (x0 x1 x2 x3 x4 x5 : Vec F S1x1024x512 .bf16) (x6 : Vec F S1024x512 .bf16) (x7 : Vec F S1x512 .f32) :
    Vec F S1x1024x512 .f32 :=
  View.canon [⟨rB, k2_pay1 (k2_pay2 (View.ld x5 rB)) (k2_pay3 (View.ld x1 rB) (View.ld x2 rB) (View.ld x3 rB))
    (k2_pay4 (View.ld x0 rB) (View.ld x4 rB)) (View.ld x6 rX) (View.ld x7 rR)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t)
        (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t)
      (iblk2 V c 5 t) (iblk2 V c 6 t) (iblk2 V c 7 t) := by dsimp only [dat2]

end Regions

/-! ## The buffer contents at each boundary between items: a fold through the program -/

variable (m : (ℓ : Loc nD τ sig) → Buf (Elt F) ℓ)

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the core's references. -/
abbrev E0 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (E0 m) c).arrAt w cfg0.N
abbrev E1 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (E1 m) c).arrAt w cfg1.N
abbrev X1 : (c : Dev nD) → (b : Ref sig .tc) → Buf (Elt F) ((c : Thread nD τ).loc b) := fun c b => W3 m c b
/-- After the second host stretch (region 2's entry). -/
abbrev W4 : Dev nD → Valuation τ sig (Elt F) := fun c => StableHlo.after hostOps2 (W3 m c)
abbrev E2 : (c : Dev nD) → (b : Ref sig .tc) → Buf (Elt F) ((c : Thread nD τ).loc b) := fun c b => W4 m c b
/-- At region 2's exit. -/
def W5 (c : Dev nD) : Valuation τ sig (Elt F) :=
  Pipeline.withArrays spec2 c (W4 m c) fun w => (dat2 (E2 m) c).arrAt w cfg2.N
abbrev X2 : (c : Dev nD) → (b : Ref sig .tc) → Buf (Elt F) ((c : Thread nD τ).loc b) := fun c b => W5 m c b
/-- After the last host stretch: the program's end. -/
abbrev W6 : Dev nD → Valuation τ sig (Elt F) := fun c => StableHlo.after hostOps3 (W5 m c)

theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (dat2 (E2 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

/-- Every pipeline's proof data, each at its region's entry contents. -/
abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c

end Cert.KernelIdeal.Fr

end
-- ==== Proof.FrameRun0I.lean ====
/-
  Region 0: the body's triple and the pipeline's body obligation, at any float instance and any entry contents V.
-/
import proofs.«136491_j13649406066964_1_alg».proof.Proof.FrameDefsI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input window's buffer holds its block at every point

  A window that is fetched at a point holds that point's block; one that is not fetched there has an index map that
  did not move since its last fetch, so the block is the same.  Either way the buffer the body reads is the block of
  the array as the region found it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store covers the output buffer -/

theorem cover0_2 (p0 : Vec F S1024x1536 .bf16) (y : S1024x1536.Idx) :
    ∃ pc ∈ ([⟨rY, p0⟩] : List (View.Piece (Elt F) S1024x1536 .bf16)), y ∈ pc.1.set :=
  View.cover_of_tiled [⟨rY, p0⟩] S1024x1536.size (by rfl) y

/-! ## The body's triple

  On whole buffers, the two inputs' at contents x0 and x1 and the output's at anything, the body runs to a state that
  holds the inputs' as they were and the output's at the product written over the whole block. -/

set_option maxHeartbeats 1000000 in
theorem sound_kernel0 (c : Dev nD) (E : Set ℕ) (i : grid0.Coords)
    (arg1 : Memref sig .tc .vmem S1024x512 .f32) (harg1 : arg1.IsWhole)
    (arg2 : Memref sig .tc .vmem S512x1536 .bf16) (harg2 : arg2.IsWhole)
    (arg3 : Memref sig .tc .vmem S1024x1536 .bf16) (harg3 : arg3.IsWhole)
    (x0 : Vec F S1024x512 .f32) (x1 : Vec F S512x1536 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_proj_kernel i arg1 harg1 arg2 harg2 arg3 harg3) K := by
  simp only [cc0__linear_proj_kernel_eq_skeleton]; unfold cc0__linear_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data's input buffers at a point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point

  The body is entered with the invariant, the core's dues, and each window's current buffer whole (an input's at its
  block, the output's at anything); it returns the same with the output's buffer at the product of the two input
  blocks.  The invariant and the dues pass through unread. -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameRun1I.lean ====
/-
  Region 1: the body's triple and the pipeline's body obligation, at any float instance and any entry contents V.
-/
import proofs.«136491_j13649406066964_1_alg».proof.Proof.FrameDefsI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input window's buffer holds its block at every point

  A window that is fetched at a point holds that point's block; one that is not fetched there has an index map that
  did not move since its last fetch, so the block is the same.  Either way the buffer the body reads is the block of
  the array as the region found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store covers the output buffer -/

theorem cover1_2 (p0 : Vec F S1024x1536 .bf16) (y : S1024x1536.Idx) :
    ∃ pc ∈ ([⟨rY, p0⟩] : List (View.Piece (Elt F) S1024x1536 .bf16)), y ∈ pc.1.set :=
  View.cover_of_tiled [⟨rY, p0⟩] S1024x1536.size (by rfl) y

/-! ## The body's triple

  On whole buffers, the two inputs' at contents x0 and x1 and the output's at anything, the body runs to a state that
  holds the inputs' as they were and the output's at the product written over the whole block. -/

set_option maxHeartbeats 1000000 in
theorem sound_kernel1 (c : Dev nD) (E : Set ℕ) (i : grid1.Coords)
    (arg1 : Memref sig .tc .vmem S1024x512 .f32) (harg1 : arg1.IsWhole)
    (arg2 : Memref sig .tc .vmem S512x1536 .bf16) (harg2 : arg2.IsWhole)
    (arg3 : Memref sig .tc .vmem S1024x1536 .bf16) (harg3 : arg3.IsWhole)
    (x0 : Vec F S1024x512 .f32) (x1 : Vec F S512x1536 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_proj_kernel i arg1 harg1 arg2 harg2 arg3 harg3) K := by
  simp only [cc1__linear_proj_kernel_eq_skeleton]; unfold cc1__linear_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data's input buffers at a point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point

  The body is entered with the invariant, the core's dues, and each window's current buffer whole (an input's at its
  block, the output's at anything); it returns the same with the output's buffer at the product of the two input
  blocks.  The invariant and the dues pass through unread. -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameRun2I.lean ====
/-
  Region 2: the body's triple and the pipeline's body obligation, at any float instance and any entry contents V.
-/
import proofs.«136491_j13649406066964_1_alg».proof.Proof.FrameDefsI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input window's buffer holds its block at every point

  A window that is fetched at a point holds that point's block; one that is not fetched there (the output weights and
  the bias row, fetched once) has an index map that did not move since its last fetch, so the block is the same. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store covers the output buffer -/

theorem cover2_8 (p0 : Vec F S1x1024x512 .f32) (y : S1x1024x512.Idx) :
    ∃ pc ∈ ([⟨rB, p0⟩] : List (View.Piece (Elt F) S1x1024x512 .f32)), y ∈ pc.1.set :=
  View.cover_of_tiled [⟨rB, p0⟩] S1x1024x512.size (by rfl) y

/-! ## The body's triple

  On whole buffers, the eight inputs' at contents x0 … x7 and the output's at anything, the body — six loads in its
  first part, whose three results it passes on, then two more loads and one store of the whole block — runs to a state
  that holds the inputs' as they were and the output's at the attention output written over the whole block. -/

set_option maxHeartbeats 4000000 in
theorem sound_kernel2 (c : Dev nD) (E : Set ℕ) (i : grid2.Coords)
    (arg1 : Memref sig .tc .vmem S1x1024x512 .bf16) (harg1 : arg1.IsWhole)
    (arg2 : Memref sig .tc .vmem S1x1024x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x1024x512 .bf16) (harg5 : arg5.IsWhole)
    (arg6 : Memref sig .tc .vmem S1x1024x512 .bf16) (harg6 : arg6.IsWhole)
    (arg7 : Memref sig .tc .vmem S1024x512 .bf16) (harg7 : arg7.IsWhole)
    (arg8 : Memref sig .tc .vmem S1x512 .f32) (harg8 : arg8.IsWhole)
    (arg9 : Memref sig .tc .vmem S1x1024x512 .f32) (harg9 : arg9.IsWhole)
    (x0 x1 x2 x3 x4 x5 : Vec F S1x1024x512 .bf16) (x6 : Vec F S1024x512 .bf16) (x7 : Vec F S1x512 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__attn_kernel i arg1 harg1 arg2 harg2 arg3 harg3 arg4 harg4 arg5 harg5 arg6 harg6 arg7 harg7 arg8 harg8 arg9 harg9) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The proof data's input buffers at a point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation at a generic point

  The body is entered with the invariant, the core's dues, and each window's current buffer whole (an input's at its
  block, the output's at anything); it returns the same with the output's buffer at the attention output of the eight
  input blocks.  The invariant and the dues pass through unread. -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrameRunI.lean ====
/-
  The run of the whole program, at any float instance: every weakly fair execution from a memory with zero counters
  terminates without a fault and ends with every unscoped buffer at the last boundary's contents W6; in particular every
  argument array ends as launched.

  The program is six items: a host stretch, two regions back to back, a host stretch, a region, a host stretch.  Between
  two items a core holds every unscoped buffer whole at that boundary's contents (W0 … W6), its generator register at
  some state, and owes nothing.  A host stretch moves the contents by its operations; a region splits its arrays out,
  runs its pipeline on the body obligation, and puts them back at what the write-backs leave.
-/
import proofs.«136491_j13649406066964_1_alg».proof.Proof.FrameRun0I
import proofs.«136491_j13649406066964_1_alg».proof.Proof.FrameRun1I
import proofs.«136491_j13649406066964_1_alg».proof.Proof.FrameRun2I
import proofs.«136491_j13649406066964_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's exit contents: its arrays at what the pipeline leaves, every other buffer as entered -/

theorem hF0 (c : Dev nD) (w : Fin cfg0.W) : (dat0 (E0 m) c).arrAt w cfg0.N = E1 m c (Pipeline.arrRef spec0 w) :=
  (W2_arr m c w).symm
theorem hrest0 (c : Dev nD) : ∀ b, b ∉ Finset.univ.image (Pipeline.arrRef spec0) → E1 m c b = E0 m c b :=
  fun b hb => W2_of_ne m c b fun w e => hb (Finset.mem_image.mpr ⟨w, Finset.mem_univ _, e⟩)
theorem hF1 (c : Dev nD) (w : Fin cfg1.W) : (dat1 (E1 m) c).arrAt w cfg1.N = X1 m c (Pipeline.arrRef spec1 w) :=
  (W3_arr m c w).symm
theorem hrest1 (c : Dev nD) : ∀ b, b ∉ Finset.univ.image (Pipeline.arrRef spec1) → X1 m c b = E1 m c b :=
  fun b hb => W3_of_ne m c b fun w e => hb (Finset.mem_image.mpr ⟨w, Finset.mem_univ _, e⟩)
theorem hF2 (c : Dev nD) (w : Fin cfg2.W) : (dat2 (E2 m) c).arrAt w cfg2.N = X2 m c (Pipeline.arrRef spec2 w) :=
  (W5_arr m c w).symm
theorem hrest2 (c : Dev nD) : ∀ b, b ∉ Finset.univ.image (Pipeline.arrRef spec2) → X2 m c b = E2 m c b :=
  fun b hb => W5_of_ne m c b fun w e => hb (Finset.mem_image.mpr ⟨w, Finset.mem_univ _, e⟩)

/-! ## The arguments end as launched

  No host operation writes an argument (each writes a fresh result), and no region's window is staged from one (every
  window's array is a host result), so the fold at an argument's buffer walks back to the launch memory. -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps3 _ hostOps3_writes (by decide)
    _ = W4 m c (Proc.devRef .tc main_arg0) := W5_of_ne m c main_arg0 (by decide)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps3 _ hostOps3_writes (by decide)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps3 _ hostOps3_writes (by decide)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps3 _ hostOps3_writes (by decide)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps3 _ hostOps3_writes (by decide)
    _ = W4 m c (Proc.devRef .tc main_arg4) := W5_of_ne m c main_arg4 (by decide)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps3 _ hostOps3_writes (by decide)
    _ = W4 m c (Proc.devRef .tc main_arg5) := W5_of_ne m c main_arg5 (by decide)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps3 _ hostOps3_writes (by decide)
    _ = W4 m c (Proc.devRef .tc main_arg6) := W5_of_ne m c main_arg6 (by decide)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps3 _ hostOps3_writes (by decide)
    _ = W4 m c (Proc.devRef .tc main_arg7) := W5_of_ne m c main_arg7 (by decide)
    _ = W3 m c (Proc.devRef .tc main_arg7) := StableHlo.after_of_writes_sub hostOps2 _ hostOps2_writes (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := StableHlo.after_of_writes_sub hostOps3 _ hostOps3_writes (by decide)
    _ = W4 m c (Proc.devRef .tc main_arg8) := W5_of_ne m c main_arg8 (by decide)
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W6_main_arg9 (c : Dev nD) : W6 m c (Proc.devRef .tc main_arg9) = m ((c : Thread nD τ).loc main_arg9) :=
  calc W6 m c (Proc.devRef .tc main_arg9)
    _ = W5 m c (Proc.devRef .tc main_arg9) := StableHlo.after_of_writes_sub hostOps3 _ hostOps3_writes (by decide)
    _ = W4 m c (Proc.devRef .tc main_arg9) := W5_of_ne m c main_arg9 (by decide)
    _ = W3 m c (Proc.devRef .tc main_arg9) := StableHlo.after_of_writes_sub hostOps2 _ hostOps2_writes (by decide)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along; it ends with those
    references at the stretch's operations applied to W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at W6, the generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered with every unscoped buffer at W1, left with them at W2.  Its arrays are
    split out of the unscoped buffers and put back at what the write-backs leave; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W2, left with them at W3.  Its arrays are
    split out of the unscoped buffers and put back at what the write-backs leave; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W4, left with them at W5.  Its arrays are
    split out of the unscoped buffers and put back at what the write-backs leave; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in
/-- Every weakly fair execution of the program from memory m with zero counters terminates, nothing faulting, and every
    final memory holds each unscoped buffer of each core at W6. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- Every weakly fair execution terminates, nothing faulting, and every final memory has the ten argument arrays as
    launched: each is an unscoped buffer, read at W6 and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c),
      (h c _ (mem_uc main_arg9 (by decide))).trans (W6_main_arg9 m c)⟩) (run_all m ρ)

end Cert.KernelIdeal.Fr

end
-- ==== Proof.LibAfterSplit.lean ====
/-
  A line of host operations run from given buffer contents is a fold over the line; the fold over a line is the fold
  over any tail of it started from the fold over the matching head.
-/
import Idealize.ShloMosaic.Lib.StableHlo.Run

noncomputable section

namespace Cert.AfterSplit

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

theorem after_take_drop (l : List (HloOp τ sig Val)) (k : ℕ) (V : Valuation τ sig Val) :
    after l V = after (l.drop k) (after (l.take k) V) := by
  rw [← after_append, List.take_append_drop]

end Cert.AfterSplit

end
-- ==== Proof.RefRun.lean ====
/-
  The reference program's run, read back.

  The reference is a straight line of 46 host operations.  Run from a memory, every weakly fair execution terminates
  and leaves in each buffer what the operations, folded over the launch contents in order, put there.  The result
  buffer's contents are named as one composed term of the ten arguments.  The fold is read back in two steps, cut
  where the two attended blocks are laid side by side: the operations before the cut give the two blocks (and leave
  the output weights and the bias as launched), the six operations after it turn those into the result.
-/
import proofs.«136491_j13649406066964_1_alg».proof.Proof.Gen.ReferenceIdeal
import proofs.«136491_j13649406066964_1_alg».proof.Proof.LibAfterSplit
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The operations before the two attended blocks are joined: the projections, the two score matrices, their row
    normalisation, the two attended blocks. -/
abbrev opsA : List (HloOp τ sig (Elt F)) :=
  [ unary main_arg0 main_v0 ((transpose S32x1024x512 [1, 0, 2] · transposes_S1024x32x512_S32x1024x512_1_0_2) : (⟨S1024x32x512, .f32⟩ : BufTy).Contents (Elt F) → (⟨S32x1024x512, .f32⟩ : BufTy).Contents (Elt F)),
    unary main_arg1 main_v1 ((transpose S32x1024x512 [1, 0, 2] · transposes_S1024x32x512_S32x1024x512_1_0_2) : (⟨S1024x32x512, .f32⟩ : BufTy).Contents (Elt F) → (⟨S32x1024x512, .f32⟩ : BufTy).Contents (Elt F)),
    binary main_v0 main_arg2 main_v2 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    binary main_v0 main_arg3 main_v3 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    binary main_v0 main_arg4 main_v4 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    binary main_v1 main_arg5 main_v5 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    binary main_v1 main_arg6 main_v6 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    binary main_v1 main_arg7 main_v7 ((fun l r => Host.dotGeneral dot_S32x1024x512_S512x512_S32x1024x512_2_1_01_0_n_n none l r) : (⟨S32x1024x512, .f32⟩ : BufTy).Contents (Elt F) → (⟨S512x512, .f32⟩ : BufTy).Contents (Elt F) → (⟨S32x1024x512, .f32⟩ : BufTy).Contents (Elt F)),
    binary main_v5 main_v3 main_v8 ((fun l r => Host.dotGeneral dot_S32x1024x512_S32x1024x512_S32x1024x1024_2_2_1_1_0_0 none l r) : (⟨S32x1024x512, .f32⟩ : BufTy).Contents (Elt F) → (⟨S32x1024x512, .f32⟩ : BufTy).Contents (Elt F) → (⟨S32x1024x1024, .f32⟩ : BufTy).Contents (Elt F)),
    nullary main_cst (constant S_ .f32 0xFF800000#32),
    binary main_v8 main_cst main_v9 ((fun x v => Host.reduce FloatOps.maximumf x v reducesTo_S32x1024x1024_S32x1024_d2 h_S_) : (⟨S32x1024x1024, .f32⟩ : BufTy).Contents (Elt F) → (⟨S_, .f32⟩ : BufTy).Contents (Elt F) → (⟨S32x1024, .f32⟩ : BufTy).Contents (Elt F)),
    nullary main_cst_0 (constant S_ .f32 0xFF800000#32),
    unary main_cst_0 main_v10 (broadcastInDim S32x1024 ![] bcast_S_S32x1024 : (⟨S_, .f32⟩ : BufTy).Contents (Elt F) → (⟨S32x1024, .f32⟩ : BufTy).Contents (Elt F)),
    binary main_v10 main_v9 main_v11 (maximumf : (⟨S32x1024, .f32⟩ : BufTy).Contents (Elt F) → (⟨S32x1024, .f32⟩ : BufTy).Contents (Elt F) → (⟨S32x1024, .f32⟩ : BufTy).Contents (Elt F)),
    unary main_v11 main_v12 (broadcastInDim S32x1024x1 ![0, 1] bcast_S32x1024_S32x1024x1_0_1 : (⟨S32x1024, .f32⟩ : BufTy).Contents (Elt F) → (⟨S32x1024x1, .f32⟩ : BufTy).Contents (Elt F)),
    unary main_v12 main_v13 (broadcastInDim S32x1024x1024 ![0, 1, 2] bcast_S32x1024x1_S32x1024x1024_0_1_2 : (⟨S32x1024x1, .f32⟩ : BufTy).Contents (Elt F) → (⟨S32x1024x1024, .f32⟩ : BufTy).Contents (Elt F)),
    binary main_v8 main_v13 main_v14 (subf : (⟨S32x1024x1024, .f32⟩ : BufTy).Contents (Elt F) → (⟨S32x1024x1024, .f32⟩ : BufTy).Contents (Elt F) → (⟨S32x1024x1024, .f32⟩ : BufTy).Contents (Elt F)),
    unary main_v14 main_v15 (Host.exp : (⟨S32x1024x1024, .f32⟩ : BufTy).Contents (Elt F) → (⟨S32x1024x1024, .f32⟩ : BufTy).Contents (Elt F)),
    nullary main_cst_1 (constant S_ .f32 0x00000000#32),
    binary main_v15 main_cst_1 main_v16 ((fun x v => Host.reduceAdd x v reducesTo_S32x1024x1024_S32x1024_d2 h_S_) : (⟨S32x1024x1024, .f32⟩ : BufTy).Contents (Elt F) → (⟨S_, .f32⟩ : BufTy).Contents (Elt F) → (⟨S32x1024, .f32⟩ : BufTy).Contents (Elt F)),
    unary main_v16 main_v17 (broadcastInDim S32x1024x1 ![0, 1] bcast_S32x1024_S32x1024x1_0_1 : (⟨S32x1024, .f32⟩ : BufTy).Contents (Elt F) → (⟨S32x1024x1, .f32⟩ : BufTy).Contents (Elt F)),
    unary main_v17 main_v18 (broadcastInDim S32x1024x1024 ![0, 1, 2] bcast_S32x1024x1_S32x1024x1024_0_1_2 : (⟨S32x1024x1, .f32⟩ : BufTy).Contents (Elt F) → (⟨S32x1024x1024, .f32⟩ : BufTy).Contents (Elt F)),
    binary main_v15 main_v18 main_v19 (Host.divf : (⟨S32x1024x1024, .f32⟩ : BufTy).Contents (Elt F) → (⟨S32x1024x1024, .f32⟩ : BufTy).Contents (Elt F) → (⟨S32x1024x1024, .f32⟩ : BufTy).Contents (Elt F)),
    binary main_v2 main_v6 main_v20 ((fun l r => Host.dotGeneral dot_S32x1024x512_S32x1024x512_S32x1024x1024_2_2_1_1_0_0 none l r) : (⟨S32x1024x512, .f32⟩ : BufTy).Contents (Elt F) → (⟨S32x1024x512, .f32⟩ : BufTy).Contents (Elt F) → (⟨S32x1024x1024, .f32⟩ : BufTy).Contents (Elt F)),
    nullary main_cst_2 (constant S_ .f32 0xFF800000#32),
    binary main_v20 main_cst_2 main_v21 ((fun x v => Host.reduce FloatOps.maximumf x v reducesTo_S32x1024x1024_S32x1024_d2 h_S_) : (⟨S32x1024x1024, .f32⟩ : BufTy).Contents (Elt F) → (⟨S_, .f32⟩ : BufTy).Contents (Elt F) → (⟨S32x1024, .f32⟩ : BufTy).Contents (Elt F)),
    nullary main_cst_3 (constant S_ .f32 0xFF800000#32),
    unary main_cst_3 main_v22 (broadcastInDim S32x1024 ![] bcast_S_S32x1024 : (⟨S_, .f32⟩ : BufTy).Contents (Elt F) → (⟨S32x1024, .f32⟩ : BufTy).Contents (Elt F)),
    binary main_v22 main_v21 main_v23 (maximumf : (⟨S32x1024, .f32⟩ : BufTy).Contents (Elt F) → (⟨S32x1024, .f32⟩ : BufTy).Contents (Elt F) → (⟨S32x1024, .f32⟩ : BufTy).Contents (Elt F)),
    unary main_v23 main_v24 (broadcastInDim S32x1024x1 ![0, 1] bcast_S32x1024_S32x1024x1_0_1 : (⟨S32x1024, .f32⟩ : BufTy).Contents (Elt F) → (⟨S32x1024x1, .f32⟩ : BufTy).Contents (Elt F)),
    unary main_v24 main_v25 (broadcastInDim S32x1024x1024 ![0, 1, 2] bcast_S32x1024x1_S32x1024x1024_0_1_2 : (⟨S32x1024x1, .f32⟩ : BufTy).Contents (Elt F) → (⟨S32x1024x1024, .f32⟩ : BufTy).Contents (Elt F)),
    binary main_v20 main_v25 main_v26 (subf : (⟨S32x1024x1024, .f32⟩ : BufTy).Contents (Elt F) → (⟨S32x1024x1024, .f32⟩ : BufTy).Contents (Elt F) → (⟨S32x1024x1024, .f32⟩ : BufTy).Contents (Elt F)),
    unary main_v26 main_v27 (Host.exp : (⟨S32x1024x1024, .f32⟩ : BufTy).Contents (Elt F) → (⟨S32x1024x1024, .f32⟩ : BufTy).Contents (Elt F)),
    nullary main_cst_4 (constant S_ .f32 0x00000000#32),
    binary main_v27 main_cst_4 main_v28 ((fun x v => Host.reduceAdd x v reducesTo_S32x1024x1024_S32x1024_d2 h_S_) : (⟨S32x1024x1024, .f32⟩ : BufTy).Contents (Elt F) → (⟨S_, .f32⟩ : BufTy).Contents (Elt F) → (⟨S32x1024, .f32⟩ : BufTy).Contents (Elt F)),
    unary main_v28 main_v29 (broadcastInDim S32x1024x1 ![0, 1] bcast_S32x1024_S32x1024x1_0_1 : (⟨S32x1024, .f32⟩ : BufTy).Contents (Elt F) → (⟨S32x1024x1, .f32⟩ : BufTy).Contents (Elt F)),
    unary main_v29 main_v30 (broadcastInDim S32x1024x1024 ![0, 1, 2] bcast_S32x1024x1_S32x1024x1024_0_1_2 : (⟨S32x1024x1, .f32⟩ : BufTy).Contents (Elt F) → (⟨S32x1024x1024, .f32⟩ : BufTy).Contents (Elt F)),
    binary main_v27 main_v30 main_v31 (Host.divf : (⟨S32x1024x1024, .f32⟩ : BufTy).Contents (Elt F) → (⟨S32x1024x1024, .f32⟩ : BufTy).Contents (Elt F) → (⟨S32x1024x1024, .f32⟩ : BufTy).Contents (Elt F)),
    binary main_v19 main_v4 main_v32 ((fun l r => Host.dotGeneral dot_S32x1024x1024_S32x1024x512_S32x1024x512_2_1_1_2_0_0 none l r) : (⟨S32x1024x1024, .f32⟩ : BufTy).Contents (Elt F) → (⟨S32x1024x512, .f32⟩ : BufTy).Contents (Elt F) → (⟨S32x1024x512, .f32⟩ : BufTy).Contents (Elt F)),
    binary main_v31 main_v7 main_v33 ((fun l r => Host.dotGeneral dot_S32x1024x1024_S32x1024x512_S32x1024x512_2_1_1_2_0_0 none l r) : (⟨S32x1024x1024, .f32⟩ : BufTy).Contents (Elt F) → (⟨S32x1024x512, .f32⟩ : BufTy).Contents (Elt F) → (⟨S32x1024x512, .f32⟩ : BufTy).Contents (Elt F)) ]

/-- The operations from the join on: the blocks side by side, back to position-major, the output map, the bias. -/
abbrev opsB : List (HloOp τ sig (Elt F)) :=
  [ binary main_v32 main_v33 main_v34 ((fun a b => concatenate S32x1024x1024 2 [⟨S32x1024x512, a⟩, ⟨S32x1024x512, b⟩] concatenates_S32x1024x512_S32x1024x512_S32x1024x1024_d2) : (⟨S32x1024x512, .f32⟩ : BufTy).Contents (Elt F) → (⟨S32x1024x512, .f32⟩ : BufTy).Contents (Elt F) → (⟨S32x1024x1024, .f32⟩ : BufTy).Contents (Elt F)),
    unary main_v34 main_v35 ((transpose S1024x32x1024 [1, 0, 2] · transposes_S32x1024x1024_S1024x32x1024_1_0_2) : (⟨S32x1024x1024, .f32⟩ : BufTy).Contents (Elt F) → (⟨S1024x32x1024, .f32⟩ : BufTy).Contents (Elt F)),
    binary main_v35 main_arg8 main_v36 ((fun l r => Host.dotGeneral dot_S1024x32x1024_S512x1024_S1024x32x512_2_1_01_0_n_n none l r) : (⟨S1024x32x1024, .f32⟩ : BufTy).Contents (Elt F) → (⟨S512x1024, .f32⟩ : BufTy).Contents (Elt F) → (⟨S1024x32x512, .f32⟩ : BufTy).Contents (Elt F)),
    unary main_arg9 main_v37 (broadcastInDim S1x1x512 ![2] bcast_S512_S1x1x512_2 : (⟨S512, .f32⟩ : BufTy).Contents (Elt F) → (⟨S1x1x512, .f32⟩ : BufTy).Contents (Elt F)),
    unary main_v37 main_v38 (broadcastInDim S1024x32x512 ![0, 1, 2] bcast_S1x1x512_S1024x32x512_0_1_2 : (⟨S1x1x512, .f32⟩ : BufTy).Contents (Elt F) → (⟨S1024x32x512, .f32⟩ : BufTy).Contents (Elt F)),
    binary main_v36 main_v38 main_v39 (addf : (⟨S1024x32x512, .f32⟩ : BufTy).Contents (Elt F) → (⟨S1024x32x512, .f32⟩ : BufTy).Contents (Elt F) → (⟨S1024x32x512, .f32⟩ : BufTy).Contents (Elt F)) ]

/-- The program's 46 operations, in order. -/
abbrev ops : List (HloOp τ sig (Elt F)) := opsA ++ opsB

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., binary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., binary_bufs_sub .., unary_bufs_sub .., unary_bufs_sub .., binary_bufs_sub ..⟩

set_option maxRecDepth 8192 in
/-- The result buffer's composed term of the arguments. -/
def res_main_v39 (m : (ℓ : Loc nD τ sig) → Buf (Elt F) ℓ) (c : Dev nD) : Buf (Elt F) ((c.tc : Thread nD τ).loc main_v39) :=
  addf (Host.dotGeneral dot_S1024x32x1024_S512x1024_S1024x32x512_2_1_01_0_n_n none (transpose S1024x32x1024 [1, 0, 2] (concatenate S32x1024x1024 2 [⟨S32x1024x512, (Host.dotGeneral dot_S32x1024x1024_S32x1024x512_S32x1024x512_2_1_1_2_0_0 none (Host.divf (Host.exp (subf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg5))) (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg3)))) (broadcastInDim S32x1024x1024 ![0, 1, 2] bcast_S32x1024x1_S32x1024x1024_0_1_2 (broadcastInDim S32x1024x1 ![0, 1] bcast_S32x1024_S32x1024x1_0_1 (maximumf (broadcastInDim S32x1024 ![] bcast_S_S32x1024 (constant S_ .f32 0xFF800000#32)) (Host.reduce FloatOps.maximumf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg5))) (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg3)))) (constant S_ .f32 0xFF800000#32) reducesTo_S32x1024x1024_S32x1024_d2 h_S_)))))) (broadcastInDim S32x1024x1024 ![0, 1, 2] bcast_S32x1024x1_S32x1024x1024_0_1_2 (broadcastInDim S32x1024x1 ![0, 1] bcast_S32x1024_S32x1024x1_0_1 (Host.reduceAdd (Host.exp (subf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg5))) (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg3)))) (broadcastInDim S32x1024x1024 ![0, 1, 2] bcast_S32x1024x1_S32x1024x1024_0_1_2 (broadcastInDim S32x1024x1 ![0, 1] bcast_S32x1024_S32x1024x1_0_1 (maximumf (broadcastInDim S32x1024 ![] bcast_S_S32x1024 (constant S_ .f32 0xFF800000#32)) (Host.reduce FloatOps.maximumf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg5))) (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg3)))) (constant S_ .f32 0xFF800000#32) reducesTo_S32x1024x1024_S32x1024_d2 h_S_)))))) (constant S_ .f32 0x00000000#32) reducesTo_S32x1024x1024_S32x1024_d2 h_S_)))) (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg4))))⟩, ⟨S32x1024x512, (Host.dotGeneral dot_S32x1024x1024_S32x1024x512_S32x1024x512_2_1_1_2_0_0 none (Host.divf (Host.exp (subf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg2))) (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg6)))) (broadcastInDim S32x1024x1024 ![0, 1, 2] bcast_S32x1024x1_S32x1024x1024_0_1_2 (broadcastInDim S32x1024x1 ![0, 1] bcast_S32x1024_S32x1024x1_0_1 (maximumf (broadcastInDim S32x1024 ![] bcast_S_S32x1024 (constant S_ .f32 0xFF800000#32)) (Host.reduce FloatOps.maximumf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg2))) (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg6)))) (constant S_ .f32 0xFF800000#32) reducesTo_S32x1024x1024_S32x1024_d2 h_S_)))))) (broadcastInDim S32x1024x1024 ![0, 1, 2] bcast_S32x1024x1_S32x1024x1024_0_1_2 (broadcastInDim S32x1024x1 ![0, 1] bcast_S32x1024_S32x1024x1_0_1 (Host.reduceAdd (Host.exp (subf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg2))) (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg6)))) (broadcastInDim S32x1024x1024 ![0, 1, 2] bcast_S32x1024x1_S32x1024x1024_0_1_2 (broadcastInDim S32x1024x1 ![0, 1] bcast_S32x1024_S32x1024x1_0_1 (maximumf (broadcastInDim S32x1024 ![] bcast_S_S32x1024 (constant S_ .f32 0xFF800000#32)) (Host.reduce FloatOps.maximumf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg2))) (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg6)))) (constant S_ .f32 0xFF800000#32) reducesTo_S32x1024x1024_S32x1024_d2 h_S_)))))) (constant S_ .f32 0x00000000#32) reducesTo_S32x1024x1024_S32x1024_d2 h_S_)))) (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg7))))⟩] concatenates_S32x1024x512_S32x1024x512_S32x1024x1024_d2) transposes_S32x1024x1024_S1024x32x1024_1_0_2) (m ((c.tc : Thread nD τ).loc main_arg8))) (broadcastInDim S1024x32x512 ![0, 1, 2] bcast_S1x1x512_S1024x32x512_0_1_2 (broadcastInDim S1x1x512 ![2] bcast_S512_S1x1x512_2 (m ((c.tc : Thread nD τ).loc main_arg9))))

/-- The first attended block after the operations before the join. -/
theorem opsA_v32 (m : (ℓ : Loc nD τ sig) → Buf (Elt F) ℓ) (c : Dev nD) :
    after opsA (launchContents m c) (Proc.devRef .tc main_v32) = Host.dotGeneral dot_S32x1024x1024_S32x1024x512_S32x1024x512_2_1_1_2_0_0 none (Host.divf (Host.exp (subf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg5))) (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg3)))) (broadcastInDim S32x1024x1024 ![0, 1, 2] bcast_S32x1024x1_S32x1024x1024_0_1_2 (broadcastInDim S32x1024x1 ![0, 1] bcast_S32x1024_S32x1024x1_0_1 (maximumf (broadcastInDim S32x1024 ![] bcast_S_S32x1024 (constant S_ .f32 0xFF800000#32)) (Host.reduce FloatOps.maximumf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg5))) (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg3)))) (constant S_ .f32 0xFF800000#32) reducesTo_S32x1024x1024_S32x1024_d2 h_S_)))))) (broadcastInDim S32x1024x1024 ![0, 1, 2] bcast_S32x1024x1_S32x1024x1024_0_1_2 (broadcastInDim S32x1024x1 ![0, 1] bcast_S32x1024_S32x1024x1_0_1 (Host.reduceAdd (Host.exp (subf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg5))) (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg3)))) (broadcastInDim S32x1024x1024 ![0, 1, 2] bcast_S32x1024x1_S32x1024x1024_0_1_2 (broadcastInDim S32x1024x1 ![0, 1] bcast_S32x1024_S32x1024x1_0_1 (maximumf (broadcastInDim S32x1024 ![] bcast_S_S32x1024 (constant S_ .f32 0xFF800000#32)) (Host.reduce FloatOps.maximumf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg5))) (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg3)))) (constant S_ .f32 0xFF800000#32) reducesTo_S32x1024x1024_S32x1024_d2 h_S_)))))) (constant S_ .f32 0x00000000#32) reducesTo_S32x1024x1024_S32x1024_d2 h_S_)))) (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg4))) := by
  after_results_simp <;> rfl

/-- The second attended block after the operations before the join. -/
theorem opsA_v33 (m : (ℓ : Loc nD τ sig) → Buf (Elt F) ℓ) (c : Dev nD) :
    after opsA (launchContents m c) (Proc.devRef .tc main_v33) = Host.dotGeneral dot_S32x1024x1024_S32x1024x512_S32x1024x512_2_1_1_2_0_0 none (Host.divf (Host.exp (subf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg2))) (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg6)))) (broadcastInDim S32x1024x1024 ![0, 1, 2] bcast_S32x1024x1_S32x1024x1024_0_1_2 (broadcastInDim S32x1024x1 ![0, 1] bcast_S32x1024_S32x1024x1_0_1 (maximumf (broadcastInDim S32x1024 ![] bcast_S_S32x1024 (constant S_ .f32 0xFF800000#32)) (Host.reduce FloatOps.maximumf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg2))) (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg6)))) (constant S_ .f32 0xFF800000#32) reducesTo_S32x1024x1024_S32x1024_d2 h_S_)))))) (broadcastInDim S32x1024x1024 ![0, 1, 2] bcast_S32x1024x1_S32x1024x1024_0_1_2 (broadcastInDim S32x1024x1 ![0, 1] bcast_S32x1024_S32x1024x1_0_1 (Host.reduceAdd (Host.exp (subf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg2))) (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg6)))) (broadcastInDim S32x1024x1024 ![0, 1, 2] bcast_S32x1024x1_S32x1024x1024_0_1_2 (broadcastInDim S32x1024x1 ![0, 1] bcast_S32x1024_S32x1024x1_0_1 (maximumf (broadcastInDim S32x1024 ![] bcast_S_S32x1024 (constant S_ .f32 0xFF800000#32)) (Host.reduce FloatOps.maximumf (Host.dotGeneral dot_S32x1024x512_S32x1024x512_S32x1024x1024_2_2_1_1_0_0 none (Host.dotGeneral dot_S32x1024x512_S512x512_S32x1024x512_2_1_01_0_n_n none (transpose S32x1024x512 [1, 0, 2] (m ((c.tc : Thread nD τ).loc main_arg0)) transposes_S1024x32x512_S32x1024x512_1_0_2) (m ((c.tc : Thread nD τ).loc main_arg2))) (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg6)))) (constant S_ .f32 0xFF800000#32) reducesTo_S32x1024x1024_S32x1024_d2 h_S_)))))) (constant S_ .f32 0x00000000#32) reducesTo_S32x1024x1024_S32x1024_d2 h_S_)))) (Host.dotGeneral dot_S32x1024x512_S512x512_S32x1024x512_2_1_01_0_n_n none (transpose S32x1024x512 [1, 0, 2] (m ((c.tc : Thread nD τ).loc main_arg1)) transposes_S1024x32x512_S32x1024x512_1_0_2) (m ((c.tc : Thread nD τ).loc main_arg7))) := by
  after_results_simp <;> rfl

/-- The operations before the join leave the output weights and the bias as launched. -/
theorem opsA_arg8 (m : (ℓ : Loc nD τ sig) → Buf (Elt F) ℓ) (c : Dev nD) :
    after opsA (launchContents m c) (Proc.devRef .tc main_arg8) = m ((c.tc : Thread nD τ).loc main_arg8) := by
  after_results_simp <;> rfl
theorem opsA_arg9 (m : (ℓ : Loc nD τ sig) → Buf (Elt F) ℓ) (c : Dev nD) :
    after opsA (launchContents m c) (Proc.devRef .tc main_arg9) = m ((c.tc : Thread nD τ).loc main_arg9) := by
  after_results_simp <;> rfl

/-- The operations from the join on, run from any contents V: the result in terms of V's two blocks, weights and bias. -/
theorem opsB_v39 (V : Valuation τ sig (Elt F)) :
    after opsB V (Proc.devRef .tc main_v39)
      = addf (Host.dotGeneral dot_S1024x32x1024_S512x1024_S1024x32x512_2_1_01_0_n_n none (transpose S1024x32x1024 [1, 0, 2] (concatenate S32x1024x1024 2 [⟨S32x1024x512, V (Proc.devRef .tc main_v32)⟩, ⟨S32x1024x512, V (Proc.devRef .tc main_v33)⟩] concatenates_S32x1024x512_S32x1024x512_S32x1024x1024_d2) transposes_S32x1024x1024_S1024x32x1024_1_0_2) (V (Proc.devRef .tc main_arg8))) (broadcastInDim S1024x32x512 ![0, 1, 2] bcast_S1x1x512_S1024x32x512_0_1_2 (broadcastInDim S1x1x512 ![2] bcast_S512_S1x1x512_2 (V (Proc.devRef .tc main_arg9)))) := by
  after_results_simp <;> rfl

/-- The whole fold at the result buffer is the composed term. -/
theorem res_eq (m : (ℓ : Loc nD τ sig) → Buf (Elt F) ℓ) (c : Dev nD) :
    after ops (launchContents m c) (Proc.devRef .tc main_v39) = res_main_v39 m c := by
  rw [Cert.AfterSplit.after_append, opsB_v39, opsA_v32, opsA_v33, opsA_arg8, opsA_arg9]
  unfold res_main_v39
  rfl

set_option maxRecDepth 8192 in
set_option maxHeartbeats 2000000 in
/-- On every device, for any float values, from any memory with zero counters: every weakly fair execution of the
    program terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = res_main_v39 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v39).trans (res_eq m c),
      (h c main_arg0).trans (by rw [Cert.AfterSplit.after_append]; after_results_simp),
      (h c main_arg1).trans (by rw [Cert.AfterSplit.after_append]; after_results_simp),
      (h c main_arg2).trans (by rw [Cert.AfterSplit.after_append]; after_results_simp),
      (h c main_arg3).trans (by rw [Cert.AfterSplit.after_append]; after_results_simp),
      (h c main_arg4).trans (by rw [Cert.AfterSplit.after_append]; after_results_simp),
      (h c main_arg5).trans (by rw [Cert.AfterSplit.after_append]; after_results_simp),
      (h c main_arg6).trans (by rw [Cert.AfterSplit.after_append]; after_results_simp),
      (h c main_arg7).trans (by rw [Cert.AfterSplit.after_append]; after_results_simp),
      (h c main_arg8).trans (by rw [Cert.AfterSplit.after_append]; after_results_simp),
      (h c main_arg9).trans (by rw [Cert.AfterSplit.after_append]; after_results_simp)⟩)
    (run_seq scopedRefs_eq scopedSems_eq defs main (fun _ => ops) main_eq (fun _ => ops_sub) m ρ)

end Cert.ReferenceIdeal.Value

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.BodyProj.lean ====
/-
  The projection bodies read at an entry.

  Each of the two projection bodies takes a [1024, 512] block of rows x and a [512, 1536] weight matrix w, narrows x,
  multiplies on the matrix unit into zeros and narrows the product.  Over the extended reals a narrowing is the identity
  and the product into zeros is a plain sum, so the body's value at (p, j) is the inner product of row p of x with
  column j of w:   Σ_d x[p, d] · w[d, j].
-/
import proofs.«136491_j13649406066964_1_alg».proof.Proof.Gen.KernelIdeal.Skeleton
import proofs.«136491_j13649406066964_1_alg».proof.Proof.LibMatmulNN
import Idealize.ShloMosaic.Lib.Pipeline.Value
import Idealize.ShloMosaic.Lib.ValueIdx

noncomputable section

namespace Cert.BodyValues

open Idealize.ShloMosaic Idealize.ShloMosaic.ValueIdx Cert.KernelIdeal Cert.KernelIdeal.Gen

/-- The first projection body at (p, j): row p of the block against column j of the weights. -/
theorem proj0_apply (x : Vec Ideal S1024x512 .f32) (w : Vec Ideal S512x1536 .bf16) (p : Fin 1024) (j : Fin 1536) :
    k0_pay1 (F := Ideal) x w (ix2 p j) = ∑ d : Fin 512, x (ix2 p d) * w (ix2 d j) := by
  unfold k0_pay1
  refine (Cert.MatmulNN.matmul_zero_apply _ rfl none _ _ p j).trans ?_
  refine Finset.sum_congr rfl fun d _ => ?_
  rw [shapeCast_self, shapeCast_self]
  rfl

/-- The second projection body at (p, j): the same inner product. -/
theorem proj1_apply (x : Vec Ideal S1024x512 .f32) (w : Vec Ideal S512x1536 .bf16) (p : Fin 1024) (j : Fin 1536) :
    k1_pay1 (F := Ideal) x w (ix2 p j) = ∑ d : Fin 512, x (ix2 p d) * w (ix2 d j) := by
  unfold k1_pay1
  refine (Cert.MatmulNN.matmul_zero_apply _ rfl none _ _ p j).trans ?_
  refine Finset.sum_congr rfl fun d _ => ?_
  rw [shapeCast_self, shapeCast_self]
  rfl

end Cert.BodyValues

end
-- ==== Proof.Value0I.lean ====
/-
  Region 0 as one function of the arrays it is entered with: the rows' array times the weight array.

  The region's grid has 32 points; point t takes rows 1024·t … 1024·t + 1023 of the [32768, 512] row array and the
  whole [512, 1536] weight array, and writes rows 1024·t … of the [32768, 1536] result.  The body's arithmetic on a
  block is the plain product (rows by weights), so what point t writes back is block t of
      Y[r, j] = Σ_d X[r, d] · W[d, j],
  and the 32 blocks tile the result array.
-/
import proofs.«136491_j13649406066964_1_alg».proof.Proof.FrameDefsI
import proofs.«136491_j13649406066964_1_alg».proof.Proof.BodyProj
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

theorem hz2 : (![0, 0] : Fin 2 → Nat) = fun _ => 0 := funext fun a => by fin_cases a <;> rfl

/-- Rows times weights: Y[r, j] = Σ_d X[r, d] · W[d, j]. -/
def rowsTimes (X : FVec Ideal S32768x512 .f32) (Wc : FVec Ideal S512x1536 .bf16) : FVec Ideal S32768x1536 .bf16 :=
  fun i => ∑ d : Fin 512, X (ix2 (⟨(i 0).val, (i 0).isLt⟩ : Fin 32768) d) * Wc (ix2 d (⟨(i 1).val, (i 1).isLt⟩ : Fin 1536))

theorem rowsTimes_apply (X : FVec Ideal S32768x512 .f32) (Wc : FVec Ideal S512x1536 .bf16) (r : Fin 32768) (j : Fin 1536) :
    rowsTimes X Wc (ix2 r j) = ∑ d : Fin 512, X (ix2 r d) * Wc (ix2 d j) := rfl

/-- The printed index maps over the grid: the row window and the result window sit at block t, the weight window at
    block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the result is some point's. -/
theorem idx_onto0 : ∀ q0 : Fin 32, ∃ t : Fin cfg0.N, win0_2.index t = ![q0.val, 0] :=
  (by decide +kernel : ∀ q0 : Fin 32, ∃ t : Fin grid0.N, win0_2.index t = ![q0.val, 0])

variable (V : (c : Dev nD) → (b : Ref sig .tc) → Buf (Elt Ideal) ((c : Thread nD τ).loc b))

/-- What point t writes back is block t of the product of the arrays the region is entered with. -/
theorem flushed0_eq (c : Dev nD) (t : Fin cfg0.N) :
    (dat0 V c).flushed 2 t = ((cfg0.win 2).blk t).view.read (Elt Ideal) (rowsTimes (V c main_v2) (V c main_v8)) := by
  show (cfg0.win 2).cut (grid0.coords t) ((dat0 V c).after 2 t) = _
  rw [after0_2]
  unfold out0_2
  rw [View.canon_unit_zero hz2]
  simp only [View.ld_unit_zero (S := S1024x512) hz2, View.ld_unit_zero (S := S512x1536) hz2]
  obtain ⟨e0, e1, e2, e3, e4, e5⟩ := idx_facts0 t
  funext j
  obtain ⟨p, q, rfl⟩ : ∃ (p : Fin 1024) (q : Fin 1536), j = ix2 p q := ⟨j 0, j 1, eq_ix2 j⟩
  refine (Cert.BodyValues.proj0_apply (iblk0 V c 0 t) (iblk0 V c 1 t) p q).trans ?_
  show _ = rowsTimes (V c main_v2) (V c main_v8) (((cfg0.win 2).blk t).view.emb (ix2 p q))
  unfold rowsTimes
  refine Finset.sum_congr rfl fun d _ => ?_
  have h0 : ((cfg0.win 0).blk t).view.emb (ix2 p d)
      = ix2 (⟨(((cfg0.win 2).blk t).view.emb (ix2 p q) 0).val, (((cfg0.win 2).blk t).view.emb (ix2 p q) 0).isLt⟩ : Fin 32768) d := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * d.val = d.val; omega
  have h1 : ((cfg0.win 1).blk t).view.emb (ix2 d q)
      = ix2 d (⟨(((cfg0.win 2).blk t).view.emb (ix2 p q) 1).val, (((cfg0.win 2).blk t).view.emb (ix2 p q) 1).isLt⟩ : Fin 1536) := by
    funext a; apply Fin.ext
    match a with
    | ⟨0, _⟩ => show win0_1.index t (0 : Fin 2) * 512 + 1 * d.val = d.val; omega
    | ⟨1, _⟩ => show win0_1.index t (1 : Fin 2) * 1536 + 1 * q.val = win0_2.index t (1 : Fin 2) * 1536 + 1 * q.val; omega
  have e0 : iblk0 V c 0 t (ix2 p d) = (V c main_v2 : S32768x512.Idx → EReal)
      (ix2 (⟨(((cfg0.win 2).blk t).view.emb (ix2 p q) 0).val, (((cfg0.win 2).blk t).view.emb (ix2 p q) 0).isLt⟩ : Fin 32768) d) := by
    show (V c main_v2 : S32768x512.Idx → EReal) (((cfg0.win 0).blk t).view.emb (ix2 p d)) = _
    rw [h0]
  have e1 : iblk0 V c 1 t (ix2 d q) = (V c main_v8 : S512x1536.Idx → EReal)
      (ix2 d (⟨(((cfg0.win 2).blk t).view.emb (ix2 p q) 1).val, (((cfg0.win 2).blk t).view.emb (ix2 p q) 1).isLt⟩ : Fin 1536)) := by
    show (V c main_v8 : S512x1536.Idx → EReal) (((cfg0.win 1).blk t).view.emb (ix2 d q)) = _
    rw [h1]
  exact congrArg₂ (fun a b : EReal => a * b) e0 e1

/-- An index of the result array is in point t's block iff each coordinate is in the block's range. -/
theorem mem_blk0 (t : Fin cfg0.N) (i : S32768x1536.Idx) :
    i ∈ ((cfg0.win 2).blk t).view.set ↔ ∀ a : Fin 2, win0_2.index t a * S1024x1536.size a ≤ (i a).val ∧ (i a).val < win0_2.index t a * S1024x1536.size a + S1024x1536.size a := by
  show i ∈ ((View.whole main_v14).slice (win0_2.rect t)).set ↔ _
  rw [View.set_slice_whole, Rect.mem_set_unit]
  exact Iff.rfl

/-- The result array after the region: the product of the arrays it was entered with. -/
theorem final0 (c : Dev nD) : (dat0 V c).arrAt 2 cfg0.N = rowsTimes (V c main_v2) (V c main_v8) :=
  (dat0 V c).arrAt_eq_of_cover 2 (rowsTimes (V c main_v2) (V c main_v8)) (fun t _ => flushed0_eq V c t) fun i => by
    have hi0 : (i 0).val < 32768 := (i 0).isLt
    have hi1 : (i 1).val < 1536 := (i 1).isLt
    obtain ⟨t, ht⟩ := idx_onto0 ⟨(i 0).val / 1024, by omega⟩
    have q0 : win0_2.index t (0 : Fin 2) = (i 0).val / 1024 := congrFun ht 0
    have q1 : win0_2.index t (1 : Fin 2) = 0 := congrFun ht 1
    refine ⟨t, flush0_2 t, ?_⟩
    rw [mem_blk0]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1536 ≤ (i 1).val ∧ (i 1).val < win0_2.index t (1 : Fin 2) * 1536 + 1536; omega

end Cert.KernelIdeal.Val

end
-- ==== Proof.Value1I.lean ====
/-
  Region 1 as one function of the arrays it is entered with: the rows' array times the weight array.

  The region's grid has 32 points; point t takes rows 1024·t … 1024·t + 1023 of the [32768, 512] row array and the
  whole [512, 1536] weight array, and writes rows 1024·t … of the [32768, 1536] result.  The body's arithmetic on a
  block is the plain product (rows by weights), so what point t writes back is block t of
      Y[r, j] = Σ_d X[r, d] · W[d, j],
  and the 32 blocks tile the result array.
-/
import proofs.«136491_j13649406066964_1_alg».proof.Proof.FrameDefsI
import proofs.«136491_j13649406066964_1_alg».proof.Proof.BodyProj
import proofs.«136491_j13649406066964_1_alg».proof.Proof.Value0I
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

/-- The printed index maps over the grid: the row window and the result window sit at block t, the weight window at
    block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row of the result is some point's. -/
theorem idx_onto1 : ∀ q0 : Fin 32, ∃ t : Fin cfg1.N, win1_2.index t = ![q0.val, 0] :=
  (by decide +kernel : ∀ q0 : Fin 32, ∃ t : Fin grid1.N, win1_2.index t = ![q0.val, 0])

variable (V : (c : Dev nD) → (b : Ref sig .tc) → Buf (Elt Ideal) ((c : Thread nD τ).loc b))

/-- What point t writes back is block t of the product of the arrays the region is entered with. -/
theorem flushed1_eq (c : Dev nD) (t : Fin cfg1.N) :
    (dat1 V c).flushed 2 t = ((cfg1.win 2).blk t).view.read (Elt Ideal) (rowsTimes (V c main_v3) (V c main_v13)) := by
  show (cfg1.win 2).cut (grid1.coords t) ((dat1 V c).after 2 t) = _
  rw [after1_2]
  unfold out1_2
  rw [View.canon_unit_zero hz2]
  simp only [View.ld_unit_zero (S := S1024x512) hz2, View.ld_unit_zero (S := S512x1536) hz2]
  obtain ⟨e0, e1, e2, e3, e4, e5⟩ := idx_facts1 t
  funext j
  obtain ⟨p, q, rfl⟩ : ∃ (p : Fin 1024) (q : Fin 1536), j = ix2 p q := ⟨j 0, j 1, eq_ix2 j⟩
  refine (Cert.BodyValues.proj1_apply (iblk1 V c 0 t) (iblk1 V c 1 t) p q).trans ?_
  show _ = rowsTimes (V c main_v3) (V c main_v13) (((cfg1.win 2).blk t).view.emb (ix2 p q))
  unfold rowsTimes
  refine Finset.sum_congr rfl fun d _ => ?_
  have h0 : ((cfg1.win 0).blk t).view.emb (ix2 p d)
      = ix2 (⟨(((cfg1.win 2).blk t).view.emb (ix2 p q) 0).val, (((cfg1.win 2).blk t).view.emb (ix2 p q) 0).isLt⟩ : Fin 32768) d := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 512 + 1 * d.val = d.val; omega
  have h1 : ((cfg1.win 1).blk t).view.emb (ix2 d q)
      = ix2 d (⟨(((cfg1.win 2).blk t).view.emb (ix2 p q) 1).val, (((cfg1.win 2).blk t).view.emb (ix2 p q) 1).isLt⟩ : Fin 1536) := by
    funext a; apply Fin.ext
    match a with
    | ⟨0, _⟩ => show win1_1.index t (0 : Fin 2) * 512 + 1 * d.val = d.val; omega
    | ⟨1, _⟩ => show win1_1.index t (1 : Fin 2) * 1536 + 1 * q.val = win1_2.index t (1 : Fin 2) * 1536 + 1 * q.val; omega
  have e0 : iblk1 V c 0 t (ix2 p d) = (V c main_v3 : S32768x512.Idx → EReal)
      (ix2 (⟨(((cfg1.win 2).blk t).view.emb (ix2 p q) 0).val, (((cfg1.win 2).blk t).view.emb (ix2 p q) 0).isLt⟩ : Fin 32768) d) := by
    show (V c main_v3 : S32768x512.Idx → EReal) (((cfg1.win 0).blk t).view.emb (ix2 p d)) = _
    rw [h0]
  have e1 : iblk1 V c 1 t (ix2 d q) = (V c main_v13 : S512x1536.Idx → EReal)
      (ix2 d (⟨(((cfg1.win 2).blk t).view.emb (ix2 p q) 1).val, (((cfg1.win 2).blk t).view.emb (ix2 p q) 1).isLt⟩ : Fin 1536)) := by
    show (V c main_v13 : S512x1536.Idx → EReal) (((cfg1.win 1).blk t).view.emb (ix2 d q)) = _
    rw [h1]
  exact congrArg₂ (fun a b : EReal => a * b) e0 e1

/-- An index of the result array is in point t's block iff each coordinate is in the block's range. -/
theorem mem_blk1 (t : Fin cfg1.N) (i : S32768x1536.Idx) :
    i ∈ ((cfg1.win 2).blk t).view.set ↔ ∀ a : Fin 2, win1_2.index t a * S1024x1536.size a ≤ (i a).val ∧ (i a).val < win1_2.index t a * S1024x1536.size a + S1024x1536.size a := by
  show i ∈ ((View.whole main_v15).slice (win1_2.rect t)).set ↔ _
  rw [View.set_slice_whole, Rect.mem_set_unit]
  exact Iff.rfl

/-- The result array after the region: the product of the arrays it was entered with. -/
theorem final1 (c : Dev nD) : (dat1 V c).arrAt 2 cfg1.N = rowsTimes (V c main_v3) (V c main_v13) :=
  (dat1 V c).arrAt_eq_of_cover 2 (rowsTimes (V c main_v3) (V c main_v13)) (fun t _ => flushed1_eq V c t) fun i => by
    have hi0 : (i 0).val < 32768 := (i 0).isLt
    have hi1 : (i 1).val < 1536 := (i 1).isLt
    obtain ⟨t, ht⟩ := idx_onto1 ⟨(i 0).val / 1024, by omega⟩
    have q0 : win1_2.index t (0 : Fin 2) = (i 0).val / 1024 := congrFun ht 0
    have q1 : win1_2.index t (1 : Fin 2) = 0 := congrFun ht 1
    refine ⟨t, flush1_2 t, ?_⟩
    rw [mem_blk1]
    intro a
    match a with
    | ⟨0, _⟩ => show win1_2.index t (0 : Fin 2) * 1024 ≤ (i 0).val ∧ (i 0).val < win1_2.index t (0 : Fin 2) * 1024 + 1024; omega
    | ⟨1, _⟩ => show win1_2.index t (1 : Fin 2) * 1536 ≤ (i 1).val ∧ (i 1).val < win1_2.index t (1 : Fin 2) * 1536 + 1536; omega

end Cert.KernelIdeal.Val

end
-- ==== Proof.Spec.lean ====
/-
  The function both programs compute, written once over the extended reals.

  Two sequences x_t, x_d of 1024 positions by 32 batches by 512 features attend to each other.  For a batch b each
  sequence is projected three times, P[s, e] = Σ_d x[s, b, d] · W[e, d] (queries, keys, values); the scores of one
  sequence's queries against the other's keys, S[q, k] = Σ_e Q[q, e] · K[k, e], are normalised row by row,
      soft(S[q, ·])[k] = exp(S[q, k] − M) / Σ_k' exp(S[q, k'] − M),   M = max(−∞, max_k S[q, k]),
  and weight the other sequence's values, A[q, e] = Σ_k soft(S[q, ·])[k] · V[k, e].  The two attended blocks, laid side
  by side into 1024 features, go through one more affine map: out[s, b, d] = Σ_f cat[f] · Wout[d, f] + bout[d].

  Every quantity is an extended real and every operation the exact one; −∞ is kept as the 32-bit word both programs
  write, so it is never evaluated.
-/
import Idealize.ShloMosaic.PureOps.Ideal
import Idealize.ShloMosaic.Lib.ValueIdx

noncomputable section

namespace Cert.Spec

open Idealize.ShloMosaic

/-- The word of −∞ both programs start their running maximum from, as an extended real. -/
abbrev negInf : EReal := Ideal.ofBits .f32 0xFF800000#32

/-- A row's maximum as both programs take it: the fold of max from −∞, met once more with −∞. -/
def rowMax (s : Fin 1024 → EReal) : EReal := max negInf (Finset.univ.fold max negInf s)

/-- A row of scores normalised: exp(s[k] − M) over the sum of those exponentials. -/
def soft (s : Fin 1024 → EReal) (k : Fin 1024) : EReal :=
  Ideal.div (Ideal.exp (s k - rowMax s)) (∑ k' : Fin 1024, Ideal.exp (s k' - rowMax s))

/-- Queries against keys: S[q, k] = Σ_e Q[q, e] · K[k, e]. -/
def score (Q K : Fin 1024 → Fin 512 → EReal) (q k : Fin 1024) : EReal := ∑ e : Fin 512, Q q e * K k e

/-- The values weighted by the normalised scores: A[q, e] = Σ_k soft(S[q, ·])[k] · V[k, e]. -/
def attend (Q K V : Fin 1024 → Fin 512 → EReal) (q : Fin 1024) (e : Fin 512) : EReal :=
  ∑ k : Fin 1024, soft (score Q K q) k * V k e

/-- Two rows of 512 features side by side. -/
def cat (a b : Fin 512 → EReal) (f : Fin 1024) : EReal :=
  if h : f.val < 512 then a ⟨f.val, h⟩ else b ⟨f.val - 512, by have := f.isLt; omega⟩

/-- One batch's output block from its six projections, the output weights given feature-major (WT[f, d]) and the bias:
    the first attended block uses the second sequence's queries against the first's keys and values, and conversely. -/
def blockOut (Qt Kt Vt Qd Kd Vd : Fin 1024 → Fin 512 → EReal) (WT : Fin 1024 → Fin 512 → EReal) (bias : Fin 512 → EReal)
    (q : Fin 1024) (d : Fin 512) : EReal :=
  (∑ f : Fin 1024, cat (attend Qd Kt Vt q) (attend Qt Kd Vd q) f * WT f d) + bias d

/-- A projection of batch b: P[s, e] = Σ_d x[s, b, d] · W[e, d]. -/
def proj (x : Fin 1024 → Fin 32 → Fin 512 → EReal) (W : Fin 512 → Fin 512 → EReal) (b : Fin 32)
    (s : Fin 1024) (e : Fin 512) : EReal := ∑ d : Fin 512, x s b d * W e d

/-- The whole result at position s, batch b, feature d. -/
def G (xt xd : Fin 1024 → Fin 32 → Fin 512 → EReal) (Wqt Wkt Wvt Wqd Wkd Wvd : Fin 512 → Fin 512 → EReal)
    (Wout : Fin 512 → Fin 1024 → EReal) (bout : Fin 512 → EReal) (s : Fin 1024) (b : Fin 32) (d : Fin 512) : EReal :=
  blockOut (proj xt Wqt b) (proj xt Wkt b) (proj xt Wvt b) (proj xd Wqd b) (proj xd Wkd b) (proj xd Wvd b)
    (fun f d' => Wout d' f) bout s d

open Idealize.ShloMosaic.ValueIdx in
/-- The same as an array of the result's shape, from the ten argument arrays. -/
def GArr (a0 a1 : (⟨3, ![1024, 32, 512]⟩ : Shape).Idx → EReal) (a2 a3 a4 a5 a6 a7 : (⟨2, ![512, 512]⟩ : Shape).Idx → EReal)
    (a8 : (⟨2, ![512, 1024]⟩ : Shape).Idx → EReal) (a9 : (⟨1, ![512]⟩ : Shape).Idx → EReal) :
    (⟨3, ![1024, 32, 512]⟩ : Shape).Idx → EReal := fun i =>
  G (fun s b d => a0 (ix3 s b d)) (fun s b d => a1 (ix3 s b d))
    (fun e d => a2 (ix2 e d)) (fun e d => a3 (ix2 e d)) (fun e d => a4 (ix2 e d))
    (fun e d => a5 (ix2 e d)) (fun e d => a6 (ix2 e d)) (fun e d => a7 (ix2 e d))
    (fun d f => a8 (ix2 d f)) (fun d => a9 (ix1 d)) (i 0) (i 1) (i 2)

end Cert.Spec

end
-- ==== Proof.LibMatmulNT.lean ====
/-
  A reusable lemma: the product of a matrix with the TRANSPOSE of another, read at an entry.

  A `tpu.matmul` whose dimension numbers contract the LAST axis of both operands — an [M,K] left operand and an
  [N,K] right operand, result [M,N] — accumulated into zeros is, at the ideal instance and at the entry (p, q),
      Σ_k lhs[p,k] · rhs[q,k],
  the sum over k : Fin K.  The statement is generic in M, K, N and in the operands' float formats, and holds for any
  dimension record equal to the library's `DotDims.transposedRhs M K N`.
-/
import Idealize.ShloMosaic.PureOps.Ideal.Laws
import Idealize.ShloMosaic.Lib.ValueIdx

noncomputable section

namespace Cert.MatmulNT

open Idealize.ShloMosaic Idealize.ShloMosaic.ValueIdx

variable {M K N : Nat}

/-- The left operand is read in the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand is read in the row numbered by the result's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- A matrix times the transpose of another, into zeros, at the entry (p, q): Σ_k lhs[p,k] · rhs[q,k]. -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    matmul d prec lhs rhs (constant (F := Ideal) ⟨2, ![M, N]⟩ .f32 0x00000000#32) (ix2 p q)
      = ∑ k : Fin K, lhs (ix2 p k) * rhs (ix2 q k) := by
  subst hd
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Cert.MatmulNT

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.BodySoft.lean ====
/-
  The pieces of the attention body, each read at an entry over the extended reals.

  The attention body is built from five array operations, named here once so that the body's three values can be written
  as short compositions of them:

    squeeze X            the [1, 1024, 512] block X seen as a [1024, 512] matrix:      (squeeze X)[i, j] = X[0, i, j];
    scoreMat A B         queries against keys, contracting the feature axis of both:    S[q, k] = Σ_e A[q, e] · B[k, e];
    subMax S             every row less its maximum M_q = max(−∞, max_k S[q, k]):       S[q, k] − M_q;
    normExp T            the exponentials of T, each row divided by its sum:            exp T[q, k] / Σ_k' exp T[q, k'];
    weigh P V            the rows of V weighted by the rows of P:                       Σ_k P[q, k] · V[k, e].

  Over the extended reals a narrowing is the identity, a product on the matrix unit into zeros is a plain sum, a sum
  reduction from zero is a plain sum and a maximum reduction from −∞ is the fold of max from −∞; −∞ stays the 32-bit
  word the program writes and is never evaluated.  normExp (subMax S) is then, row by row, the normalised row of the
  specification.
-/
import proofs.«136491_j13649406066964_1_alg».proof.Proof.Gen.KernelIdeal.Skeleton
import proofs.«136491_j13649406066964_1_alg».proof.Proof.Spec
import proofs.«136491_j13649406066964_1_alg».proof.Proof.LibMatmulNN
import proofs.«136491_j13649406066964_1_alg».proof.Proof.LibMatmulNT
import proofs.«136491_j13649406066964_1_alg».proof.Proof.LibKeepdimsColumn
import proofs.«136491_j13649406066964_1_alg».proof.Proof.LibSlabLayout
import Idealize.ShloMosaic.Lib.ValueLayout
import Idealize.ShloMosaic.Lib.ValueIdx

noncomputable section

namespace Cert.BodyValues

open Idealize.ShloMosaic Idealize.ShloMosaic.ValueIdx Cert.KernelIdeal Cert.KernelIdeal.Gen

/-- A [1, 1024, 512] block seen as a [1024, 512] matrix. -/
def squeeze (X : Vec Ideal S1x1024x512 .bf16) : FVec Ideal S1024x512 .bf16 :=
  shapeCast S1024x512 X shapeCasts_S1x1024x512_S1024x512

/-- Queries against keys: the product contracting the last axis of both operands, into zeros. -/
def scoreMat (A B : FVec Ideal S1024x512 .bf16) : FVec Ideal S1024x1024 .f32 :=
  matmul dot_S1024x512_S1024x512_S1024x1024_1_1_0_0_n_n none A B (constant S1024x1024 .f32 0x00000000#32)

/-- Every row less its maximum, the maximum taken from −∞ and met once more with −∞. -/
def subMax (S : FVec Ideal S1024x1024 .f32) : FVec Ideal S1024x1024 .f32 :=
  subf S (broadcastTo S1024x1024
    (shapeCast S1024x1
      (maximumf (broadcast S1024 (Scalar.ofBits (F := Ideal) .f32 0xFF800000#32))
        (multiReduction .maximumf [1] S1024 S 0xFF800000#32 reduces_S1024x1024_S1024 (.inl rfl) rfl))
      shapeCasts_S1024_S1024x1) broadcasts_S1024x1_S1024x1024)

/-- The exponentials, each row divided by its sum. -/
def normExp (T : FVec Ideal S1024x1024 .f32) : FVec Ideal S1024x1024 .f32 :=
  divf (exp T) (broadcastTo S1024x1024
    (shapeCast S1024x1
      (multiReduction .add [1] S1024 (exp T) 0x00000000#32 reduces_S1024x1024_S1024 (.inl rfl) rfl)
      shapeCasts_S1024_S1024x1) broadcasts_S1024x1_S1024x1024)

/-- The rows of V weighted by the (narrowed) rows of P: the plain product into zeros. -/
def weigh (P : FVec Ideal S1024x1024 .f32) (V : FVec Ideal S1024x512 .bf16) : FVec Ideal S1024x512 .f32 :=
  matmul dot_S1024x1024_S1024x512_S1024x512_1_0_0_1_n_n none (truncf .bf16 P bitsLt_bf16_f32) V
    (constant S1024x512 .f32 0x00000000#32)

/-- The squeezed block at (i, j) is the block at (0, i, j). -/
theorem squeeze_apply (X : Vec Ideal S1x1024x512 .bf16) (i : Fin 1024) (j : Fin 512) :
    squeeze X (ix2 i j) = X (ix3 (0 : Fin 1) i j) :=
  shapeCast_1ab_ab_apply X shapeCasts_S1x1024x512_S1024x512 i j

/-- The scores at (q, k): row q of the queries against row k of the keys. -/
theorem scoreMat_apply (A B : FVec Ideal S1024x512 .bf16) (q k : Fin 1024) :
    scoreMat A B (ix2 q k) = ∑ e : Fin 512, A (ix2 q e) * B (ix2 k e) :=
  Cert.MatmulNT.matmul_zero_apply _ rfl none A B q k

/-- The scores of two squeezed blocks are the specification's scores of the blocks' batch-0 matrices. -/
theorem scoreMat_squeeze (X Y : Vec Ideal S1x1024x512 .bf16) (q k : Fin 1024) :
    scoreMat (squeeze X) (squeeze Y) (ix2 q k)
      = Cert.Spec.score (fun s e => X (ix3 (0 : Fin 1) s e)) (fun s e => Y (ix3 (0 : Fin 1) s e)) q k := by
  refine (scoreMat_apply _ _ q k).trans ?_
  refine Finset.sum_congr rfl fun e _ => ?_
  exact congrArg₂ (· * ·) (squeeze_apply X q e) (squeeze_apply Y k e)

/-- The scalar word read as an extended real. -/
theorem scalar_ofBits (φ : FTy) (b : BitVec φ.bits) : Scalar.ofBits (F := Ideal) φ b = Ideal.ofBits φ b := rfl

/-- A column kept as a unit axis and spread over the row again, at (q, k): the column at q. -/
theorem col_apply (c : FVec Ideal S1024 .f32) (q k : Fin 1024) :
    broadcastTo S1024x1024 (shapeCast S1024x1 c shapeCasts_S1024_S1024x1) broadcasts_S1024x1_S1024x1024 (ix2 q k)
      = c (ix1 q) :=
  (Cert.KeepdimsColumn.broadcastTo_a1_ab_apply _ broadcasts_S1024x1_S1024x1024 q k).trans
    (Cert.KeepdimsColumn.shapeCast_a_a1_apply c shapeCasts_S1024_S1024x1 q (0 : Fin 1))

/-- The running maximum of row q from −∞. -/
theorem maxRed_apply (S : FVec Ideal S1024x1024 .f32) (q : Fin 1024) :
    multiReduction .maximumf [1] S1024 S 0xFF800000#32 reduces_S1024x1024_S1024 (.inl rfl) rfl (ix1 q)
      = (Finset.univ : Finset (Fin 1024)).fold max (Ideal.ofBits .f32 0xFF800000#32) (fun k => S (ix2 q k)) :=
  Cert.SlabLayout.rowMax_apply S 0xFF800000#32 reduces_S1024x1024_S1024 (.inl rfl) rfl q

/-- The sum of row q from zero. -/
theorem sumRed_apply (S : FVec Ideal S1024x1024 .f32) (q : Fin 1024) :
    multiReduction .add [1] S1024 S 0x00000000#32 reduces_S1024x1024_S1024 (.inl rfl) rfl (ix1 q)
      = ∑ k : Fin 1024, S (ix2 q k) :=
  Cert.SlabLayout.rowSum_apply S 0x00000000#32 reduces_S1024x1024_S1024 (.inl rfl) rfl q

/-- A row less its maximum, at (q, k). -/
theorem subMax_apply (S : FVec Ideal S1024x1024 .f32) (q k : Fin 1024) :
    subMax S (ix2 q k) = S (ix2 q k) - Cert.Spec.rowMax (fun k' => S (ix2 q k')) := by
  unfold subMax Cert.Spec.rowMax
  refine (subf_apply _ _ (ix2 q k)).trans ?_
  refine congrArg (fun t => S (ix2 q k) - t) ?_
  refine (col_apply _ q k).trans ?_
  refine (maximumf_apply _ _ (ix1 q)).trans ?_
  exact congrArg₂ max ((broadcast_apply _ _).trans (scalar_ofBits .f32 _)) (maxRed_apply S q)

/-- The normalised exponentials at (q, k). -/
theorem normExp_apply (T : FVec Ideal S1024x1024 .f32) (q k : Fin 1024) :
    normExp T (ix2 q k)
      = Ideal.div (Ideal.exp (T (ix2 q k))) (∑ k' : Fin 1024, Ideal.exp (T (ix2 q k'))) := by
  refine congrArg (Ideal.div (Ideal.exp (T (ix2 q k)))) ?_
  refine (Cert.KeepdimsColumn.broadcastTo_a1_ab_apply _ broadcasts_S1024x1_S1024x1024 q k).trans ?_
  refine (Cert.KeepdimsColumn.shapeCast_a_a1_apply _ shapeCasts_S1024_S1024x1 q (0 : Fin 1)).trans ?_
  exact Cert.SlabLayout.rowSum_apply (exp T) 0x00000000#32 reduces_S1024x1024_S1024 (.inl rfl) rfl q

/-- Row q of normExp (subMax S) is the specification's normalised row of row q of S. -/
theorem soft_apply (S : FVec Ideal S1024x1024 .f32) (q k : Fin 1024) :
    normExp (subMax S) (ix2 q k) = Cert.Spec.soft (fun k' => S (ix2 q k')) k := by
  refine (normExp_apply (subMax S) q k).trans ?_
  unfold Cert.Spec.soft
  refine congrArg₂ Ideal.div (congrArg Ideal.exp (subMax_apply S q k)) ?_
  exact Finset.sum_congr rfl fun k' _ => congrArg Ideal.exp (subMax_apply S q k')

/-- The weighted rows at (q, e). -/
theorem weigh_apply (P : FVec Ideal S1024x1024 .f32) (V : FVec Ideal S1024x512 .bf16) (q : Fin 1024) (e : Fin 512) :
    weigh P V (ix2 q e) = ∑ k : Fin 1024, P (ix2 q k) * V (ix2 k e) :=
  Cert.MatmulNN.matmul_zero_apply _ rfl none (truncf .bf16 P bitsLt_bf16_f32) V q e

end Cert.BodyValues

end
-- ==== Proof.LibConcatCols.lean ====
/-
  A reusable lemma: two matrices with the same number of rows laid side by side, read at an entry.

  The concatenation along axis 1 of an [M, a] array and an [M, b] array into an [M, c] array (c = a + b), at (p, j):
  the left piece at (p, j) when j is below a, the right piece at (p, j - a) otherwise. Generic in M, a, b, c and in the
  element type; the column of the piece is passed with its defining equation, so a use site picks its own spelling.
-/
import Idealize.ShloMosaic.Lib.Pipeline.Value
import Idealize.ShloMosaic.Lib.ValueIdx

noncomputable section

namespace Cert.ConcatCols

open Idealize.ShloMosaic Idealize.ShloMosaic.ValueIdx

variable {α : Type} {M a b c : ℕ}

/-- A column in the left piece: the left piece at the same row and the same column. -/
theorem left_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin a) (hk : k.val = j.val) :
    concatenate ⟨2, ![M, c]⟩ 1 [⟨⟨2, ![M, a]⟩, x₁⟩, ⟨⟨2, ![M, b]⟩, x₂⟩] h (ix2 p j) = x₁ (ix2 p k) :=
  concatenate_pair_apply_left 1 x₁ x₂ h (ix2 p j) rfl (ix2 p k)
    (fun d => match d with | ⟨0, _⟩ => rfl | ⟨1, _⟩ => hk)

/-- A column past the left piece: the right piece at the same row, the column less the left piece's width. -/
theorem right_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin b) (hk : k.val + a = j.val) :
    concatenate ⟨2, ![M, c]⟩ 1 [⟨⟨2, ![M, a]⟩, x₁⟩, ⟨⟨2, ![M, b]⟩, x₂⟩] h (ix2 p j) = x₂ (ix2 p k) :=
  concatenate_pair_apply_right 1 x₁ x₂ h (ix2 p j) rfl rfl (ix2 p k)
    (fun d hd => match d, hd with
      | ⟨0, _⟩, _ => rfl
      | ⟨1, _⟩, hd => absurd rfl hd) hk

/-- Both cases at once (`hc`: the widths add up): the entry comes from the left piece when its column is below the left
    piece's width, from the right piece otherwise. -/
theorem apply_dite (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1) (hc : c = a + b)
    (p : Fin M) (j : Fin c) :
    concatenate ⟨2, ![M, c]⟩ 1 [⟨⟨2, ![M, a]⟩, x₁⟩, ⟨⟨2, ![M, b]⟩, x₂⟩] h (ix2 p j)
      = if hj : j.val < a then x₁ (ix2 p ⟨j.val, hj⟩)
        else x₂ (ix2 p ⟨j.val - a, by have := j.isLt; omega⟩) := by
  by_cases hj : j.val < a
  · rw [dif_pos hj]
    exact left_apply x₁ x₂ h p j ⟨j.val, hj⟩ rfl
  · rw [dif_neg hj]
    exact right_apply x₁ x₂ h p j ⟨j.val - a, by have := j.isLt; omega⟩ (by show j.val - a + a = j.val; omega)

end Cert.ConcatCols

end
-- ==== Proof.BodyAttn.lean ====
/-
  The attention body read at an entry.

  The attention body keeps three inner values — the second sequence's values squeezed, the first attended block
  (the second sequence's queries against the first's keys, normalised, weighting the first's values) and the first
  sequence's queries against the second's keys less their row maxima — and finishes from them: it normalises the
  exponentials of the last, weights the second sequence's values with them, lays the two attended blocks side by side
  into 1024 features, multiplies by the feature-major output weights and adds the bias row.  Read at (0, q, d) over the
  extended reals this is the specification's output block at (q, d):

      Σ_f cat(A₁[q, ·], A₂[q, ·])[f] · W[f, d] + bias[d].
-/
import proofs.«136491_j13649406066964_1_alg».proof.Proof.BodySoft
import proofs.«136491_j13649406066964_1_alg».proof.Proof.LibConcatCols

noncomputable section

namespace Cert.BodyValues

open Idealize.ShloMosaic Idealize.ShloMosaic.ValueIdx Cert.KernelIdeal Cert.KernelIdeal.Gen

/-- The squeezed values: the body's first inner value. -/
theorem k2_pay2_eq (X : Vec Ideal S1x1024x512 .bf16) : k2_pay2 (F := Ideal) X = squeeze X := rfl

/-- The scores less their row maxima: the body's third inner value. -/
theorem k2_pay4_eq (Q K : Vec Ideal S1x1024x512 .bf16) :
    k2_pay4 (F := Ideal) Q K = subMax (scoreMat (squeeze Q) (squeeze K)) := rfl

/-- An attended block: the body's second inner value (its operands come keys, values, queries). -/
theorem k2_pay3_eq (K V Q : Vec Ideal S1x1024x512 .bf16) :
    k2_pay3 (F := Ideal) K V Q = weigh (normExp (subMax (scoreMat (squeeze Q) (squeeze K)))) (squeeze V) := rfl

/-- An attended block at (q, e) is the specification's, of the three blocks' batch-0 matrices. -/
theorem attended_apply (Q K V : Vec Ideal S1x1024x512 .bf16) (q : Fin 1024) (e : Fin 512) :
    weigh (normExp (subMax (scoreMat (squeeze Q) (squeeze K)))) (squeeze V) (ix2 q e)
      = Cert.Spec.attend (fun s e' => Q (ix3 (0 : Fin 1) s e')) (fun s e' => K (ix3 (0 : Fin 1) s e'))
          (fun s e' => V (ix3 (0 : Fin 1) s e')) q e := by
  refine (weigh_apply _ _ q e).trans ?_
  unfold Cert.Spec.attend
  refine Finset.sum_congr rfl fun k _ => ?_
  refine congrArg₂ (· * ·) ?_ (squeeze_apply V k e)
  refine (soft_apply _ q k).trans ?_
  exact congrArg (fun s => Cert.Spec.soft s k) (funext fun k' => scoreMat_squeeze Q K q k')

/-- The body's last value at (0, q, d), from any three inner values: the two blocks side by side against column d of
    the weights, plus the bias. -/
theorem pay1_apply (V : FVec Ideal S1024x512 .bf16) (A : FVec Ideal S1024x512 .f32) (T : FVec Ideal S1024x1024 .f32)
    (W : Vec Ideal S1024x512 .bf16) (b : Vec Ideal S1x512 .f32) (q : Fin 1024) (d : Fin 512) :
    k2_pay1 (F := Ideal) V A T W b (ix3 (0 : Fin 1) q d)
      = (∑ f : Fin 1024,
            Cert.Spec.cat (fun e => A (ix2 q e)) (fun e => weigh (normExp T) V (ix2 q e)) f * W (ix2 f d))
          + b (ix2 (0 : Fin 1) d) := by
  unfold k2_pay1
  refine (shapeCast_ab_1ab_apply _ shapeCasts_S1024x512_S1x1024x512 (0 : Fin 1) q d).trans ?_
  refine (addf_apply _ _ (ix2 q d)).trans ?_
  refine congrArg₂ (· + ·) ?_ ?_
  · refine (Cert.MatmulNN.matmul_zero_apply _ rfl none _ _ q d).trans ?_
    refine Finset.sum_congr rfl fun f _ => ?_
    refine congrArg₂ (· * ·) ?_ ?_
    · refine (Cert.ConcatCols.apply_dite _ _ concatenates_S1024x512_S1024x512_S1024x1024_d1 rfl q f).trans ?_
      rfl
    · rw [shapeCast_self]
  · refine (broadcastTo_1b_ab_apply _ broadcasts_S1x512_S1024x512 q d).trans ?_
    rw [shapeCast_self]

/-- The attention body at (0, q, d) is the specification's output block at (q, d). -/
theorem attn_apply (x0 x1 x2 x3 x4 x5 : Vec Ideal S1x1024x512 .bf16) (x6 : Vec Ideal S1024x512 .bf16)
    (x7 : Vec Ideal S1x512 .f32) (q : Fin 1024) (d : Fin 512) :
    k2_pay1 (F := Ideal) (k2_pay2 x5) (k2_pay3 x1 x2 x3) (k2_pay4 x0 x4) x6 x7 (ix3 (0 : Fin 1) q d)
      = Cert.Spec.blockOut (fun s e => x0 (ix3 (0 : Fin 1) s e)) (fun s e => x1 (ix3 (0 : Fin 1) s e))
          (fun s e => x2 (ix3 (0 : Fin 1) s e)) (fun s e => x3 (ix3 (0 : Fin 1) s e))
          (fun s e => x4 (ix3 (0 : Fin 1) s e)) (fun s e => x5 (ix3 (0 : Fin 1) s e))
          (fun f d' => x6 (ix2 f d')) (fun d' => x7 (ix2 (0 : Fin 1) d')) q d := by
  refine (pay1_apply _ _ _ x6 x7 q d).trans ?_
  unfold Cert.Spec.blockOut
  refine congrArg (fun t => t + x7 (ix2 (0 : Fin 1) d)) ?_
  refine Finset.sum_congr rfl fun f _ => ?_
  refine congrArg (fun t => t * x6 (ix2 f d)) ?_
  refine congrArg₂ (fun a b => Cert.Spec.cat a b f) (funext fun e => ?_) (funext fun e => ?_)
  · exact (congrFun (k2_pay3_eq x1 x2 x3) (ix2 q e)).trans (attended_apply x3 x1 x2 q e)
  · refine (congrArg₂ (fun T V => weigh (normExp T) V (ix2 q e)) (k2_pay4_eq x0 x4) (k2_pay2_eq x5)).trans ?_
    exact attended_apply x0 x4 x5 q e

end Cert.BodyValues

end
-- ==== Proof.BodyValues.lean ====
/-
  The three kernel bodies read at an entry over the extended reals: the two projection bodies are inner products of a
  row of the block with a column of the weights, and the attention body is the specification's output block.
  The statements are proj0_apply, proj1_apply and attn_apply, proved in the two modules gathered here.
-/
import proofs.«136491_j13649406066964_1_alg».proof.Proof.BodyProj
import proofs.«136491_j13649406066964_1_alg».proof.Proof.BodyAttn
-- ==== Proof.Value2I.lean ====
/-
  The third region as one function of the arrays it is entered with.

  The region's grid has 32 points, one per batch; point b takes block b — the whole [1024, 512] matrix of that batch —
  of each of the six projection arrays, the whole feature-major output weights and the bias row, and writes block b of
  the [32, 1024, 512] result.  The body's arithmetic on those blocks is the batch's output block (the two attentions,
  laid side by side, through the output map), so what point b writes back is block b of
      Out[b, q, d] = blockOut(Q_t[b], K_t[b], V_t[b], Q_d[b], K_d[b], V_d[b], WT, bias)[q, d],
  and the 32 blocks tile the result array.
-/
import proofs.«136491_j13649406066964_1_alg».proof.Proof.FrameDefsI
import proofs.«136491_j13649406066964_1_alg».proof.Proof.BodyValues
import proofs.«136491_j13649406066964_1_alg».proof.Proof.Value0I
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

theorem hz3 : (![0, 0, 0] : Fin 3 → Nat) = fun _ => 0 := funext fun a => by fin_cases a <;> rfl

/-- Every batch's output block, as one array. -/
def attnAll (A0 A1 A2 A3 A4 A5 : FVec Ideal S32x1024x512 .bf16) (Wt : FVec Ideal S1024x512 .bf16) (Bs : FVec Ideal S1x512 .f32) :
    FVec Ideal S32x1024x512 .f32 := fun i =>
  Cert.Spec.blockOut
    (fun s e => A0 (ix3 (⟨(i 0).val, (i 0).isLt⟩ : Fin 32) s e)) (fun s e => A1 (ix3 (⟨(i 0).val, (i 0).isLt⟩ : Fin 32) s e))
    (fun s e => A2 (ix3 (⟨(i 0).val, (i 0).isLt⟩ : Fin 32) s e)) (fun s e => A3 (ix3 (⟨(i 0).val, (i 0).isLt⟩ : Fin 32) s e))
    (fun s e => A4 (ix3 (⟨(i 0).val, (i 0).isLt⟩ : Fin 32) s e)) (fun s e => A5 (ix3 (⟨(i 0).val, (i 0).isLt⟩ : Fin 32) s e))
    (fun f d => Wt (ix2 f d)) (fun d => Bs (ix2 (0 : Fin 1) d))
    (⟨(i 1).val, (i 1).isLt⟩ : Fin 1024) (⟨(i 2).val, (i 2).isLt⟩ : Fin 512)

theorem attnAll_apply (A0 A1 A2 A3 A4 A5 : FVec Ideal S32x1024x512 .bf16) (Wt : FVec Ideal S1024x512 .bf16) (Bs : FVec Ideal S1x512 .f32)
    (b : Fin 32) (q : Fin 1024) (d : Fin 512) :
    attnAll A0 A1 A2 A3 A4 A5 Wt Bs (ix3 b q d)
      = Cert.Spec.blockOut (fun s e => A0 (ix3 b s e)) (fun s e => A1 (ix3 b s e)) (fun s e => A2 (ix3 b s e))
          (fun s e => A3 (ix3 b s e)) (fun s e => A4 (ix3 b s e)) (fun s e => A5 (ix3 b s e))
          (fun f d' => Wt (ix2 f d')) (fun d' => Bs (ix2 (0 : Fin 1) d')) q d := rfl

/-- The printed index maps over the grid: the six projection windows and the result window sit at block t, the
    weights and the bias at block 0. -/
theorem idx_facts2 : ∀ t : Fin cfg2.N, win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0
    ∧ win2_5.index t (0 : Fin 3) = t.val ∧ win2_5.index t (1 : Fin 3) = 0 ∧ win2_5.index t (2 : Fin 3) = 0
    ∧ win2_8.index t (0 : Fin 3) = t.val ∧ win2_8.index t (1 : Fin 3) = 0 ∧ win2_8.index t (2 : Fin 3) = 0
    ∧ win2_6.index t (0 : Fin 2) = 0 ∧ win2_6.index t (1 : Fin 2) = 0 ∧ win2_7.index t (0 : Fin 2) = 0 ∧ win2_7.index t (1 : Fin 2) = 0 :=
  (by decide +kernel : ∀ t : Fin grid2.N, _)

/-- Every batch of the result is some point's block. -/
theorem idx_onto2 : ∀ q0 : Fin 32, ∃ t : Fin cfg2.N, win2_8.index t = ![q0.val, 0, 0] :=
  (by decide +kernel : ∀ q0 : Fin 32, ∃ t : Fin grid2.N, win2_8.index t = ![q0.val, 0, 0])

variable (V : (c : Dev nD) → (b : Ref sig .tc) → Buf (Elt Ideal) ((c : Thread nD τ).loc b))

set_option maxHeartbeats 1000000 in
/-- What point t writes back is block t of the batches' output blocks of the arrays the region is entered with. -/
theorem flushed2_eq (c : Dev nD) (t : Fin cfg2.N) :
    (dat2 V c).flushed 8 t = ((cfg2.win 8).blk t).view.read (Elt Ideal)
      (attnAll (V c main_v18) (V c main_v19) (V c main_v20) (V c main_v21) (V c main_v22) (V c main_v23) (V c main_v25) (V c main_v26)) := by
  show (cfg2.win 8).cut (grid2.coords t) ((dat2 V c).after 8 t) = _
  rw [after2_8]
  unfold out2_8
  rw [View.canon_unit_zero hz3]
  simp only [View.ld_unit_zero (S := S1x1024x512) hz3, View.ld_unit_zero (S := S1024x512) hz2, View.ld_unit_zero (S := S1x512) hz2]
  obtain ⟨f00, f01, f02, f10, f11, f12, f20, f21, f22, f30, f31, f32, f40, f41, f42, f50, f51, f52, f80, f81, f82, f60, f61, f70, f71⟩ := idx_facts2 t
  funext j
  obtain ⟨u, q, d, rfl⟩ : ∃ (u : Fin 1) (q : Fin 1024) (d : Fin 512), j = ix3 u q d := ⟨j 0, j 1, j 2, eq_ix3 j⟩
  obtain rfl : u = 0 := Subsingleton.elim _ _
  refine (Cert.BodyValues.attn_apply (iblk2 V c 0 t) (iblk2 V c 1 t) (iblk2 V c 2 t) (iblk2 V c 3 t) (iblk2 V c 4 t) (iblk2 V c 5 t)
    (iblk2 V c 6 t) (iblk2 V c 7 t) q d).trans ?_
  show _ = attnAll (V c main_v18) (V c main_v19) (V c main_v20) (V c main_v21) (V c main_v22) (V c main_v23) (V c main_v25) (V c main_v26)
    (((cfg2.win 8).blk t).view.emb (ix3 (0 : Fin 1) q d))
  unfold attnAll
  generalize hbb : (⟨(((cfg2.win 8).blk t).view.emb (ix3 (0 : Fin 1) q d) 0).val, (((cfg2.win 8).blk t).view.emb (ix3 (0 : Fin 1) q d) 0).isLt⟩ : Fin 32) = bb
  have hb0 : bb.val = win2_8.index t (0 : Fin 3) * 1 + 1 * 0 := by rw [← hbb]; rfl
  have hq : (⟨(((cfg2.win 8).blk t).view.emb (ix3 (0 : Fin 1) q d) 1).val, (((cfg2.win 8).blk t).view.emb (ix3 (0 : Fin 1) q d) 1).isLt⟩ : Fin 1024) = q :=
    Fin.ext (by show win2_8.index t (1 : Fin 3) * 1024 + 1 * q.val = q.val; omega)
  have hd : (⟨(((cfg2.win 8).blk t).view.emb (ix3 (0 : Fin 1) q d) 2).val, (((cfg2.win 8).blk t).view.emb (ix3 (0 : Fin 1) q d) 2).isLt⟩ : Fin 512) = d :=
    Fin.ext (by show win2_8.index t (2 : Fin 3) * 512 + 1 * d.val = d.val; omega)
  rw [hq, hd]
  have e0 : (fun s e => iblk2 V c 0 t (ix3 (0 : Fin 1) s e))
      = (fun s e => (V c main_v18 : S32x1024x512.Idx → EReal) (ix3 bb s e)) := by
    funext s e
    show (V c main_v18 : S32x1024x512.Idx → EReal) (((cfg2.win 0).blk t).view.emb (ix3 (0 : Fin 1) s e)) = _
    refine congrArg _ (funext fun a => Fin.ext ?_)
    match a with
    | ⟨0, _⟩ => show win2_0.index t (0 : Fin 3) * 1 + 1 * 0 = bb.val; omega
    | ⟨1, _⟩ => show win2_0.index t (1 : Fin 3) * 1024 + 1 * s.val = s.val; omega
    | ⟨2, _⟩ => show win2_0.index t (2 : Fin 3) * 512 + 1 * e.val = e.val; omega
  have e1 : (fun s e => iblk2 V c 1 t (ix3 (0 : Fin 1) s e))
      = (fun s e => (V c main_v19 : S32x1024x512.Idx → EReal) (ix3 bb s e)) := by
    funext s e
    show (V c main_v19 : S32x1024x512.Idx → EReal) (((cfg2.win 1).blk t).view.emb (ix3 (0 : Fin 1) s e)) = _
    refine congrArg _ (funext fun a => Fin.ext ?_)
    match a with
    | ⟨0, _⟩ => show win2_1.index t (0 : Fin 3) * 1 + 1 * 0 = bb.val; omega
    | ⟨1, _⟩ => show win2_1.index t (1 : Fin 3) * 1024 + 1 * s.val = s.val; omega
    | ⟨2, _⟩ => show win2_1.index t (2 : Fin 3) * 512 + 1 * e.val = e.val; omega
  have e2 : (fun s e => iblk2 V c 2 t (ix3 (0 : Fin 1) s e))
      = (fun s e => (V c main_v20 : S32x1024x512.Idx → EReal) (ix3 bb s e)) := by
    funext s e
    show (V c main_v20 : S32x1024x512.Idx → EReal) (((cfg2.win 2).blk t).view.emb (ix3 (0 : Fin 1) s e)) = _
    refine congrArg _ (funext fun a => Fin.ext ?_)
    match a with
    | ⟨0, _⟩ => show win2_2.index t (0 : Fin 3) * 1 + 1 * 0 = bb.val; omega
    | ⟨1, _⟩ => show win2_2.index t (1 : Fin 3) * 1024 + 1 * s.val = s.val; omega
    | ⟨2, _⟩ => show win2_2.index t (2 : Fin 3) * 512 + 1 * e.val = e.val; omega
  have e3 : (fun s e => iblk2 V c 3 t (ix3 (0 : Fin 1) s e))
      = (fun s e => (V c main_v21 : S32x1024x512.Idx → EReal) (ix3 bb s e)) := by
    funext s e
    show (V c main_v21 : S32x1024x512.Idx → EReal) (((cfg2.win 3).blk t).view.emb (ix3 (0 : Fin 1) s e)) = _
    refine congrArg _ (funext fun a => Fin.ext ?_)
    match a with
    | ⟨0, _⟩ => show win2_3.index t (0 : Fin 3) * 1 + 1 * 0 = bb.val; omega
    | ⟨1, _⟩ => show win2_3.index t (1 : Fin 3) * 1024 + 1 * s.val = s.val; omega
    | ⟨2, _⟩ => show win2_3.index t (2 : Fin 3) * 512 + 1 * e.val = e.val; omega
  have e4 : (fun s e => iblk2 V c 4 t (ix3 (0 : Fin 1) s e))
      = (fun s e => (V c main_v22 : S32x1024x512.Idx → EReal) (ix3 bb s e)) := by
    funext s e
    show (V c main_v22 : S32x1024x512.Idx → EReal) (((cfg2.win 4).blk t).view.emb (ix3 (0 : Fin 1) s e)) = _
    refine congrArg _ (funext fun a => Fin.ext ?_)
    match a with
    | ⟨0, _⟩ => show win2_4.index t (0 : Fin 3) * 1 + 1 * 0 = bb.val; omega
    | ⟨1, _⟩ => show win2_4.index t (1 : Fin 3) * 1024 + 1 * s.val = s.val; omega
    | ⟨2, _⟩ => show win2_4.index t (2 : Fin 3) * 512 + 1 * e.val = e.val; omega
  have e5 : (fun s e => iblk2 V c 5 t (ix3 (0 : Fin 1) s e))
      = (fun s e => (V c main_v23 : S32x1024x512.Idx → EReal) (ix3 bb s e)) := by
    funext s e
    show (V c main_v23 : S32x1024x512.Idx → EReal) (((cfg2.win 5).blk t).view.emb (ix3 (0 : Fin 1) s e)) = _
    refine congrArg _ (funext fun a => Fin.ext ?_)
    match a with
    | ⟨0, _⟩ => show win2_5.index t (0 : Fin 3) * 1 + 1 * 0 = bb.val; omega
    | ⟨1, _⟩ => show win2_5.index t (1 : Fin 3) * 1024 + 1 * s.val = s.val; omega
    | ⟨2, _⟩ => show win2_5.index t (2 : Fin 3) * 512 + 1 * e.val = e.val; omega
  have e6 : (fun f d' => iblk2 V c 6 t (ix2 f d')) = (fun f d' => (V c main_v25 : S1024x512.Idx → EReal) (ix2 f d')) := by
    funext f d'
    show (V c main_v25 : S1024x512.Idx → EReal) (((cfg2.win 6).blk t).view.emb (ix2 f d')) = _
    refine congrArg _ (funext fun a => Fin.ext ?_)
    match a with
    | ⟨0, _⟩ => show win2_6.index t (0 : Fin 2) * 1024 + 1 * f.val = f.val; omega
    | ⟨1, _⟩ => show win2_6.index t (1 : Fin 2) * 512 + 1 * d'.val = d'.val; omega
  have e7 : (fun d' => iblk2 V c 7 t (ix2 (0 : Fin 1) d')) = (fun d' => (V c main_v26 : S1x512.Idx → EReal) (ix2 (0 : Fin 1) d')) := by
    funext d'
    show (V c main_v26 : S1x512.Idx → EReal) (((cfg2.win 7).blk t).view.emb (ix2 (0 : Fin 1) d')) = _
    refine congrArg _ (funext fun a => Fin.ext ?_)
    match a with
    | ⟨0, _⟩ => show win2_7.index t (0 : Fin 2) * 1 + 1 * 0 = 0; omega
    | ⟨1, _⟩ => show win2_7.index t (1 : Fin 2) * 512 + 1 * d'.val = d'.val; omega
  rw [e0, e1, e2, e3, e4, e5, e6, e7]

/-- An index of the result array is in point t's block iff each coordinate is in the block's range. -/
theorem mem_blk2 (t : Fin cfg2.N) (i : S32x1024x512.Idx) :
    i ∈ ((cfg2.win 8).blk t).view.set ↔ ∀ a : Fin 3, win2_8.index t a * S1x1024x512.size a ≤ (i a).val ∧ (i a).val < win2_8.index t a * S1x1024x512.size a + S1x1024x512.size a := by
  show i ∈ ((View.whole main_v27).slice (win2_8.rect t)).set ↔ _
  rw [View.set_slice_whole, Rect.mem_set_unit]
  exact Iff.rfl

/-- The result array after the region: every batch's output block of the arrays it was entered with. -/
theorem final2 (c : Dev nD) : (dat2 V c).arrAt 8 cfg2.N
    = attnAll (V c main_v18) (V c main_v19) (V c main_v20) (V c main_v21) (V c main_v22) (V c main_v23) (V c main_v25) (V c main_v26) :=
  (dat2 V c).arrAt_eq_of_cover 8 _ (fun t _ => flushed2_eq V c t) fun i => by
    have hi0 : (i 0).val < 32 := (i 0).isLt
    have hi1 : (i 1).val < 1024 := (i 1).isLt
    have hi2 : (i 2).val < 512 := (i 2).isLt
    obtain ⟨t, ht⟩ := idx_onto2 ⟨(i 0).val, hi0⟩
    have q0 : win2_8.index t (0 : Fin 3) = (i 0).val := congrFun ht 0
    have q1 : win2_8.index t (1 : Fin 3) = 0 := congrFun ht 1
    have q2 : win2_8.index t (2 : Fin 3) = 0 := congrFun ht 2
    refine ⟨t, flush2_8 t, ?_⟩
    rw [mem_blk2]
    intro a
    match a with
    | ⟨0, _⟩ => show win2_8.index t (0 : Fin 3) * 1 ≤ (i 0).val ∧ (i 0).val < win2_8.index t (0 : Fin 3) * 1 + 1; omega
    | ⟨1, _⟩ => show win2_8.index t (1 : Fin 3) * 1024 ≤ (i 1).val ∧ (i 1).val < win2_8.index t (1 : Fin 3) * 1024 + 1024; omega
    | ⟨2, _⟩ => show win2_8.index t (2 : Fin 3) * 512 ≤ (i 2).val ∧ (i 2).val < win2_8.index t (2 : Fin 3) * 512 + 512; omega

end Cert.KernelIdeal.Val

end
-- ==== Proof.LibFlattenRows.lean ====
/-
  Reusable lemmas: the two leading axes of an array merged into one axis of rows, and split again, read at an entry.

  A program that treats a [A, B, C] array as A·B rows of length C reshapes it to [R, C] (R = A·B) on the way in and
  reshapes its [R, C] and [R, 1] results back to [A, B, C] and [A, B] on the way out.  In row-major order row (b, m)
  is row r = b·B + m, so

      merge  [A, B, C] → [R, C]    at (r, n)     is the operand at (b, m, n),
      split  [R, C] → [A, B, C]    at (b, m, n)  is the operand at (r, n),
      split  [R, 1] → [A, B]       at (b, m)     is the operand at (r, 0),

  whenever r = b·B + m.  Generic in the extents and in the element type.
-/
import Idealize.ShloMosaic.Lib.Pipeline.Value
import Idealize.ShloMosaic.Lib.ValueIdx

noncomputable section

namespace Cert.FlattenRows

open Idealize.ShloMosaic Idealize.ShloMosaic.ValueIdx

variable {α : Type} {A B C R : ℕ}

/-- An [A, B, C] array viewed as [R, C] reads, at (r, n) with r = b·B + m, the operand at (b, m, n). -/
theorem merge_apply (x : (⟨3, ![A, B, C]⟩ : Shape).Idx → α) (h : (⟨3, ![A, B, C]⟩ : Shape).ShapeCasts ⟨2, ![R, C]⟩)
    (b : Fin A) (m : Fin B) (n : Fin C) (r : Fin R) (hr : r.val = b.val * B + m.val) :
    shapeCast ⟨2, ![R, C]⟩ x h (ix2 r n) = x (ix3 b m n) :=
  shapeCast_apply x h _ _ (by
    rw [Shape.rowMajor_val_three, Shape.rowMajor_val_two]
    show (b.val * B + m.val) * C + n.val = r.val * C + n.val
    rw [hr])

/-- An [R, C] array viewed as [A, B, C] reads, at (b, m, n), the operand at (r, n) with r = b·B + m. -/
theorem split_apply (x : (⟨2, ![R, C]⟩ : Shape).Idx → α) (h : (⟨2, ![R, C]⟩ : Shape).ShapeCasts ⟨3, ![A, B, C]⟩)
    (b : Fin A) (m : Fin B) (n : Fin C) (r : Fin R) (hr : r.val = b.val * B + m.val) :
    shapeCast ⟨3, ![A, B, C]⟩ x h (ix3 b m n) = x (ix2 r n) :=
  shapeCast_apply x h _ _ (by
    rw [Shape.rowMajor_val_three, Shape.rowMajor_val_two]
    show r.val * C + n.val = (b.val * B + m.val) * C + n.val
    rw [hr])

/-- An [R, 1] column viewed as [A, B] reads, at (b, m), the operand at (r, 0) with r = b·B + m. -/
theorem splitColumn_apply (x : (⟨2, ![R, 1]⟩ : Shape).Idx → α) (h : (⟨2, ![R, 1]⟩ : Shape).ShapeCasts ⟨2, ![A, B]⟩)
    (b : Fin A) (m : Fin B) (r : Fin R) (hr : r.val = b.val * B + m.val) :
    shapeCast ⟨2, ![A, B]⟩ x h (ix2 b m) = x (ix2 r (0 : Fin 1)) :=
  shapeCast_apply x h _ _ (by
    rw [Shape.rowMajor_val_two, Shape.rowMajor_val_two]
    show r.val * 1 + 0 = b.val * B + m.val
    rw [hr, Nat.mul_one, Nat.add_zero])

end Cert.FlattenRows

end
-- ==== Proof.LibConcatColsThree.lean ====
/-
  A reusable lemma: three matrices with the same number of rows laid side by side, read at an entry.

  The concatenation along axis 1 of an [M, a], an [M, b] and an [M, c] array into an [M, t] array, at (p, j): the first
  piece at (p, j) when j is below a, the second at (p, j - a) when a ≤ j < a + b, the third at (p, j - a - b) otherwise.
  The three widths need not be equal (a feature block, a second feature block and a single extra column, say).
  Generic in M, a, b, c, t and in the element type; the column inside the piece is passed with its defining equation,
  so a use site picks its own spelling.
-/
import Idealize.ShloMosaic.Lib.Pipeline.Value
import Idealize.ShloMosaic.Lib.ValueIdx

noncomputable section

namespace Cert.ConcatColsThree

open Idealize.ShloMosaic Idealize.ShloMosaic.ValueIdx

variable {α : Type} {M a b c t : ℕ}

/-- A column in the first piece: the first piece at the same row and column. -/
theorem first_apply (x₁ : (⟨2, ![M, a]⟩ : Shape).Idx → α) (x₂ : (⟨2, ![M, b]⟩ : Shape).Idx → α)
    (x₃ : (⟨2, ![M, c]⟩ : Shape).Idx → α)
    (h : Shape.Concatenates [⟨2, ![M, a]⟩, ⟨2, ![M, b]⟩, ⟨2, ![M, c]⟩] ⟨2, ![M, t]⟩ 1)
    (p : Fin M) (j : Fin t) (k : Fin a) (hk : k.val = j.val) :
    concatenate ⟨2, ![M, t]⟩ 1 [⟨⟨2, ![M, a]⟩, x₁⟩, ⟨⟨2, ![M, b]⟩, x₂⟩, ⟨⟨2, ![M, c]⟩, x₃⟩] h (ix2 p j) = x₁ (ix2 p k) :=
  concatenate_apply_piece (t := ⟨2, ![M, t]⟩) 1 [⟨⟨2, ![M, a]⟩, x₁⟩, ⟨⟨2, ![M, b]⟩, x₂⟩, ⟨⟨2, ![M, c]⟩, x₃⟩] h (ix2 p j)
    0 (by simp) ⟨2, ![M, a]⟩ x₁ rfl rfl 0 rfl (ix2 p k)
    (fun d hd => match d, hd with | ⟨0, _⟩, _ => rfl | ⟨1, _⟩, hd => absurd rfl hd)
    (by show 0 + k.val = j.val; omega)

/-- A column in the second piece: the second piece at the same row, the column less the first piece's width. -/
theorem second_apply (x₁ : (⟨2, ![M, a]⟩ : Shape).Idx → α) (x₂ : (⟨2, ![M, b]⟩ : Shape).Idx → α)
    (x₃ : (⟨2, ![M, c]⟩ : Shape).Idx → α)
    (h : Shape.Concatenates [⟨2, ![M, a]⟩, ⟨2, ![M, b]⟩, ⟨2, ![M, c]⟩] ⟨2, ![M, t]⟩ 1)
    (p : Fin M) (j : Fin t) (k : Fin b) (hk : a + k.val = j.val) :
    concatenate ⟨2, ![M, t]⟩ 1 [⟨⟨2, ![M, a]⟩, x₁⟩, ⟨⟨2, ![M, b]⟩, x₂⟩, ⟨⟨2, ![M, c]⟩, x₃⟩] h (ix2 p j) = x₂ (ix2 p k) :=
  concatenate_apply_piece (t := ⟨2, ![M, t]⟩) 1 [⟨⟨2, ![M, a]⟩, x₁⟩, ⟨⟨2, ![M, b]⟩, x₂⟩, ⟨⟨2, ![M, c]⟩, x₃⟩] h (ix2 p j)
    1 (by simp) ⟨2, ![M, b]⟩ x₂ rfl rfl a (by simp) (ix2 p k)
    (fun d hd => match d, hd with | ⟨0, _⟩, _ => rfl | ⟨1, _⟩, hd => absurd rfl hd)
    (by show a + k.val = j.val; omega)

/-- A column in the third piece: the third piece at the same row, the column less the first two pieces' widths. -/
theorem third_apply (x₁ : (⟨2, ![M, a]⟩ : Shape).Idx → α) (x₂ : (⟨2, ![M, b]⟩ : Shape).Idx → α)
    (x₃ : (⟨2, ![M, c]⟩ : Shape).Idx → α)
    (h : Shape.Concatenates [⟨2, ![M, a]⟩, ⟨2, ![M, b]⟩, ⟨2, ![M, c]⟩] ⟨2, ![M, t]⟩ 1)
    (p : Fin M) (j : Fin t) (k : Fin c) (hk : a + b + k.val = j.val) :
    concatenate ⟨2, ![M, t]⟩ 1 [⟨⟨2, ![M, a]⟩, x₁⟩, ⟨⟨2, ![M, b]⟩, x₂⟩, ⟨⟨2, ![M, c]⟩, x₃⟩] h (ix2 p j) = x₃ (ix2 p k) :=
  concatenate_apply_piece (t := ⟨2, ![M, t]⟩) 1 [⟨⟨2, ![M, a]⟩, x₁⟩, ⟨⟨2, ![M, b]⟩, x₂⟩, ⟨⟨2, ![M, c]⟩, x₃⟩] h (ix2 p j)
    2 (by simp) ⟨2, ![M, c]⟩ x₃ rfl rfl (a + b) (by simp) (ix2 p k)
    (fun d hd => match d, hd with | ⟨0, _⟩, _ => rfl | ⟨1, _⟩, hd => absurd rfl hd)
    (by show a + b + k.val = j.val; omega)

end Cert.ConcatColsThree

end
-- ==== Proof.HostGlueI.lean ====
/-
  The host operations around the three regions, read at an entry.

  Before the first two regions the host lays each sequence out batch-major and flattens it to rows,
      rows[b·1024 + s, d] = x[s, b, d],
  and lays three transposed 512×512 weight matrices side by side into a 512×1536 matrix,
      Wcat[d, e] = Wq[e, d],  Wcat[d, 512 + e] = Wk[e, d],  Wcat[d, 1024 + e] = Wv[e, d].
  Between the second and the third region it views a [32768, 1536] projection as [32, 1024, 1536] and cuts it into
  three [32, 1024, 512] arrays (columns 0…, 512…, 1024…), transposes the output weights to feature-major, and views
  the bias as a row.  After the third region it brings the result back to position-major.

  The first stretch is read in four pieces (the operations before the first join of three matrices, the join, the next
  three transposes, the second join), so that each piece's fold over the buffer contents is a short syntactic term.
-/
import proofs.«136491_j13649406066964_1_alg».proof.Proof.FrameDefsI
import proofs.«136491_j13649406066964_1_alg».proof.Proof.LibAfterSplit
import proofs.«136491_j13649406066964_1_alg».proof.Proof.LibFlattenRows
import proofs.«136491_j13649406066964_1_alg».proof.Proof.LibConcatColsThree
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo

/-! ## The first stretch in four pieces -/

variable {F : FTy → Type} [FloatOps F]

/-- The two sequences laid out batch-major and flattened to rows; the first three weight matrices transposed. -/
abbrev h0A : List (HloOp τ sig (Elt F)) :=
  [ StableHlo.unary main_arg0 main_v0 ((transpose S32x1024x512 [1, 0, 2] · transposes_S1024x32x512_S32x1024x512_1_0_2) : (⟨S1024x32x512, .f32⟩ : BufTy).Contents (Elt F) → (⟨S32x1024x512, .f32⟩ : BufTy).Contents (Elt F)),
    StableHlo.unary main_arg1 main_v1 ((transpose S32x1024x512 [1, 0, 2] · transposes_S1024x32x512_S32x1024x512_1_0_2) : (⟨S1024x32x512, .f32⟩ : BufTy).Contents (Elt F) → (⟨S32x1024x512, .f32⟩ : BufTy).Contents (Elt F)),
    StableHlo.reshape main_v0 main_v2 rfl shapeCasts_S32x1024x512_S32768x512,
    StableHlo.reshape main_v1 main_v3 rfl shapeCasts_S32x1024x512_S32768x512,
    StableHlo.unary main_arg2 main_v4 ((transpose S512x512 [1, 0] · transposes_S512x512_S512x512_1_0) : (⟨S512x512, .f32⟩ : BufTy).Contents (Elt F) → (⟨S512x512, .f32⟩ : BufTy).Contents (Elt F)),
    StableHlo.unary main_arg3 main_v5 ((transpose S512x512 [1, 0] · transposes_S512x512_S512x512_1_0) : (⟨S512x512, .f32⟩ : BufTy).Contents (Elt F) → (⟨S512x512, .f32⟩ : BufTy).Contents (Elt F)),
    StableHlo.unary main_arg4 main_v6 ((transpose S512x512 [1, 0] · transposes_S512x512_S512x512_1_0) : (⟨S512x512, .f32⟩ : BufTy).Contents (Elt F) → (⟨S512x512, .f32⟩ : BufTy).Contents (Elt F)) ]
/-- The first three transposed weight matrices side by side. -/
abbrev h0B : List (HloOp τ sig (Elt F)) :=
  [ StableHlo.nary ![main_v4, main_v5, main_v6] main_v7 (fun u => concatenate S512x1536 1 [⟨S512x512, u 0⟩, ⟨S512x512, u 1⟩, ⟨S512x512, u 2⟩] concatenates_S512x512_S512x512_S512x512_S512x1536_d1),
    StableHlo.unary main_v7 main_v8 ((truncf .bf16 · bitsLt_bf16_f32) : (⟨S512x1536, .f32⟩ : BufTy).Contents (Elt F) → (⟨S512x1536, .bf16⟩ : BufTy).Contents (Elt F)) ]
/-- The other three weight matrices transposed. -/
abbrev h0C : List (HloOp τ sig (Elt F)) :=
  [ StableHlo.unary main_arg5 main_v9 ((transpose S512x512 [1, 0] · transposes_S512x512_S512x512_1_0) : (⟨S512x512, .f32⟩ : BufTy).Contents (Elt F) → (⟨S512x512, .f32⟩ : BufTy).Contents (Elt F)),
    StableHlo.unary main_arg6 main_v10 ((transpose S512x512 [1, 0] · transposes_S512x512_S512x512_1_0) : (⟨S512x512, .f32⟩ : BufTy).Contents (Elt F) → (⟨S512x512, .f32⟩ : BufTy).Contents (Elt F)),
    StableHlo.unary main_arg7 main_v11 ((transpose S512x512 [1, 0] · transposes_S512x512_S512x512_1_0) : (⟨S512x512, .f32⟩ : BufTy).Contents (Elt F) → (⟨S512x512, .f32⟩ : BufTy).Contents (Elt F)) ]
/-- Those three side by side. -/
abbrev h0D : List (HloOp τ sig (Elt F)) :=
  [ StableHlo.nary ![main_v9, main_v10, main_v11] main_v12 (fun u => concatenate S512x1536 1 [⟨S512x512, u 0⟩, ⟨S512x512, u 1⟩, ⟨S512x512, u 2⟩] concatenates_S512x512_S512x512_S512x512_S512x1536_d1),
    StableHlo.unary main_v12 main_v13 ((truncf .bf16 · bitsLt_bf16_f32) : (⟨S512x1536, .f32⟩ : BufTy).Contents (Elt F) → (⟨S512x1536, .bf16⟩ : BufTy).Contents (Elt F)) ]

theorem hostOps0_split : (hostOps0 : List (HloOp τ sig (Elt F))) = h0A ++ (h0B ++ (h0C ++ h0D)) := rfl

theorem after_hostOps0 (V : Valuation τ sig (Elt F)) :
    after hostOps0 V = after h0D (after h0C (after h0B (after h0A V))) := by
  rw [hostOps0_split, Cert.AfterSplit.after_append, Cert.AfterSplit.after_append, Cert.AfterSplit.after_append]

/-! ### What each piece writes and what it leaves -/

theorem h0A_v2 (V : Valuation τ sig (Elt Ideal)) :
    (after h0A V (Proc.devRef .tc main_v2) : S32768x512.Idx → EReal) = shapeCast S32768x512 (transpose S32x1024x512 [1, 0, 2] (V (Proc.devRef .tc main_arg0)) transposes_S1024x32x512_S32x1024x512_1_0_2) shapeCasts_S32x1024x512_S32768x512 := by
  after_results_simp <;> rfl
theorem h0A_v3 (V : Valuation τ sig (Elt Ideal)) :
    (after h0A V (Proc.devRef .tc main_v3) : S32768x512.Idx → EReal) = shapeCast S32768x512 (transpose S32x1024x512 [1, 0, 2] (V (Proc.devRef .tc main_arg1)) transposes_S1024x32x512_S32x1024x512_1_0_2) shapeCasts_S32x1024x512_S32768x512 := by
  after_results_simp <;> rfl
theorem h0A_v4 (V : Valuation τ sig (Elt Ideal)) :
    (after h0A V (Proc.devRef .tc main_v4) : S512x512.Idx → EReal) = (transpose S512x512 [1, 0] (V (Proc.devRef .tc main_arg2)) transposes_S512x512_S512x512_1_0) := by
  after_results_simp <;> rfl
theorem h0A_v5 (V : Valuation τ sig (Elt Ideal)) :
    (after h0A V (Proc.devRef .tc main_v5) : S512x512.Idx → EReal) = (transpose S512x512 [1, 0] (V (Proc.devRef .tc main_arg3)) transposes_S512x512_S512x512_1_0) := by
  after_results_simp <;> rfl
theorem h0A_v6 (V : Valuation τ sig (Elt Ideal)) :
    (after h0A V (Proc.devRef .tc main_v6) : S512x512.Idx → EReal) = (transpose S512x512 [1, 0] (V (Proc.devRef .tc main_arg4)) transposes_S512x512_S512x512_1_0) := by
  after_results_simp <;> rfl
theorem h0A_keep_arg5 (V : Valuation τ sig (Elt Ideal)) : after h0A V (Proc.devRef .tc main_arg5) = V (Proc.devRef .tc main_arg5) := by
  after_results_simp
theorem h0A_keep_arg6 (V : Valuation τ sig (Elt Ideal)) : after h0A V (Proc.devRef .tc main_arg6) = V (Proc.devRef .tc main_arg6) := by
  after_results_simp
theorem h0A_keep_arg7 (V : Valuation τ sig (Elt Ideal)) : after h0A V (Proc.devRef .tc main_arg7) = V (Proc.devRef .tc main_arg7) := by
  after_results_simp

theorem h0B_v8 (V : Valuation τ sig (Elt Ideal)) :
    (after h0B V (Proc.devRef .tc main_v8) : S512x1536.Idx → EReal)
      = truncf (F := Ideal) .bf16 (concatenate S512x1536 1 [⟨S512x512, V (Proc.devRef .tc main_v4)⟩, ⟨S512x512, V (Proc.devRef .tc main_v5)⟩, ⟨S512x512, V (Proc.devRef .tc main_v6)⟩] concatenates_S512x512_S512x512_S512x512_S512x1536_d1) bitsLt_bf16_f32 := by
  after_results_simp <;> rfl
theorem h0B_keep_v2 (V : Valuation τ sig (Elt Ideal)) : after h0B V (Proc.devRef .tc main_v2) = V (Proc.devRef .tc main_v2) := by
  after_results_simp
theorem h0B_keep_v3 (V : Valuation τ sig (Elt Ideal)) : after h0B V (Proc.devRef .tc main_v3) = V (Proc.devRef .tc main_v3) := by
  after_results_simp
theorem h0B_keep_arg5 (V : Valuation τ sig (Elt Ideal)) : after h0B V (Proc.devRef .tc main_arg5) = V (Proc.devRef .tc main_arg5) := by
  after_results_simp
theorem h0B_keep_arg6 (V : Valuation τ sig (Elt Ideal)) : after h0B V (Proc.devRef .tc main_arg6) = V (Proc.devRef .tc main_arg6) := by
  after_results_simp
theorem h0B_keep_arg7 (V : Valuation τ sig (Elt Ideal)) : after h0B V (Proc.devRef .tc main_arg7) = V (Proc.devRef .tc main_arg7) := by
  after_results_simp

theorem h0C_v9 (V : Valuation τ sig (Elt Ideal)) :
    (after h0C V (Proc.devRef .tc main_v9) : S512x512.Idx → EReal) = (transpose S512x512 [1, 0] (V (Proc.devRef .tc main_arg5)) transposes_S512x512_S512x512_1_0) := by
  after_results_simp <;> rfl
theorem h0C_v10 (V : Valuation τ sig (Elt Ideal)) :
    (after h0C V (Proc.devRef .tc main_v10) : S512x512.Idx → EReal) = (transpose S512x512 [1, 0] (V (Proc.devRef .tc main_arg6)) transposes_S512x512_S512x512_1_0) := by
  after_results_simp <;> rfl
theorem h0C_v11 (V : Valuation τ sig (Elt Ideal)) :
    (after h0C V (Proc.devRef .tc main_v11) : S512x512.Idx → EReal) = (transpose S512x512 [1, 0] (V (Proc.devRef .tc main_arg7)) transposes_S512x512_S512x512_1_0) := by
  after_results_simp <;> rfl
theorem h0C_keep_v2 (V : Valuation τ sig (Elt Ideal)) : after h0C V (Proc.devRef .tc main_v2) = V (Proc.devRef .tc main_v2) := by
  after_results_simp
theorem h0C_keep_v3 (V : Valuation τ sig (Elt Ideal)) : after h0C V (Proc.devRef .tc main_v3) = V (Proc.devRef .tc main_v3) := by
  after_results_simp
theorem h0C_keep_v8 (V : Valuation τ sig (Elt Ideal)) : after h0C V (Proc.devRef .tc main_v8) = V (Proc.devRef .tc main_v8) := by
  after_results_simp

theorem h0D_v13 (V : Valuation τ sig (Elt Ideal)) :
    (after h0D V (Proc.devRef .tc main_v13) : S512x1536.Idx → EReal)
      = truncf (F := Ideal) .bf16 (concatenate S512x1536 1 [⟨S512x512, V (Proc.devRef .tc main_v9)⟩, ⟨S512x512, V (Proc.devRef .tc main_v10)⟩, ⟨S512x512, V (Proc.devRef .tc main_v11)⟩] concatenates_S512x512_S512x512_S512x512_S512x1536_d1) bitsLt_bf16_f32 := by
  after_results_simp <;> rfl
theorem h0D_keep_v2 (V : Valuation τ sig (Elt Ideal)) : after h0D V (Proc.devRef .tc main_v2) = V (Proc.devRef .tc main_v2) := by
  after_results_simp
theorem h0D_keep_v3 (V : Valuation τ sig (Elt Ideal)) : after h0D V (Proc.devRef .tc main_v3) = V (Proc.devRef .tc main_v3) := by
  after_results_simp
theorem h0D_keep_v8 (V : Valuation τ sig (Elt Ideal)) : after h0D V (Proc.devRef .tc main_v8) = V (Proc.devRef .tc main_v8) := by
  after_results_simp

/-! ### The first stretch's results as whole arrays of the launch contents -/

variable (m : (ℓ : Loc nD τ sig) → Buf (Elt Ideal) ℓ) (c : Dev nD)

theorem W1_v2 : (W1 m c (Proc.devRef .tc main_v2) : S32768x512.Idx → EReal) = shapeCast S32768x512 (transpose S32x1024x512 [1, 0, 2] (W0 m c (Proc.devRef .tc main_arg0)) transposes_S1024x32x512_S32x1024x512_1_0_2) shapeCasts_S32x1024x512_S32768x512 := by
  show after hostOps0 (W0 m c) _ = _
  rw [after_hostOps0, h0D_keep_v2, h0C_keep_v2, h0B_keep_v2, h0A_v2]
theorem W1_v3 : (W1 m c (Proc.devRef .tc main_v3) : S32768x512.Idx → EReal) = shapeCast S32768x512 (transpose S32x1024x512 [1, 0, 2] (W0 m c (Proc.devRef .tc main_arg1)) transposes_S1024x32x512_S32x1024x512_1_0_2) shapeCasts_S32x1024x512_S32768x512 := by
  show after hostOps0 (W0 m c) _ = _
  rw [after_hostOps0, h0D_keep_v3, h0C_keep_v3, h0B_keep_v3, h0A_v3]
theorem W1_v8 : (W1 m c (Proc.devRef .tc main_v8) : S512x1536.Idx → EReal)
    = truncf (F := Ideal) .bf16 (concatenate S512x1536 1 [⟨S512x512, (transpose S512x512 [1, 0] (W0 m c (Proc.devRef .tc main_arg2)) transposes_S512x512_S512x512_1_0)⟩, ⟨S512x512, (transpose S512x512 [1, 0] (W0 m c (Proc.devRef .tc main_arg3)) transposes_S512x512_S512x512_1_0)⟩, ⟨S512x512, (transpose S512x512 [1, 0] (W0 m c (Proc.devRef .tc main_arg4)) transposes_S512x512_S512x512_1_0)⟩] concatenates_S512x512_S512x512_S512x512_S512x1536_d1) bitsLt_bf16_f32 := by
  show after hostOps0 (W0 m c) _ = _
  rw [after_hostOps0, h0D_keep_v8, h0C_keep_v8, h0B_v8, h0A_v4, h0A_v5, h0A_v6]
theorem W1_v13 : (W1 m c (Proc.devRef .tc main_v13) : S512x1536.Idx → EReal)
    = truncf (F := Ideal) .bf16 (concatenate S512x1536 1 [⟨S512x512, (transpose S512x512 [1, 0] (W0 m c (Proc.devRef .tc main_arg5)) transposes_S512x512_S512x512_1_0)⟩, ⟨S512x512, (transpose S512x512 [1, 0] (W0 m c (Proc.devRef .tc main_arg6)) transposes_S512x512_S512x512_1_0)⟩, ⟨S512x512, (transpose S512x512 [1, 0] (W0 m c (Proc.devRef .tc main_arg7)) transposes_S512x512_S512x512_1_0)⟩] concatenates_S512x512_S512x512_S512x512_S512x1536_d1) bitsLt_bf16_f32 := by
  show after hostOps0 (W0 m c) _ = _
  rw [after_hostOps0, h0D_v13, h0C_v9, h0C_v10, h0C_v11, h0B_keep_arg5, h0B_keep_arg6, h0B_keep_arg7,
    h0A_keep_arg5, h0A_keep_arg6, h0A_keep_arg7]

/-! ### … and at an entry -/

/-- Row b·1024 + s of the flattened first sequence is position s of batch b. -/
theorem W1_v2_apply (b : Fin 32) (s : Fin 1024) (d : Fin 512) (r : Fin 32768) (hr : r.val = b.val * 1024 + s.val) :
    (W1 m c (Proc.devRef .tc main_v2) : S32768x512.Idx → EReal) (ix2 r d)
      = (W0 m c (Proc.devRef .tc main_arg0) : S1024x32x512.Idx → EReal) (ix3 s b d) := by
  rw [W1_v2, Cert.FlattenRows.merge_apply _ _ b s d r hr]
  exact transpose_apply _ _ _ _ _ fun a => match a with | ⟨0, _⟩ => rfl | ⟨1, _⟩ => rfl | ⟨2, _⟩ => rfl
theorem W1_v3_apply (b : Fin 32) (s : Fin 1024) (d : Fin 512) (r : Fin 32768) (hr : r.val = b.val * 1024 + s.val) :
    (W1 m c (Proc.devRef .tc main_v3) : S32768x512.Idx → EReal) (ix2 r d)
      = (W0 m c (Proc.devRef .tc main_arg1) : S1024x32x512.Idx → EReal) (ix3 s b d) := by
  rw [W1_v3, Cert.FlattenRows.merge_apply _ _ b s d r hr]
  exact transpose_apply _ _ _ _ _ fun a => match a with | ⟨0, _⟩ => rfl | ⟨1, _⟩ => rfl | ⟨2, _⟩ => rfl

/-- The joined weight matrix of the first sequence, column by column. -/
theorem W1_v8_first (d e : Fin 512) (j : Fin 1536) (hj : e.val = j.val) :
    (W1 m c (Proc.devRef .tc main_v8) : S512x1536.Idx → EReal) (ix2 d j) = (W0 m c (Proc.devRef .tc main_arg2) : S512x512.Idx → EReal) (ix2 e d) := by
  rw [W1_v8, truncf_apply, Cert.ConcatColsThree.first_apply _ _ _ _ d j e hj]
  exact transpose_ix2_apply _ _ d e
theorem W1_v8_second (d e : Fin 512) (j : Fin 1536) (hj : 512 + e.val = j.val) :
    (W1 m c (Proc.devRef .tc main_v8) : S512x1536.Idx → EReal) (ix2 d j) = (W0 m c (Proc.devRef .tc main_arg3) : S512x512.Idx → EReal) (ix2 e d) := by
  rw [W1_v8, truncf_apply, Cert.ConcatColsThree.second_apply _ _ _ _ d j e hj]
  exact transpose_ix2_apply _ _ d e
theorem W1_v8_third (d e : Fin 512) (j : Fin 1536) (hj : 512 + 512 + e.val = j.val) :
    (W1 m c (Proc.devRef .tc main_v8) : S512x1536.Idx → EReal) (ix2 d j) = (W0 m c (Proc.devRef .tc main_arg4) : S512x512.Idx → EReal) (ix2 e d) := by
  rw [W1_v8, truncf_apply, Cert.ConcatColsThree.third_apply _ _ _ _ d j e hj]
  exact transpose_ix2_apply _ _ d e
/-- The joined weight matrix of the second sequence, column by column. -/
theorem W1_v13_first (d e : Fin 512) (j : Fin 1536) (hj : e.val = j.val) :
    (W1 m c (Proc.devRef .tc main_v13) : S512x1536.Idx → EReal) (ix2 d j) = (W0 m c (Proc.devRef .tc main_arg5) : S512x512.Idx → EReal) (ix2 e d) := by
  rw [W1_v13, truncf_apply, Cert.ConcatColsThree.first_apply _ _ _ _ d j e hj]
  exact transpose_ix2_apply _ _ d e
theorem W1_v13_second (d e : Fin 512) (j : Fin 1536) (hj : 512 + e.val = j.val) :
    (W1 m c (Proc.devRef .tc main_v13) : S512x1536.Idx → EReal) (ix2 d j) = (W0 m c (Proc.devRef .tc main_arg6) : S512x512.Idx → EReal) (ix2 e d) := by
  rw [W1_v13, truncf_apply, Cert.ConcatColsThree.second_apply _ _ _ _ d j e hj]
  exact transpose_ix2_apply _ _ d e
theorem W1_v13_third (d e : Fin 512) (j : Fin 1536) (hj : 512 + 512 + e.val = j.val) :
    (W1 m c (Proc.devRef .tc main_v13) : S512x1536.Idx → EReal) (ix2 d j) = (W0 m c (Proc.devRef .tc main_arg7) : S512x512.Idx → EReal) (ix2 e d) := by
  rw [W1_v13, truncf_apply, Cert.ConcatColsThree.third_apply _ _ _ _ d j e hj]
  exact transpose_ix2_apply _ _ d e

end Cert.KernelIdeal.Val

end
-- ==== Proof.HostGlue2I.lean ====
/-
  The host operations between the second and the third region, and after the third, read at an entry; and the buffers
  a region does not touch.

  A [32768, 1536] projection viewed as [32, 1024, 1536] and cut into three [32, 1024, 512] arrays: batch b, position s,
  column e of the cut at offset o is row b·1024 + s, column o + e of the projection.  The output weights are read
  feature-major, WT[f, d] = Wout[d, f]; the bias as a row, row[0, d] = bout[d]; the result goes back to
  position-major, out[s, b, d] = blocks[b, s, d].  A region replaces only its own arrays: every other buffer leaves it
  as it entered.
-/
import proofs.«136491_j13649406066964_1_alg».proof.Proof.FrameDefsI
import proofs.«136491_j13649406066964_1_alg».proof.Proof.Gen.KernelIdeal.Regions
import proofs.«136491_j13649406066964_1_alg».proof.Proof.LibFlattenRows
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo

/-! ## The second stretch -/

theorem h2_v18 (V : Valuation τ sig (Elt Ideal)) :
    (after hostOps2 V (Proc.devRef .tc main_v18) : S32x1024x512.Idx → EReal) = extractStridedSlice S32x1024x512 ![0, 0, 0] (shapeCast S32x1024x1536 (V (Proc.devRef .tc main_v14)) shapeCasts_S32768x1536_S32x1024x1536) slices_S32x1024x1536_S32x1024x512_0_0_0 := by
  dsimp only [hostOps2]; after_results_simp <;> rfl
/-- Batch b, position s, column e of the cut is row b·1024 + s, column 0 + e of the projection. -/
theorem h2_v18_apply (V : Valuation τ sig (Elt Ideal)) (b : Fin 32) (s : Fin 1024) (e : Fin 512) (r : Fin 32768) (j : Fin 1536)
    (hr : r.val = b.val * 1024 + s.val) (hj : j.val = 0 + e.val) :
    (after hostOps2 V (Proc.devRef .tc main_v18) : S32x1024x512.Idx → EReal) (ix3 b s e) = (V (Proc.devRef .tc main_v14) : S32768x1536.Idx → EReal) (ix2 r j) := by
  rw [h2_v18]
  rw [extractStridedSlice_apply _ _ _ (ix3 b s e) (ix3 b s j) (fun a => match a with
    | ⟨0, _⟩ => by show b.val = 0 + b.val; omega
    | ⟨1, _⟩ => by show s.val = 0 + s.val; omega
    | ⟨2, _⟩ => by show j.val = 0 + e.val; exact hj)]
  exact Cert.FlattenRows.split_apply _ _ b s j r hr
theorem h2_v19 (V : Valuation τ sig (Elt Ideal)) :
    (after hostOps2 V (Proc.devRef .tc main_v19) : S32x1024x512.Idx → EReal) = extractStridedSlice S32x1024x512 ![0, 0, 512] (shapeCast S32x1024x1536 (V (Proc.devRef .tc main_v14)) shapeCasts_S32768x1536_S32x1024x1536) slices_S32x1024x1536_S32x1024x512_0_0_512 := by
  dsimp only [hostOps2]; after_results_simp <;> rfl
/-- Batch b, position s, column e of the cut is row b·1024 + s, column 512 + e of the projection. -/
theorem h2_v19_apply (V : Valuation τ sig (Elt Ideal)) (b : Fin 32) (s : Fin 1024) (e : Fin 512) (r : Fin 32768) (j : Fin 1536)
    (hr : r.val = b.val * 1024 + s.val) (hj : j.val = 512 + e.val) :
    (after hostOps2 V (Proc.devRef .tc main_v19) : S32x1024x512.Idx → EReal) (ix3 b s e) = (V (Proc.devRef .tc main_v14) : S32768x1536.Idx → EReal) (ix2 r j) := by
  rw [h2_v19]
  rw [extractStridedSlice_apply _ _ _ (ix3 b s e) (ix3 b s j) (fun a => match a with
    | ⟨0, _⟩ => by show b.val = 0 + b.val; omega
    | ⟨1, _⟩ => by show s.val = 0 + s.val; omega
    | ⟨2, _⟩ => by show j.val = 512 + e.val; exact hj)]
  exact Cert.FlattenRows.split_apply _ _ b s j r hr
theorem h2_v20 (V : Valuation τ sig (Elt Ideal)) :
    (after hostOps2 V (Proc.devRef .tc main_v20) : S32x1024x512.Idx → EReal) = extractStridedSlice S32x1024x512 ![0, 0, 1024] (shapeCast S32x1024x1536 (V (Proc.devRef .tc main_v14)) shapeCasts_S32768x1536_S32x1024x1536) slices_S32x1024x1536_S32x1024x512_0_0_1024 := by
  dsimp only [hostOps2]; after_results_simp <;> rfl
/-- Batch b, position s, column e of the cut is row b·1024 + s, column 1024 + e of the projection. -/
theorem h2_v20_apply (V : Valuation τ sig (Elt Ideal)) (b : Fin 32) (s : Fin 1024) (e : Fin 512) (r : Fin 32768) (j : Fin 1536)
    (hr : r.val = b.val * 1024 + s.val) (hj : j.val = 1024 + e.val) :
    (after hostOps2 V (Proc.devRef .tc main_v20) : S32x1024x512.Idx → EReal) (ix3 b s e) = (V (Proc.devRef .tc main_v14) : S32768x1536.Idx → EReal) (ix2 r j) := by
  rw [h2_v20]
  rw [extractStridedSlice_apply _ _ _ (ix3 b s e) (ix3 b s j) (fun a => match a with
    | ⟨0, _⟩ => by show b.val = 0 + b.val; omega
    | ⟨1, _⟩ => by show s.val = 0 + s.val; omega
    | ⟨2, _⟩ => by show j.val = 1024 + e.val; exact hj)]
  exact Cert.FlattenRows.split_apply _ _ b s j r hr
theorem h2_v21 (V : Valuation τ sig (Elt Ideal)) :
    (after hostOps2 V (Proc.devRef .tc main_v21) : S32x1024x512.Idx → EReal) = extractStridedSlice S32x1024x512 ![0, 0, 0] (shapeCast S32x1024x1536 (V (Proc.devRef .tc main_v15)) shapeCasts_S32768x1536_S32x1024x1536) slices_S32x1024x1536_S32x1024x512_0_0_0 := by
  dsimp only [hostOps2]; after_results_simp <;> rfl
/-- Batch b, position s, column e of the cut is row b·1024 + s, column 0 + e of the projection. -/
theorem h2_v21_apply (V : Valuation τ sig (Elt Ideal)) (b : Fin 32) (s : Fin 1024) (e : Fin 512) (r : Fin 32768) (j : Fin 1536)
    (hr : r.val = b.val * 1024 + s.val) (hj : j.val = 0 + e.val) :
    (after hostOps2 V (Proc.devRef .tc main_v21) : S32x1024x512.Idx → EReal) (ix3 b s e) = (V (Proc.devRef .tc main_v15) : S32768x1536.Idx → EReal) (ix2 r j) := by
  rw [h2_v21]
  rw [extractStridedSlice_apply _ _ _ (ix3 b s e) (ix3 b s j) (fun a => match a with
    | ⟨0, _⟩ => by show b.val = 0 + b.val; omega
    | ⟨1, _⟩ => by show s.val = 0 + s.val; omega
    | ⟨2, _⟩ => by show j.val = 0 + e.val; exact hj)]
  exact Cert.FlattenRows.split_apply _ _ b s j r hr
theorem h2_v22 (V : Valuation τ sig (Elt Ideal)) :
    (after hostOps2 V (Proc.devRef .tc main_v22) : S32x1024x512.Idx → EReal) = extractStridedSlice S32x1024x512 ![0, 0, 512] (shapeCast S32x1024x1536 (V (Proc.devRef .tc main_v15)) shapeCasts_S32768x1536_S32x1024x1536) slices_S32x1024x1536_S32x1024x512_0_0_512 := by
  dsimp only [hostOps2]; after_results_simp <;> rfl
/-- Batch b, position s, column e of the cut is row b·1024 + s, column 512 + e of the projection. -/
theorem h2_v22_apply (V : Valuation τ sig (Elt Ideal)) (b : Fin 32) (s : Fin 1024) (e : Fin 512) (r : Fin 32768) (j : Fin 1536)
    (hr : r.val = b.val * 1024 + s.val) (hj : j.val = 512 + e.val) :
    (after hostOps2 V (Proc.devRef .tc main_v22) : S32x1024x512.Idx → EReal) (ix3 b s e) = (V (Proc.devRef .tc main_v15) : S32768x1536.Idx → EReal) (ix2 r j) := by
  rw [h2_v22]
  rw [extractStridedSlice_apply _ _ _ (ix3 b s e) (ix3 b s j) (fun a => match a with
    | ⟨0, _⟩ => by show b.val = 0 + b.val; omega
    | ⟨1, _⟩ => by show s.val = 0 + s.val; omega
    | ⟨2, _⟩ => by show j.val = 512 + e.val; exact hj)]
  exact Cert.FlattenRows.split_apply _ _ b s j r hr
theorem h2_v23 (V : Valuation τ sig (Elt Ideal)) :
    (after hostOps2 V (Proc.devRef .tc main_v23) : S32x1024x512.Idx → EReal) = extractStridedSlice S32x1024x512 ![0, 0, 1024] (shapeCast S32x1024x1536 (V (Proc.devRef .tc main_v15)) shapeCasts_S32768x1536_S32x1024x1536) slices_S32x1024x1536_S32x1024x512_0_0_1024 := by
  dsimp only [hostOps2]; after_results_simp <;> rfl
/-- Batch b, position s, column e of the cut is row b·1024 + s, column 1024 + e of the projection. -/
theorem h2_v23_apply (V : Valuation τ sig (Elt Ideal)) (b : Fin 32) (s : Fin 1024) (e : Fin 512) (r : Fin 32768) (j : Fin 1536)
    (hr : r.val = b.val * 1024 + s.val) (hj : j.val = 1024 + e.val) :
    (after hostOps2 V (Proc.devRef .tc main_v23) : S32x1024x512.Idx → EReal) (ix3 b s e) = (V (Proc.devRef .tc main_v15) : S32768x1536.Idx → EReal) (ix2 r j) := by
  rw [h2_v23]
  rw [extractStridedSlice_apply _ _ _ (ix3 b s e) (ix3 b s j) (fun a => match a with
    | ⟨0, _⟩ => by show b.val = 0 + b.val; omega
    | ⟨1, _⟩ => by show s.val = 0 + s.val; omega
    | ⟨2, _⟩ => by show j.val = 1024 + e.val; exact hj)]
  exact Cert.FlattenRows.split_apply _ _ b s j r hr

theorem h2_v25 (V : Valuation τ sig (Elt Ideal)) :
    (after hostOps2 V (Proc.devRef .tc main_v25) : S1024x512.Idx → EReal)
      = truncf (F := Ideal) .bf16 (transpose S1024x512 [1, 0] (V (Proc.devRef .tc main_arg8)) transposes_S512x1024_S1024x512_1_0) bitsLt_bf16_f32 := by
  dsimp only [hostOps2]; after_results_simp <;> rfl
/-- The output weights feature-major. -/
theorem h2_v25_apply (V : Valuation τ sig (Elt Ideal)) (f : Fin 1024) (d : Fin 512) :
    (after hostOps2 V (Proc.devRef .tc main_v25) : S1024x512.Idx → EReal) (ix2 f d) = (V (Proc.devRef .tc main_arg8) : S512x1024.Idx → EReal) (ix2 d f) := by
  rw [h2_v25]
  exact transpose_ix2_apply _ _ f d

theorem h2_v26 (V : Valuation τ sig (Elt Ideal)) :
    (after hostOps2 V (Proc.devRef .tc main_v26) : S1x512.Idx → EReal) = shapeCast S1x512 (V (Proc.devRef .tc main_arg9)) shapeCasts_S512_S1x512 := by
  dsimp only [hostOps2]; after_results_simp <;> rfl
/-- The bias as a row. -/
theorem h2_v26_apply (V : Valuation τ sig (Elt Ideal)) (d : Fin 512) :
    (after hostOps2 V (Proc.devRef .tc main_v26) : S1x512.Idx → EReal) (ix2 (0 : Fin 1) d) = (V (Proc.devRef .tc main_arg9) : S512.Idx → EReal) (ix1 d) := by
  rw [h2_v26]
  exact shapeCast_a_1a_apply _ _ 0 d

/-! ## The last stretch -/

theorem h3_v28 (V : Valuation τ sig (Elt Ideal)) :
    (after hostOps3 V (Proc.devRef .tc main_v28) : S1024x32x512.Idx → EReal)
      = transpose S1024x32x512 [1, 0, 2] (V (Proc.devRef .tc main_v27)) transposes_S32x1024x512_S1024x32x512_1_0_2 := by
  dsimp only [hostOps3]; after_results_simp <;> rfl
/-- Back to position-major. -/
theorem h3_v28_apply (V : Valuation τ sig (Elt Ideal)) (s : Fin 1024) (b : Fin 32) (d : Fin 512) :
    (after hostOps3 V (Proc.devRef .tc main_v28) : S1024x32x512.Idx → EReal) (ix3 s b d) = (V (Proc.devRef .tc main_v27) : S32x1024x512.Idx → EReal) (ix3 b s d) := by
  rw [h3_v28]
  exact transpose_apply _ _ _ _ _ fun a => match a with | ⟨0, _⟩ => rfl | ⟨1, _⟩ => rfl | ⟨2, _⟩ => rfl

/-! ## What passes through untouched -/

variable (m : (ℓ : Loc nD τ sig) → Buf (Elt Ideal) ℓ) (c : Dev nD)

/-- The first stretch writes neither the output weights nor the bias. -/
theorem W1_arg8 : W1 m c (Proc.devRef .tc main_arg8) = W0 m c (Proc.devRef .tc main_arg8) :=
  StableHlo.after_of_writes_sub hostOps0 _ hostOps0_writes (by decide : main_arg8 ∉ hostOps0_W)
theorem W1_arg9 : W1 m c (Proc.devRef .tc main_arg9) = W0 m c (Proc.devRef .tc main_arg9) :=
  StableHlo.after_of_writes_sub hostOps0 _ hostOps0_writes (by decide : main_arg9 ∉ hostOps0_W)

theorem W2_v3 : W2 m c (Proc.devRef .tc main_v3) = W1 m c (Proc.devRef .tc main_v3) := W2_of_ne m c main_v3 (by decide)
theorem W2_v13 : W2 m c (Proc.devRef .tc main_v13) = W1 m c (Proc.devRef .tc main_v13) := W2_of_ne m c main_v13 (by decide)
theorem W2_arg8 : W2 m c (Proc.devRef .tc main_arg8) = W1 m c (Proc.devRef .tc main_arg8) := W2_of_ne m c main_arg8 (by decide)
theorem W2_arg9 : W2 m c (Proc.devRef .tc main_arg9) = W1 m c (Proc.devRef .tc main_arg9) := W2_of_ne m c main_arg9 (by decide)
theorem W3_v14 : W3 m c (Proc.devRef .tc main_v14) = W2 m c (Proc.devRef .tc main_v14) := W3_of_ne m c main_v14 (by decide)
theorem W3_arg8 : W3 m c (Proc.devRef .tc main_arg8) = W2 m c (Proc.devRef .tc main_arg8) := W3_of_ne m c main_arg8 (by decide)
theorem W3_arg9 : W3 m c (Proc.devRef .tc main_arg9) = W2 m c (Proc.devRef .tc main_arg9) := W3_of_ne m c main_arg9 (by decide)

/-- The output weights and the bias reach the third region as launched. -/
theorem W3_arg8_launch : W3 m c (Proc.devRef .tc main_arg8) = W0 m c (Proc.devRef .tc main_arg8) :=
  (W3_arg8 m c).trans ((W2_arg8 m c).trans (W1_arg8 m c))
theorem W3_arg9_launch : W3 m c (Proc.devRef .tc main_arg9) = W0 m c (Proc.devRef .tc main_arg9) :=
  (W3_arg9 m c).trans ((W2_arg9 m c).trans (W1_arg9 m c))

end Cert.KernelIdeal.Val

end
-- ==== Proof.KernelValueI.lean ====
/-
  The kernel program's result as one function of its ten arguments.

  Following the buffers through the program: the two projection regions leave, in row b·1024 + s and column o + e of
  their [32768, 1536] results, the projection Σ_d x[s, b, d] · W[e, d] with W the first, second or third weight matrix
  of the sequence for o = 0, 512, 1024; the host cuts these into the six per-batch projection arrays; the third region
  leaves every batch's output block of them, the output weights read feature-major and the bias; the last transpose
  brings the blocks back to position-major.  Put together the result buffer holds the specification function of the
  launch contents of the ten arguments.
-/
import proofs.«136491_j13649406066964_1_alg».proof.Proof.Value0I
import proofs.«136491_j13649406066964_1_alg».proof.Proof.Value1I
import proofs.«136491_j13649406066964_1_alg».proof.Proof.Value2I
import proofs.«136491_j13649406066964_1_alg».proof.Proof.HostGlueI
import proofs.«136491_j13649406066964_1_alg».proof.Proof.HostGlue2I
import proofs.«136491_j13649406066964_1_alg».proof.Proof.Spec

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo

variable (m : (ℓ : Loc nD τ sig) → Buf (Elt Ideal) ℓ) (c : Dev nD)

/-! ## The two projection regions' results -/

theorem W2_v14 : (W2 m c (Proc.devRef .tc main_v14) : S32768x1536.Idx → EReal)
    = rowsTimes (W1 m c (Proc.devRef .tc main_v2)) (W1 m c (Proc.devRef .tc main_v8)) :=
  (W2_arr m c 2).trans (final0 (E0 m) c)

theorem W3_v14_eq : (W3 m c (Proc.devRef .tc main_v14) : S32768x1536.Idx → EReal)
    = rowsTimes (W1 m c (Proc.devRef .tc main_v2)) (W1 m c (Proc.devRef .tc main_v8)) :=
  (W3_v14 m c).trans (W2_v14 m c)

theorem W3_v15_eq : (W3 m c (Proc.devRef .tc main_v15) : S32768x1536.Idx → EReal)
    = rowsTimes (W1 m c (Proc.devRef .tc main_v3)) (W1 m c (Proc.devRef .tc main_v13)) := by
  refine ((W3_arr m c 2).trans (final1 (E1 m) c)).trans ?_
  show rowsTimes (W2 m c (Proc.devRef .tc main_v3)) (W2 m c (Proc.devRef .tc main_v13)) = _
  rw [W2_v3, W2_v13]

/-! ## The six per-batch projection arrays the third region is entered with -/

/-- qt_apply: batch b, position s, feature e. -/
theorem qt_apply (b : Fin 32) (s : Fin 1024) (e : Fin 512) :
    @Eq EReal ((W4 m c (Proc.devRef .tc main_v18) : S32x1024x512.Idx → EReal) (ix3 b s e))
      (Cert.Spec.proj (fun s b d => (W0 m c (Proc.devRef .tc main_arg0) : S1024x32x512.Idx → EReal) (ix3 s b d))
          (fun e d => (W0 m c (Proc.devRef .tc main_arg2) : S512x512.Idx → EReal) (ix2 e d)) b s e) := by
  have hb := b.isLt; have hs := s.isLt; have he := e.isLt
  refine (h2_v18_apply (W3 m c) b s e (⟨b.val * 1024 + s.val, by omega⟩ : Fin 32768) (⟨0 + e.val, by omega⟩ : Fin 1536) rfl rfl).trans ?_
  rw [W3_v14_eq, rowsTimes_apply]
  unfold Cert.Spec.proj
  show @Eq EReal (∑ d : Fin 512, _) (∑ d : Fin 512, _)
  refine Finset.sum_congr rfl fun d _ => ?_
  rw [W1_v2_apply m c b s d _ rfl, W1_v8_first m c d e _ (Nat.zero_add e.val).symm]
theorem qt_apply_fun (b : Fin 32) :
    (fun s e => (W4 m c (Proc.devRef .tc main_v18) : S32x1024x512.Idx → EReal) (ix3 b s e))
      = Cert.Spec.proj (fun s b d => (W0 m c (Proc.devRef .tc main_arg0) : S1024x32x512.Idx → EReal) (ix3 s b d))
          (fun e d => (W0 m c (Proc.devRef .tc main_arg2) : S512x512.Idx → EReal) (ix2 e d)) b :=
  funext fun s => funext fun e => qt_apply m c b s e
/-- kt_apply: batch b, position s, feature e. -/
theorem kt_apply (b : Fin 32) (s : Fin 1024) (e : Fin 512) :
    @Eq EReal ((W4 m c (Proc.devRef .tc main_v19) : S32x1024x512.Idx → EReal) (ix3 b s e))
      (Cert.Spec.proj (fun s b d => (W0 m c (Proc.devRef .tc main_arg0) : S1024x32x512.Idx → EReal) (ix3 s b d))
          (fun e d => (W0 m c (Proc.devRef .tc main_arg3) : S512x512.Idx → EReal) (ix2 e d)) b s e) := by
  have hb := b.isLt; have hs := s.isLt; have he := e.isLt
  refine (h2_v19_apply (W3 m c) b s e (⟨b.val * 1024 + s.val, by omega⟩ : Fin 32768) (⟨512 + e.val, by omega⟩ : Fin 1536) rfl rfl).trans ?_
  rw [W3_v14_eq, rowsTimes_apply]
  unfold Cert.Spec.proj
  show @Eq EReal (∑ d : Fin 512, _) (∑ d : Fin 512, _)
  refine Finset.sum_congr rfl fun d _ => ?_
  rw [W1_v2_apply m c b s d _ rfl, W1_v8_second m c d e _ rfl]
theorem kt_apply_fun (b : Fin 32) :
    (fun s e => (W4 m c (Proc.devRef .tc main_v19) : S32x1024x512.Idx → EReal) (ix3 b s e))
      = Cert.Spec.proj (fun s b d => (W0 m c (Proc.devRef .tc main_arg0) : S1024x32x512.Idx → EReal) (ix3 s b d))
          (fun e d => (W0 m c (Proc.devRef .tc main_arg3) : S512x512.Idx → EReal) (ix2 e d)) b :=
  funext fun s => funext fun e => kt_apply m c b s e
/-- vt_apply: batch b, position s, feature e. -/
theorem vt_apply (b : Fin 32) (s : Fin 1024) (e : Fin 512) :
    @Eq EReal ((W4 m c (Proc.devRef .tc main_v20) : S32x1024x512.Idx → EReal) (ix3 b s e))
      (Cert.Spec.proj (fun s b d => (W0 m c (Proc.devRef .tc main_arg0) : S1024x32x512.Idx → EReal) (ix3 s b d))
          (fun e d => (W0 m c (Proc.devRef .tc main_arg4) : S512x512.Idx → EReal) (ix2 e d)) b s e) := by
  have hb := b.isLt; have hs := s.isLt; have he := e.isLt
  refine (h2_v20_apply (W3 m c) b s e (⟨b.val * 1024 + s.val, by omega⟩ : Fin 32768) (⟨1024 + e.val, by omega⟩ : Fin 1536) rfl rfl).trans ?_
  rw [W3_v14_eq, rowsTimes_apply]
  unfold Cert.Spec.proj
  show @Eq EReal (∑ d : Fin 512, _) (∑ d : Fin 512, _)
  refine Finset.sum_congr rfl fun d _ => ?_
  rw [W1_v2_apply m c b s d _ rfl, W1_v8_third m c d e _ rfl]
theorem vt_apply_fun (b : Fin 32) :
    (fun s e => (W4 m c (Proc.devRef .tc main_v20) : S32x1024x512.Idx → EReal) (ix3 b s e))
      = Cert.Spec.proj (fun s b d => (W0 m c (Proc.devRef .tc main_arg0) : S1024x32x512.Idx → EReal) (ix3 s b d))
          (fun e d => (W0 m c (Proc.devRef .tc main_arg4) : S512x512.Idx → EReal) (ix2 e d)) b :=
  funext fun s => funext fun e => vt_apply m c b s e
/-- qd_apply: batch b, position s, feature e. -/
theorem qd_apply (b : Fin 32) (s : Fin 1024) (e : Fin 512) :
    @Eq EReal ((W4 m c (Proc.devRef .tc main_v21) : S32x1024x512.Idx → EReal) (ix3 b s e))
      (Cert.Spec.proj (fun s b d => (W0 m c (Proc.devRef .tc main_arg1) : S1024x32x512.Idx → EReal) (ix3 s b d))
          (fun e d => (W0 m c (Proc.devRef .tc main_arg5) : S512x512.Idx → EReal) (ix2 e d)) b s e) := by
  have hb := b.isLt; have hs := s.isLt; have he := e.isLt
  refine (h2_v21_apply (W3 m c) b s e (⟨b.val * 1024 + s.val, by omega⟩ : Fin 32768) (⟨0 + e.val, by omega⟩ : Fin 1536) rfl rfl).trans ?_
  rw [W3_v15_eq, rowsTimes_apply]
  unfold Cert.Spec.proj
  show @Eq EReal (∑ d : Fin 512, _) (∑ d : Fin 512, _)
  refine Finset.sum_congr rfl fun d _ => ?_
  rw [W1_v3_apply m c b s d _ rfl, W1_v13_first m c d e _ (Nat.zero_add e.val).symm]
theorem qd_apply_fun (b : Fin 32) :
    (fun s e => (W4 m c (Proc.devRef .tc main_v21) : S32x1024x512.Idx → EReal) (ix3 b s e))
      = Cert.Spec.proj (fun s b d => (W0 m c (Proc.devRef .tc main_arg1) : S1024x32x512.Idx → EReal) (ix3 s b d))
          (fun e d => (W0 m c (Proc.devRef .tc main_arg5) : S512x512.Idx → EReal) (ix2 e d)) b :=
  funext fun s => funext fun e => qd_apply m c b s e
/-- kd_apply: batch b, position s, feature e. -/
theorem kd_apply (b : Fin 32) (s : Fin 1024) (e : Fin 512) :
    @Eq EReal ((W4 m c (Proc.devRef .tc main_v22) : S32x1024x512.Idx → EReal) (ix3 b s e))
      (Cert.Spec.proj (fun s b d => (W0 m c (Proc.devRef .tc main_arg1) : S1024x32x512.Idx → EReal) (ix3 s b d))
          (fun e d => (W0 m c (Proc.devRef .tc main_arg6) : S512x512.Idx → EReal) (ix2 e d)) b s e) := by
  have hb := b.isLt; have hs := s.isLt; have he := e.isLt
  refine (h2_v22_apply (W3 m c) b s e (⟨b.val * 1024 + s.val, by omega⟩ : Fin 32768) (⟨512 + e.val, by omega⟩ : Fin 1536) rfl rfl).trans ?_
  rw [W3_v15_eq, rowsTimes_apply]
  unfold Cert.Spec.proj
  show @Eq EReal (∑ d : Fin 512, _) (∑ d : Fin 512, _)
  refine Finset.sum_congr rfl fun d _ => ?_
  rw [W1_v3_apply m c b s d _ rfl, W1_v13_second m c d e _ rfl]
theorem kd_apply_fun (b : Fin 32) :
    (fun s e => (W4 m c (Proc.devRef .tc main_v22) : S32x1024x512.Idx → EReal) (ix3 b s e))
      = Cert.Spec.proj (fun s b d => (W0 m c (Proc.devRef .tc main_arg1) : S1024x32x512.Idx → EReal) (ix3 s b d))
          (fun e d => (W0 m c (Proc.devRef .tc main_arg6) : S512x512.Idx → EReal) (ix2 e d)) b :=
  funext fun s => funext fun e => kd_apply m c b s e
/-- vd_apply: batch b, position s, feature e. -/
theorem vd_apply (b : Fin 32) (s : Fin 1024) (e : Fin 512) :
    @Eq EReal ((W4 m c (Proc.devRef .tc main_v23) : S32x1024x512.Idx → EReal) (ix3 b s e))
      (Cert.Spec.proj (fun s b d => (W0 m c (Proc.devRef .tc main_arg1) : S1024x32x512.Idx → EReal) (ix3 s b d))
          (fun e d => (W0 m c (Proc.devRef .tc main_arg7) : S512x512.Idx → EReal) (ix2 e d)) b s e) := by
  have hb := b.isLt; have hs := s.isLt; have he := e.isLt
  refine (h2_v23_apply (W3 m c) b s e (⟨b.val * 1024 + s.val, by omega⟩ : Fin 32768) (⟨1024 + e.val, by omega⟩ : Fin 1536) rfl rfl).trans ?_
  rw [W3_v15_eq, rowsTimes_apply]
  unfold Cert.Spec.proj
  show @Eq EReal (∑ d : Fin 512, _) (∑ d : Fin 512, _)
  refine Finset.sum_congr rfl fun d _ => ?_
  rw [W1_v3_apply m c b s d _ rfl, W1_v13_third m c d e _ rfl]
theorem vd_apply_fun (b : Fin 32) :
    (fun s e => (W4 m c (Proc.devRef .tc main_v23) : S32x1024x512.Idx → EReal) (ix3 b s e))
      = Cert.Spec.proj (fun s b d => (W0 m c (Proc.devRef .tc main_arg1) : S1024x32x512.Idx → EReal) (ix3 s b d))
          (fun e d => (W0 m c (Proc.devRef .tc main_arg7) : S512x512.Idx → EReal) (ix2 e d)) b :=
  funext fun s => funext fun e => vd_apply m c b s e

/-- The output weights the third region is entered with, feature-major, are the launch argument's. -/
theorem wt_fun : (fun f d' => (W4 m c (Proc.devRef .tc main_v25) : S1024x512.Idx → EReal) (ix2 f d'))
    = (fun f d' => (W0 m c (Proc.devRef .tc main_arg8) : S512x1024.Idx → EReal) (ix2 d' f)) :=
  funext fun f => funext fun d' => by
    refine (h2_v25_apply (W3 m c) f d').trans ?_
    rw [W3_arg8_launch]
/-- The bias row the third region is entered with is the launch argument's. -/
theorem bias_fun : (fun d' => (W4 m c (Proc.devRef .tc main_v26) : S1x512.Idx → EReal) (ix2 (0 : Fin 1) d'))
    = (fun d' => (W0 m c (Proc.devRef .tc main_arg9) : S512.Idx → EReal) (ix1 d')) :=
  funext fun d' => by
    refine (h2_v26_apply (W3 m c) d').trans ?_
    rw [W3_arg9_launch]

/-! ## The result -/

/-- The third region's result array. -/
theorem W5_v27 : (W5 m c (Proc.devRef .tc main_v27) : S32x1024x512.Idx → EReal)
    = attnAll (W4 m c (Proc.devRef .tc main_v18)) (W4 m c (Proc.devRef .tc main_v19)) (W4 m c (Proc.devRef .tc main_v20)) (W4 m c (Proc.devRef .tc main_v21))
        (W4 m c (Proc.devRef .tc main_v22)) (W4 m c (Proc.devRef .tc main_v23)) (W4 m c (Proc.devRef .tc main_v25)) (W4 m c (Proc.devRef .tc main_v26)) :=
  (W5_arr m c 8).trans (final2 (E2 m) c)

/-- The program's result buffer holds the specification function of the launch contents of the ten arguments. -/
theorem kernel_result : (W6 m c (Proc.devRef .tc main_v28) : S1024x32x512.Idx → EReal)
    = Cert.Spec.GArr (W0 m c (Proc.devRef .tc main_arg0)) (W0 m c (Proc.devRef .tc main_arg1)) (W0 m c (Proc.devRef .tc main_arg2)) (W0 m c (Proc.devRef .tc main_arg3))
        (W0 m c (Proc.devRef .tc main_arg4)) (W0 m c (Proc.devRef .tc main_arg5)) (W0 m c (Proc.devRef .tc main_arg6)) (W0 m c (Proc.devRef .tc main_arg7))
        (W0 m c (Proc.devRef .tc main_arg8)) (W0 m c (Proc.devRef .tc main_arg9)) := by
  funext i
  obtain ⟨s, b, d, rfl⟩ : ∃ (s : Fin 1024) (b : Fin 32) (d : Fin 512), i = ix3 s b d := ⟨i 0, i 1, i 2, eq_ix3 i⟩
  refine (h3_v28_apply (W5 m c) s b d).trans ?_
  rw [W5_v27, attnAll_apply, qt_apply_fun, kt_apply_fun, vt_apply_fun, qd_apply_fun, kd_apply_fun, vd_apply_fun, wt_fun, bias_fun]
  rfl

end Cert.KernelIdeal.Val

end
-- ==== Proof.RefSideSoft.lean ====
/-
  One row-normalisation of the reference, read at an index.

  The reference normalises a [32, 1024, 1024] array of scores along its last axis in eleven array steps: the
  maximum of every row taken as a fold from −∞, met once more with a broadcast −∞; that row maximum broadcast back
  over the row and subtracted; the exponential; the sum of every row from 0; that sum broadcast back; the quotient.
  Here the eleven steps are written once, over an arbitrary array of scores, and read at an entry (b, q, k): the
  entry of the normalised array is the row-normalisation of the row (b, q) at position k.

  Every step is first read on its own, its operands arbitrary arrays, and the steps are then chained.
-/
import proofs.«136491_j13649406066964_1_alg».proof.Proof.Gen.ReferenceIdeal
import proofs.«136491_j13649406066964_1_alg».proof.Proof.Spec
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx

/-- The row maxima of an array of scores: the fold of max from −∞ along the last axis, met with a broadcast −∞. -/
def maxArr (S : (⟨S32x1024x1024, .f32⟩ : BufTy).Contents (Elt Ideal)) : (⟨S32x1024, .f32⟩ : BufTy).Contents (Elt Ideal) :=
  maximumf (F := Ideal) (φ := .f32) (broadcastInDim S32x1024 ![] bcast_S_S32x1024 (constant (F := Ideal) S_ .f32 0xFF800000#32))
    (Host.reduce (FloatOps.maximumf (F := Ideal) (φ := .f32)) S (constant (F := Ideal) S_ .f32 0xFF800000#32) reducesTo_S32x1024x1024_S32x1024_d2 h_S_)

/-- The exponentials of the scores less their row's maximum. -/
def expArr (S : (⟨S32x1024x1024, .f32⟩ : BufTy).Contents (Elt Ideal)) : (⟨S32x1024x1024, .f32⟩ : BufTy).Contents (Elt Ideal) :=
  Host.exp (F := Ideal) (φ := .f32) (subf (F := Ideal) (φ := .f32) S (broadcastInDim S32x1024x1024 ![0, 1, 2] bcast_S32x1024x1_S32x1024x1024_0_1_2
    (broadcastInDim S32x1024x1 ![0, 1] bcast_S32x1024_S32x1024x1_0_1 (maxArr S))))

/-- The row sums of those exponentials, from 0. -/
def sumArr (S : (⟨S32x1024x1024, .f32⟩ : BufTy).Contents (Elt Ideal)) : (⟨S32x1024, .f32⟩ : BufTy).Contents (Elt Ideal) :=
  Host.reduceAdd (F := Ideal) (φ := .f32) (expArr S) (constant (F := Ideal) S_ .f32 0x00000000#32) reducesTo_S32x1024x1024_S32x1024_d2 h_S_

/-- The normalised scores: every exponential over its row's sum. -/
def softArr (S : (⟨S32x1024x1024, .f32⟩ : BufTy).Contents (Elt Ideal)) : (⟨S32x1024x1024, .f32⟩ : BufTy).Contents (Elt Ideal) :=
  Host.divf (F := Ideal) (φ := .f32) (expArr S) (broadcastInDim S32x1024x1024 ![0, 1, 2] bcast_S32x1024x1_S32x1024x1024_0_1_2
    (broadcastInDim S32x1024x1 ![0, 1] bcast_S32x1024_S32x1024x1_0_1 (sumArr S)))

/-! ## The steps, one at a time, over arbitrary operands -/

/-- A per-row quantity broadcast back over its row (first to a column of width one, then along the row) reads, at
    (b, q, k), the quantity of row (b, q). -/
theorem bcastRow_apply (y : (⟨S32x1024, .f32⟩ : BufTy).Contents (Elt Ideal)) (b : Fin 32) (q k : Fin 1024) :
    broadcastInDim S32x1024x1024 ![0, 1, 2] bcast_S32x1024x1_S32x1024x1024_0_1_2
      (broadcastInDim S32x1024x1 ![0, 1] bcast_S32x1024_S32x1024x1_0_1 y) (ix3 b q k) = y (ix2 b q) := by
  refine (broadcastInDim_apply _ bcast_S32x1024x1_S32x1024x1024_0_1_2 _ (ix3 b q k) (ix3 b q (⟨0, Nat.one_pos⟩ : Fin 1)) (fun a => match a with
    | ⟨0, _⟩ => by show b.val = if (32 : Nat) = 1 then 0 else b.val; rw [if_neg (by decide)]
    | ⟨1, _⟩ => by show q.val = if (1024 : Nat) = 1 then 0 else q.val; rw [if_neg (by decide)]
    | ⟨2, _⟩ => by show 0 = if (1 : Nat) = 1 then 0 else k.val; rw [if_pos rfl])).trans ?_
  exact broadcastInDim_apply _ bcast_S32x1024_S32x1024x1_0_1 y (ix3 b q (⟨0, Nat.one_pos⟩ : Fin 1)) (ix2 b q) (fun a => match a with
    | ⟨0, _⟩ => by show b.val = if (32 : Nat) = 1 then 0 else b.val; rw [if_neg (by decide)]
    | ⟨1, _⟩ => by show q.val = if (1024 : Nat) = 1 then 0 else q.val; rw [if_neg (by decide)])

/-- The fold of max from −∞ along the last axis, at row (b, q), is the fold over that row's 1024 scores. -/
theorem reduceMax_apply (S : (⟨S32x1024x1024, .f32⟩ : BufTy).Contents (Elt Ideal)) (b : Fin 32) (q : Fin 1024) :
    Host.reduce (FloatOps.maximumf (F := Ideal) (φ := .f32)) S (constant (F := Ideal) S_ .f32 0xFF800000#32)
        reducesTo_S32x1024x1024_S32x1024_d2 h_S_ (ix2 b q)
      = (Finset.univ : Finset (Fin 1024)).fold max Cert.Spec.negInf (fun k => S (ix3 b q k)) := by
  refine (Host.reduce_eq_fold_single (FloatOps.maximumf (F := Ideal) (φ := .f32)) S _ reducesTo_S32x1024x1024_S32x1024_d2 (by decide) h_S_ (ix2 b q)).trans ?_
  have hf : (S ∘ Shape.Reduces.lift (s := S32x1024x1024) (a := 2) (t := S32x1024) (by decide) (ix2 b q)) = fun k : Fin 1024 => S (ix3 b q k) :=
    funext fun k => congrArg S (funext fun a => Fin.ext (by match a with | ⟨0, _⟩ => rfl | ⟨1, _⟩ => rfl | ⟨2, _⟩ => rfl))
  exact congrArg (fun f => Finset.fold max Cert.Spec.negInf f (Finset.univ : Finset (Fin 1024))) hf

/-- A per-row quantity met with the broadcast −∞, at row (b, q). -/
theorem maxNegInf_apply (y : (⟨S32x1024, .f32⟩ : BufTy).Contents (Elt Ideal)) (b : Fin 32) (q : Fin 1024) :
    maximumf (F := Ideal) (φ := .f32) (broadcastInDim S32x1024 ![] bcast_S_S32x1024 (constant (F := Ideal) S_ .f32 0xFF800000#32)) y (ix2 b q)
      = max Cert.Spec.negInf (y (ix2 b q)) := by
  refine (maximumf_apply _ y (ix2 b q)).trans ?_
  exact congrArg (fun m : EReal => max m (y (ix2 b q)))
    (broadcastInDim_apply _ bcast_S_S32x1024 (constant (F := Ideal) S_ .f32 0xFF800000#32) (ix2 b q) ix0 (fun a => a.elim0))

/-- The exponential of an array less a broadcast per-row quantity, at (b, q, k). -/
theorem expSub_apply (S : (⟨S32x1024x1024, .f32⟩ : BufTy).Contents (Elt Ideal)) (y : (⟨S32x1024, .f32⟩ : BufTy).Contents (Elt Ideal))
    (b : Fin 32) (q k : Fin 1024) :
    Host.exp (F := Ideal) (φ := .f32) (subf (F := Ideal) (φ := .f32) S (broadcastInDim S32x1024x1024 ![0, 1, 2] bcast_S32x1024x1_S32x1024x1024_0_1_2
      (broadcastInDim S32x1024x1 ![0, 1] bcast_S32x1024_S32x1024x1_0_1 y))) (ix3 b q k) = Ideal.exp (S (ix3 b q k) - y (ix2 b q)) :=
  congrArg (fun m : EReal => Ideal.exp (S (ix3 b q k) - m)) (bcastRow_apply y b q k)

/-- The sum from 0 along the last axis, at row (b, q), is the sum of that row's 1024 entries. -/
theorem reduceAdd_apply (E : (⟨S32x1024x1024, .f32⟩ : BufTy).Contents (Elt Ideal)) (b : Fin 32) (q : Fin 1024) :
    Host.reduceAdd (F := Ideal) (φ := .f32) E (constant (F := Ideal) S_ .f32 0x00000000#32) reducesTo_S32x1024x1024_S32x1024_d2 h_S_ (ix2 b q)
      = ∑ k : Fin 1024, E (ix3 b q k) := by
  simp only [Host.reduceAdd, Ideal.hostReduceAdd_def]
  rw [Ideal.hostReduceAdd_single reducesTo_S32x1024x1024_S32x1024_d2 (by decide)]
  have h0 : constant (F := Ideal) S_ .f32 0x00000000#32 (Shape.Idx.first h_S_) = (0 : EReal) := Ideal.ofBits_zero_f32
  rw [h0, zero_add]
  refine Finset.sum_congr rfl fun k _ => ?_
  exact congrArg E (funext fun a => Fin.ext (by match a with | ⟨0, _⟩ => rfl | ⟨1, _⟩ => rfl | ⟨2, _⟩ => rfl))

/-- An array over a broadcast per-row quantity, at (b, q, k). -/
theorem divRow_apply (E : (⟨S32x1024x1024, .f32⟩ : BufTy).Contents (Elt Ideal)) (y : (⟨S32x1024, .f32⟩ : BufTy).Contents (Elt Ideal))
    (b : Fin 32) (q k : Fin 1024) :
    Host.divf (F := Ideal) (φ := .f32) E (broadcastInDim S32x1024x1024 ![0, 1, 2] bcast_S32x1024x1_S32x1024x1024_0_1_2
      (broadcastInDim S32x1024x1 ![0, 1] bcast_S32x1024_S32x1024x1_0_1 y)) (ix3 b q k) = Ideal.div (E (ix3 b q k)) (y (ix2 b q)) :=
  congrArg (fun m : EReal => Ideal.div (E (ix3 b q k)) m) (bcastRow_apply y b q k)

/-! ## The chain -/

/-- The row maximum of row (b, q), as the specification takes it. -/
theorem maxArr_apply (S : (⟨S32x1024x1024, .f32⟩ : BufTy).Contents (Elt Ideal)) (b : Fin 32) (q : Fin 1024) :
    maxArr S (ix2 b q) = Cert.Spec.rowMax (fun k => S (ix3 b q k)) := by
  unfold maxArr Cert.Spec.rowMax
  refine (maxNegInf_apply _ b q).trans ?_
  exact congrArg (fun m : EReal => max Cert.Spec.negInf m) (reduceMax_apply S b q)

/-- An exponential at (b, q, k): of the score less its row's maximum. -/
theorem expArr_apply (S : (⟨S32x1024x1024, .f32⟩ : BufTy).Contents (Elt Ideal)) (b : Fin 32) (q k : Fin 1024) :
    expArr S (ix3 b q k) = Ideal.exp (S (ix3 b q k) - Cert.Spec.rowMax (fun k' => S (ix3 b q k'))) := by
  unfold expArr
  refine (expSub_apply S _ b q k).trans ?_
  rw [maxArr_apply]

/-- The row sum of row (b, q): the sum of that row's 1024 exponentials. -/
theorem sumArr_apply (S : (⟨S32x1024x1024, .f32⟩ : BufTy).Contents (Elt Ideal)) (b : Fin 32) (q : Fin 1024) :
    sumArr S (ix2 b q) = ∑ k' : Fin 1024, Ideal.exp (S (ix3 b q k') - Cert.Spec.rowMax (fun k'' => S (ix3 b q k''))) := by
  unfold sumArr
  refine (reduceAdd_apply _ b q).trans ?_
  exact Finset.sum_congr rfl fun k _ => expArr_apply S b q k

/-- THE CHAIN AT AN ENTRY: the normalised array at (b, q, k) is the row-normalisation of row (b, q) at k. -/
theorem softArr_apply (S : (⟨S32x1024x1024, .f32⟩ : BufTy).Contents (Elt Ideal)) (b : Fin 32) (q k : Fin 1024) :
    softArr S (ix3 b q k) = Cert.Spec.soft (fun k' => S (ix3 b q k')) k := by
  unfold softArr Cert.Spec.soft
  refine (divRow_apply _ _ b q k).trans ?_
  rw [expArr_apply, sumArr_apply]

end Cert.RefSide

end
-- ==== Proof.RefSideCat.lean ====
/-
  Two rank-3 arrays with the same leading extents laid side by side along the last axis, read at an entry.

  The concatenation along axis 2 of a [B, M, a] array and a [B, M, b] array into a [B, M, c] array (c = a + b), at
  (p, r, j): the left piece at (p, r, j) when j is below a, the right piece at (p, r, j - a) otherwise. Generic in the
  extents and in the element type; the last coordinate inside the piece is passed with its defining equation.
-/
import Idealize.ShloMosaic.Lib.Pipeline.Value
import Idealize.ShloMosaic.Lib.ValueIdx

noncomputable section

namespace Cert.RefSide

open Idealize.ShloMosaic Idealize.ShloMosaic.ValueIdx

variable {α : Type} {B M a b c : ℕ}

/-- A last coordinate in the left piece: the left piece at the same entry. -/
theorem catLast_left (x₁ : (⟨3, ![B, M, a]⟩ : Shape).Idx → α) (x₂ : (⟨3, ![B, M, b]⟩ : Shape).Idx → α)
    (h : Shape.Concatenates [⟨3, ![B, M, a]⟩, ⟨3, ![B, M, b]⟩] ⟨3, ![B, M, c]⟩ 2)
    (p : Fin B) (r : Fin M) (j : Fin c) (k : Fin a) (hk : k.val = j.val) :
    concatenate ⟨3, ![B, M, c]⟩ 2 [⟨⟨3, ![B, M, a]⟩, x₁⟩, ⟨⟨3, ![B, M, b]⟩, x₂⟩] h (ix3 p r j) = x₁ (ix3 p r k) :=
  concatenate_pair_apply_left 2 x₁ x₂ h (ix3 p r j) rfl (ix3 p r k)
    (fun d => match d with | ⟨0, _⟩ => rfl | ⟨1, _⟩ => rfl | ⟨2, _⟩ => hk)

/-- A last coordinate past the left piece: the right piece, the last coordinate less the left piece's width. -/
theorem catLast_right (x₁ : (⟨3, ![B, M, a]⟩ : Shape).Idx → α) (x₂ : (⟨3, ![B, M, b]⟩ : Shape).Idx → α)
    (h : Shape.Concatenates [⟨3, ![B, M, a]⟩, ⟨3, ![B, M, b]⟩] ⟨3, ![B, M, c]⟩ 2)
    (p : Fin B) (r : Fin M) (j : Fin c) (k : Fin b) (hk : k.val + a = j.val) :
    concatenate ⟨3, ![B, M, c]⟩ 2 [⟨⟨3, ![B, M, a]⟩, x₁⟩, ⟨⟨3, ![B, M, b]⟩, x₂⟩] h (ix3 p r j) = x₂ (ix3 p r k) :=
  concatenate_pair_apply_right 2 x₁ x₂ h (ix3 p r j) rfl rfl (ix3 p r k)
    (fun d hd => match d, hd with
      | ⟨0, _⟩, _ => rfl
      | ⟨1, _⟩, _ => rfl
      | ⟨2, _⟩, hd => absurd rfl hd) hk

/-- Both cases at once (`hc`: the widths add up). -/
theorem catLast_apply (x₁ : (⟨3, ![B, M, a]⟩ : Shape).Idx → α) (x₂ : (⟨3, ![B, M, b]⟩ : Shape).Idx → α)
    (h : Shape.Concatenates [⟨3, ![B, M, a]⟩, ⟨3, ![B, M, b]⟩] ⟨3, ![B, M, c]⟩ 2) (hc : c = a + b)
    (p : Fin B) (r : Fin M) (j : Fin c) :
    concatenate ⟨3, ![B, M, c]⟩ 2 [⟨⟨3, ![B, M, a]⟩, x₁⟩, ⟨⟨3, ![B, M, b]⟩, x₂⟩] h (ix3 p r j)
      = if hj : j.val < a then x₁ (ix3 p r ⟨j.val, hj⟩)
        else x₂ (ix3 p r ⟨j.val - a, by have := j.isLt; omega⟩) := by
  by_cases hj : j.val < a
  · rw [dif_pos hj]
    exact catLast_left x₁ x₂ h p r j ⟨j.val, hj⟩ rfl
  · rw [dif_neg hj]
    exact catLast_right x₁ x₂ h p r j ⟨j.val - a, by have := j.isLt; omega⟩ (by show j.val - a + a = j.val; omega)

end Cert.RefSide

end
-- ==== Proof.RefSide.lean ====
/-
  The reference program's result is the specification function of its ten arguments.

  The reference's 46 array operations are read one entry at a time, outermost last: a projection stage at (b, s, e) is
  the projection of batch b; a score stage at (b, q, k) is the score of query q against key k; the normalised scores
  are the row-normalisation of the score row; an attended block at (b, q, e) weights the values by them; the joined
  array at (b, q, f) is the two attended rows side by side; the output map and the bias then give the result at
  (s, b, d).  Only index bookkeeping is involved: no algebraic law and no finiteness.
-/
import proofs.«136491_j13649406066964_1_alg».proof.Proof.RefRead
import proofs.«136491_j13649406066964_1_alg».proof.Proof.Spec
import proofs.«136491_j13649406066964_1_alg».proof.Proof.RefSideSoft
import proofs.«136491_j13649406066964_1_alg».proof.Proof.RefSideCat

noncomputable section

namespace Cert.RefSide

open Cert.ReferenceIdeal Cert.ReferenceIdeal.Gen Cert.ReferenceIdeal.Read Idealize.ShloMosaic Idealize.ShloMosaic.TcCoe
  Idealize.ShloMosaic.ValueIdx

/-- A [1024, 32, 512] array by its coordinates (position, batch, feature). -/
abbrev A3 (x : (⟨S1024x32x512, .f32⟩ : BufTy).Contents (Elt Ideal)) : Fin 1024 → Fin 32 → Fin 512 → EReal := fun s b d => x (ix3 s b d)
/-- A [512, 512] matrix by its coordinates. -/
abbrev A2 (W : (⟨S512x512, .f32⟩ : BufTy).Contents (Elt Ideal)) : Fin 512 → Fin 512 → EReal := fun e d => W (ix2 e d)

/-! ## The six projections -/

/-- Projection stage 2 at (b, s, e). -/
theorem v2_apply (x : (⟨S1024x32x512, .f32⟩ : BufTy).Contents (Elt Ideal)) (W : (⟨S512x512, .f32⟩ : BufTy).Contents (Elt Ideal)) (b : Fin 32) (s : Fin 1024) (e : Fin 512) :
    val_main_v2 (F := Ideal) x W (ix3 b s e) = Cert.Spec.proj (A3 x) (A2 W) b s e := by
  unfold Cert.Spec.proj
  refine (val_main_v2_apply x W (ix3 b s e)).trans ?_
  refine Finset.sum_congr rfl fun k _ => ?_
  exact congrArg₂ (fun u v : EReal => u * v)
    ((val_main_v0_apply x _).trans (congrArg x (funext fun a => Fin.ext (by match a with | ⟨0, _⟩ => rfl | ⟨1, _⟩ => rfl | ⟨2, _⟩ => rfl))))
    (congrArg W (funext fun a => Fin.ext (by match a with | ⟨0, _⟩ => rfl | ⟨1, _⟩ => rfl)))

/-- Projection stage 3 at (b, s, e). -/
theorem v3_apply (x : (⟨S1024x32x512, .f32⟩ : BufTy).Contents (Elt Ideal)) (W : (⟨S512x512, .f32⟩ : BufTy).Contents (Elt Ideal)) (b : Fin 32) (s : Fin 1024) (e : Fin 512) :
    val_main_v3 (F := Ideal) x W (ix3 b s e) = Cert.Spec.proj (A3 x) (A2 W) b s e := by
  unfold Cert.Spec.proj
  refine (val_main_v3_apply x W (ix3 b s e)).trans ?_
  refine Finset.sum_congr rfl fun k _ => ?_
  exact congrArg₂ (fun u v : EReal => u * v)
    ((val_main_v0_apply x _).trans (congrArg x (funext fun a => Fin.ext (by match a with | ⟨0, _⟩ => rfl | ⟨1, _⟩ => rfl | ⟨2, _⟩ => rfl))))
    (congrArg W (funext fun a => Fin.ext (by match a with | ⟨0, _⟩ => rfl | ⟨1, _⟩ => rfl)))

/-- Projection stage 4 at (b, s, e). -/
theorem v4_apply (x : (⟨S1024x32x512, .f32⟩ : BufTy).Contents (Elt Ideal)) (W : (⟨S512x512, .f32⟩ : BufTy).Contents (Elt Ideal)) (b : Fin 32) (s : Fin 1024) (e : Fin 512) :
    val_main_v4 (F := Ideal) x W (ix3 b s e) = Cert.Spec.proj (A3 x) (A2 W) b s e := by
  unfold Cert.Spec.proj
  refine (val_main_v4_apply x W (ix3 b s e)).trans ?_
  refine Finset.sum_congr rfl fun k _ => ?_
  exact congrArg₂ (fun u v : EReal => u * v)
    ((val_main_v0_apply x _).trans (congrArg x (funext fun a => Fin.ext (by match a with | ⟨0, _⟩ => rfl | ⟨1, _⟩ => rfl | ⟨2, _⟩ => rfl))))
    (congrArg W (funext fun a => Fin.ext (by match a with | ⟨0, _⟩ => rfl | ⟨1, _⟩ => rfl)))

/-- Projection stage 5 at (b, s, e). -/
theorem v5_apply (x : (⟨S1024x32x512, .f32⟩ : BufTy).Contents (Elt Ideal)) (W : (⟨S512x512, .f32⟩ : BufTy).Contents (Elt Ideal)) (b : Fin 32) (s : Fin 1024) (e : Fin 512) :
    val_main_v5 (F := Ideal) x W (ix3 b s e) = Cert.Spec.proj (A3 x) (A2 W) b s e := by
  unfold Cert.Spec.proj
  refine (val_main_v5_apply x W (ix3 b s e)).trans ?_
  refine Finset.sum_congr rfl fun k _ => ?_
  exact congrArg₂ (fun u v : EReal => u * v)
    ((val_main_v1_apply x _).trans (congrArg x (funext fun a => Fin.ext (by match a with | ⟨0, _⟩ => rfl | ⟨1, _⟩ => rfl | ⟨2, _⟩ => rfl))))
    (congrArg W (funext fun a => Fin.ext (by match a with | ⟨0, _⟩ => rfl | ⟨1, _⟩ => rfl)))

/-- Projection stage 6 at (b, s, e). -/
theorem v6_apply (x : (⟨S1024x32x512, .f32⟩ : BufTy).Contents (Elt Ideal)) (W : (⟨S512x512, .f32⟩ : BufTy).Contents (Elt Ideal)) (b : Fin 32) (s : Fin 1024) (e : Fin 512) :
    val_main_v6 (F := Ideal) x W (ix3 b s e) = Cert.Spec.proj (A3 x) (A2 W) b s e := by
  unfold Cert.Spec.proj
  refine (val_main_v6_apply x W (ix3 b s e)).trans ?_
  refine Finset.sum_congr rfl fun k _ => ?_
  exact congrArg₂ (fun u v : EReal => u * v)
    ((val_main_v1_apply x _).trans (congrArg x (funext fun a => Fin.ext (by match a with | ⟨0, _⟩ => rfl | ⟨1, _⟩ => rfl | ⟨2, _⟩ => rfl))))
    (congrArg W (funext fun a => Fin.ext (by match a with | ⟨0, _⟩ => rfl | ⟨1, _⟩ => rfl)))

/-- Projection stage 7 at (b, s, e). -/
theorem v7_apply (x : (⟨S1024x32x512, .f32⟩ : BufTy).Contents (Elt Ideal)) (W : (⟨S512x512, .f32⟩ : BufTy).Contents (Elt Ideal)) (b : Fin 32) (s : Fin 1024) (e : Fin 512) :
    val_main_v7 (F := Ideal) x W (ix3 b s e) = Cert.Spec.proj (A3 x) (A2 W) b s e := by
  unfold Cert.Spec.proj
  refine (val_main_v7_apply x W (ix3 b s e)).trans ?_
  refine Finset.sum_congr rfl fun k _ => ?_
  exact congrArg₂ (fun u v : EReal => u * v)
    ((val_main_v1_apply x _).trans (congrArg x (funext fun a => Fin.ext (by match a with | ⟨0, _⟩ => rfl | ⟨1, _⟩ => rfl | ⟨2, _⟩ => rfl))))
    (congrArg W (funext fun a => Fin.ext (by match a with | ⟨0, _⟩ => rfl | ⟨1, _⟩ => rfl)))

/-! ## The two score arrays -/

/-- The first score array at (b, q, k): the second sequence's queries against the first's keys. -/
theorem v8_apply (x0 x1 : (⟨S1024x32x512, .f32⟩ : BufTy).Contents (Elt Ideal)) (x3 x5 : (⟨S512x512, .f32⟩ : BufTy).Contents (Elt Ideal)) (b : Fin 32) (q k : Fin 1024) :
    val_main_v8 (F := Ideal) x0 x1 x3 x5 (ix3 b q k) = Cert.Spec.score (Cert.Spec.proj (A3 x1) (A2 x5) b) (Cert.Spec.proj (A3 x0) (A2 x3) b) q k := by
  unfold Cert.Spec.score
  refine (val_main_v8_apply x0 x1 x3 x5 (ix3 b q k)).trans ?_
  refine Finset.sum_congr rfl fun e _ => ?_
  exact congrArg₂ (fun u v : EReal => u * v)
    ((congrArg (val_main_v5 (F := Ideal) x1 x5) (funext fun a => Fin.ext (by match a with | ⟨0, _⟩ => rfl | ⟨1, _⟩ => rfl | ⟨2, _⟩ => rfl))).trans (v5_apply x1 x5 b q e))
    ((congrArg (val_main_v3 (F := Ideal) x0 x3) (funext fun a => Fin.ext (by match a with | ⟨0, _⟩ => rfl | ⟨1, _⟩ => rfl | ⟨2, _⟩ => rfl))).trans (v3_apply x0 x3 b k e))

/-- The second score array at (b, q, k): the first sequence's queries against the second's keys. -/
theorem v20_apply (x0 x1 : (⟨S1024x32x512, .f32⟩ : BufTy).Contents (Elt Ideal)) (x2 x6 : (⟨S512x512, .f32⟩ : BufTy).Contents (Elt Ideal)) (b : Fin 32) (q k : Fin 1024) :
    val_main_v20 (F := Ideal) x0 x1 x2 x6 (ix3 b q k) = Cert.Spec.score (Cert.Spec.proj (A3 x0) (A2 x2) b) (Cert.Spec.proj (A3 x1) (A2 x6) b) q k := by
  unfold Cert.Spec.score
  refine (val_main_v20_apply x0 x1 x2 x6 (ix3 b q k)).trans ?_
  refine Finset.sum_congr rfl fun e _ => ?_
  exact congrArg₂ (fun u v : EReal => u * v)
    ((congrArg (val_main_v2 (F := Ideal) x0 x2) (funext fun a => Fin.ext (by match a with | ⟨0, _⟩ => rfl | ⟨1, _⟩ => rfl | ⟨2, _⟩ => rfl))).trans (v2_apply x0 x2 b q e))
    ((congrArg (val_main_v6 (F := Ideal) x1 x6) (funext fun a => Fin.ext (by match a with | ⟨0, _⟩ => rfl | ⟨1, _⟩ => rfl | ⟨2, _⟩ => rfl))).trans (v6_apply x1 x6 b k e))

/-! ## Their row-normalisations: the same eleven steps, applied to each score array -/

theorem v19_eq (x0 x1 : (⟨S1024x32x512, .f32⟩ : BufTy).Contents (Elt Ideal)) (x3 x5 : (⟨S512x512, .f32⟩ : BufTy).Contents (Elt Ideal)) :
    val_main_v19 (F := Ideal) x0 x1 x3 x5 = softArr (val_main_v8 (F := Ideal) x0 x1 x3 x5) := rfl

theorem v31_eq (x0 x1 : (⟨S1024x32x512, .f32⟩ : BufTy).Contents (Elt Ideal)) (x2 x6 : (⟨S512x512, .f32⟩ : BufTy).Contents (Elt Ideal)) :
    val_main_v31 (F := Ideal) x0 x1 x2 x6 = softArr (val_main_v20 (F := Ideal) x0 x1 x2 x6) := rfl

/-- The first normalised score array at (b, q, k). -/
theorem v19_apply (x0 x1 : (⟨S1024x32x512, .f32⟩ : BufTy).Contents (Elt Ideal)) (x3 x5 : (⟨S512x512, .f32⟩ : BufTy).Contents (Elt Ideal)) (b : Fin 32) (q k : Fin 1024) :
    val_main_v19 (F := Ideal) x0 x1 x3 x5 (ix3 b q k) = Cert.Spec.soft (Cert.Spec.score (Cert.Spec.proj (A3 x1) (A2 x5) b) (Cert.Spec.proj (A3 x0) (A2 x3) b) q) k := by
  refine (congrFun (v19_eq x0 x1 x3 x5) (ix3 b q k)).trans ?_
  refine (softArr_apply _ b q k).trans ?_
  exact congrArg (fun r : Fin 1024 → EReal => Cert.Spec.soft r k) (funext fun k' => v8_apply x0 x1 x3 x5 b q k')

/-- The second normalised score array at (b, q, k). -/
theorem v31_apply (x0 x1 : (⟨S1024x32x512, .f32⟩ : BufTy).Contents (Elt Ideal)) (x2 x6 : (⟨S512x512, .f32⟩ : BufTy).Contents (Elt Ideal)) (b : Fin 32) (q k : Fin 1024) :
    val_main_v31 (F := Ideal) x0 x1 x2 x6 (ix3 b q k) = Cert.Spec.soft (Cert.Spec.score (Cert.Spec.proj (A3 x0) (A2 x2) b) (Cert.Spec.proj (A3 x1) (A2 x6) b) q) k := by
  refine (congrFun (v31_eq x0 x1 x2 x6) (ix3 b q k)).trans ?_
  refine (softArr_apply _ b q k).trans ?_
  exact congrArg (fun r : Fin 1024 → EReal => Cert.Spec.soft r k) (funext fun k' => v20_apply x0 x1 x2 x6 b q k')

/-! ## The two attended blocks -/

/-- The first attended block at (b, q, e). -/
theorem v32_apply (x0 x1 : (⟨S1024x32x512, .f32⟩ : BufTy).Contents (Elt Ideal)) (x3 x4 x5 : (⟨S512x512, .f32⟩ : BufTy).Contents (Elt Ideal)) (b : Fin 32) (q : Fin 1024) (e : Fin 512) :
    val_main_v32 (F := Ideal) x0 x1 x3 x4 x5 (ix3 b q e) = Cert.Spec.attend (Cert.Spec.proj (A3 x1) (A2 x5) b) (Cert.Spec.proj (A3 x0) (A2 x3) b) (Cert.Spec.proj (A3 x0) (A2 x4) b) q e := by
  unfold Cert.Spec.attend
  refine (val_main_v32_apply x0 x1 x3 x4 x5 (ix3 b q e)).trans ?_
  refine Finset.sum_congr rfl fun k _ => ?_
  exact congrArg₂ (fun u v : EReal => u * v)
    ((congrArg (val_main_v19 (F := Ideal) x0 x1 x3 x5) (funext fun a => Fin.ext (by match a with | ⟨0, _⟩ => rfl | ⟨1, _⟩ => rfl | ⟨2, _⟩ => rfl))).trans (v19_apply x0 x1 x3 x5 b q k))
    ((congrArg (val_main_v4 (F := Ideal) x0 x4) (funext fun a => Fin.ext (by match a with | ⟨0, _⟩ => rfl | ⟨1, _⟩ => rfl | ⟨2, _⟩ => rfl))).trans (v4_apply x0 x4 b k e))

/-- The second attended block at (b, q, e). -/
theorem v33_apply (x0 x1 : (⟨S1024x32x512, .f32⟩ : BufTy).Contents (Elt Ideal)) (x2 x6 x7 : (⟨S512x512, .f32⟩ : BufTy).Contents (Elt Ideal)) (b : Fin 32) (q : Fin 1024) (e : Fin 512) :
    val_main_v33 (F := Ideal) x0 x1 x2 x6 x7 (ix3 b q e) = Cert.Spec.attend (Cert.Spec.proj (A3 x0) (A2 x2) b) (Cert.Spec.proj (A3 x1) (A2 x6) b) (Cert.Spec.proj (A3 x1) (A2 x7) b) q e := by
  unfold Cert.Spec.attend
  refine (val_main_v33_apply x0 x1 x2 x6 x7 (ix3 b q e)).trans ?_
  refine Finset.sum_congr rfl fun k _ => ?_
  exact congrArg₂ (fun u v : EReal => u * v)
    ((congrArg (val_main_v31 (F := Ideal) x0 x1 x2 x6) (funext fun a => Fin.ext (by match a with | ⟨0, _⟩ => rfl | ⟨1, _⟩ => rfl | ⟨2, _⟩ => rfl))).trans (v31_apply x0 x1 x2 x6 b q k))
    ((congrArg (val_main_v7 (F := Ideal) x1 x7) (funext fun a => Fin.ext (by match a with | ⟨0, _⟩ => rfl | ⟨1, _⟩ => rfl | ⟨2, _⟩ => rfl))).trans (v7_apply x1 x7 b k e))

/-! ## The two blocks side by side, back to position-major, the output map and the bias -/

/-- The joined array at (b, q, f): the two attended rows side by side. -/
theorem v34_apply (x0 x1 : (⟨S1024x32x512, .f32⟩ : BufTy).Contents (Elt Ideal)) (x2 x3 x4 x5 x6 x7 : (⟨S512x512, .f32⟩ : BufTy).Contents (Elt Ideal)) (b : Fin 32) (q f : Fin 1024) :
    val_main_v34 (F := Ideal) x0 x1 x2 x3 x4 x5 x6 x7 (ix3 b q f)
      = Cert.Spec.cat (Cert.Spec.attend (Cert.Spec.proj (A3 x1) (A2 x5) b) (Cert.Spec.proj (A3 x0) (A2 x3) b) (Cert.Spec.proj (A3 x0) (A2 x4) b) q) (Cert.Spec.attend (Cert.Spec.proj (A3 x0) (A2 x2) b) (Cert.Spec.proj (A3 x1) (A2 x6) b) (Cert.Spec.proj (A3 x1) (A2 x7) b) q) f := by
  unfold val_main_v34 Cert.Spec.cat
  refine (catLast_apply (val_main_v32 (F := Ideal) x0 x1 x3 x4 x5) (val_main_v33 (F := Ideal) x0 x1 x2 x6 x7)
    concatenates_S32x1024x512_S32x1024x512_S32x1024x1024_d2 rfl b q f).trans ?_
  by_cases hj : f.val < 512
  · rw [dif_pos hj, dif_pos hj]
    exact v32_apply x0 x1 x3 x4 x5 b q ⟨f.val, hj⟩
  · rw [dif_neg hj, dif_neg hj]
    exact v33_apply x0 x1 x2 x6 x7 b q ⟨f.val - 512, by have := f.isLt; omega⟩

/-- The joined array, position-major, at (s, b, f). -/
theorem v35_apply (x0 x1 : (⟨S1024x32x512, .f32⟩ : BufTy).Contents (Elt Ideal)) (x2 x3 x4 x5 x6 x7 : (⟨S512x512, .f32⟩ : BufTy).Contents (Elt Ideal)) (s : Fin 1024) (b : Fin 32) (f : Fin 1024) :
    val_main_v35 (F := Ideal) x0 x1 x2 x3 x4 x5 x6 x7 (ix3 s b f)
      = Cert.Spec.cat (Cert.Spec.attend (Cert.Spec.proj (A3 x1) (A2 x5) b) (Cert.Spec.proj (A3 x0) (A2 x3) b) (Cert.Spec.proj (A3 x0) (A2 x4) b) s) (Cert.Spec.attend (Cert.Spec.proj (A3 x0) (A2 x2) b) (Cert.Spec.proj (A3 x1) (A2 x6) b) (Cert.Spec.proj (A3 x1) (A2 x7) b) s) f :=
  (val_main_v35_apply x0 x1 x2 x3 x4 x5 x6 x7 (ix3 s b f)).trans
    ((congrArg (val_main_v34 (F := Ideal) x0 x1 x2 x3 x4 x5 x6 x7) (funext fun a => Fin.ext (by match a with | ⟨0, _⟩ => rfl | ⟨1, _⟩ => rfl | ⟨2, _⟩ => rfl))).trans (v34_apply x0 x1 x2 x3 x4 x5 x6 x7 b s f))

/-- The output map at (s, b, d). -/
theorem v36_apply (x0 x1 : (⟨S1024x32x512, .f32⟩ : BufTy).Contents (Elt Ideal)) (x2 x3 x4 x5 x6 x7 : (⟨S512x512, .f32⟩ : BufTy).Contents (Elt Ideal)) (x8 : (⟨S512x1024, .f32⟩ : BufTy).Contents (Elt Ideal))
    (s : Fin 1024) (b : Fin 32) (d : Fin 512) :
    val_main_v36 (F := Ideal) x0 x1 x2 x3 x4 x5 x6 x7 x8 (ix3 s b d)
      = ∑ f : Fin 1024, Cert.Spec.cat (Cert.Spec.attend (Cert.Spec.proj (A3 x1) (A2 x5) b) (Cert.Spec.proj (A3 x0) (A2 x3) b) (Cert.Spec.proj (A3 x0) (A2 x4) b) s) (Cert.Spec.attend (Cert.Spec.proj (A3 x0) (A2 x2) b) (Cert.Spec.proj (A3 x1) (A2 x6) b) (Cert.Spec.proj (A3 x1) (A2 x7) b) s) f * x8 (ix2 d f) := by
  refine (val_main_v36_apply x0 x1 x2 x3 x4 x5 x6 x7 x8 (ix3 s b d)).trans ?_
  refine Finset.sum_congr rfl fun f _ => ?_
  exact congrArg₂ (fun u v : EReal => u * v)
    ((congrArg (val_main_v35 (F := Ideal) x0 x1 x2 x3 x4 x5 x6 x7) (funext fun a => Fin.ext (by match a with | ⟨0, _⟩ => rfl | ⟨1, _⟩ => rfl | ⟨2, _⟩ => rfl))).trans (v35_apply x0 x1 x2 x3 x4 x5 x6 x7 s b f))
    (congrArg x8 (funext fun a => Fin.ext (by match a with | ⟨0, _⟩ => rfl | ⟨1, _⟩ => rfl)))

/-- The bias broadcast over positions and batches, at (s, b, d). -/
theorem v38_apply (x9 : (⟨S512, .f32⟩ : BufTy).Contents (Elt Ideal)) (s : Fin 1024) (b : Fin 32) (d : Fin 512) :
    val_main_v38 (F := Ideal) x9 (ix3 s b d) = x9 (ix1 d) :=
  (val_main_v38_apply x9 (ix3 s b d)).trans ((val_main_v37_apply x9 _).trans (congrArg x9 (funext fun a => Fin.ext (by match a with | ⟨0, _⟩ => rfl))))

/-! ## The result -/

/-- THE REFERENCE'S LAST STAGE IS THE SPECIFICATION, as a function of the ten argument arrays. -/
theorem val_eq (x0 x1 : (⟨S1024x32x512, .f32⟩ : BufTy).Contents (Elt Ideal)) (x2 x3 x4 x5 x6 x7 : (⟨S512x512, .f32⟩ : BufTy).Contents (Elt Ideal)) (x8 : (⟨S512x1024, .f32⟩ : BufTy).Contents (Elt Ideal))
    (x9 : (⟨S512, .f32⟩ : BufTy).Contents (Elt Ideal)) :
    val_main_v39 (F := Ideal) x0 x1 x2 x3 x4 x5 x6 x7 x8 x9 = Cert.Spec.GArr x0 x1 x2 x3 x4 x5 x6 x7 x8 x9 := by
  funext i
  obtain ⟨s, b, d, rfl⟩ : ∃ (s : Fin 1024) (b : Fin 32) (d : Fin 512), i = ix3 s b d := ⟨i 0, i 1, i 2, eq_ix3 i⟩
  refine (val_main_v39_apply x0 x1 x2 x3 x4 x5 x6 x7 x8 x9 (ix3 s b d)).trans ?_
  refine (congrArg₂ (fun u v : EReal => u + v) (v36_apply x0 x1 x2 x3 x4 x5 x6 x7 x8 s b d) (v38_apply x9 s b d)).trans ?_
  rfl

/-- THE REFERENCE'S RESULT BUFFER holds the specification function of the ten argument buffers. -/
theorem ref_result (m : (ℓ : Loc nD τ sig) → Buf (Elt Ideal) ℓ) (c : Dev nD) :
    Cert.ReferenceIdeal.Value.res_main_v39 (F := Ideal) m c
      = Cert.Spec.GArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (val_main_v39_eq m c).trans (val_eq _ _ _ _ _ _ _ _ _ _)

end Cert.RefSide

end
-- ==== Proof.lean ====
/-
  The certificate's claims, assembled.

  The kernel program is a dual cross-attention: two sequences are projected to queries, keys and values, each
  sequence's queries attend to the other's keys and values (row-normalised exponentials of the scores), and the two
  attended blocks, side by side, go through one output map.  It runs as three regions among host operations; its
  frame (every weakly fair execution terminates, nothing faults, the arguments end as launched) is proved once at any
  float instance and used at both.  Over the extended reals the program's result buffer and the reference's hold the
  same function of the ten arguments (Spec.lean): the kernel's by following its buffers through the regions and the
  host operations, the reference's by reading its 46 host operations one at a time.  The two sides differ only in how
  the same sums are laid out — no algebraic law and no finiteness of the inputs is used.  The ideal pass rewrote
  nothing, so the idealized kernel is the kernel's own text.
-/
import proofs.«136491_j13649406066964_1_alg».proof.Defs
import proofs.«136491_j13649406066964_1_alg».proof.Proof.Gen.Kernel
import proofs.«136491_j13649406066964_1_alg».proof.Proof.Gen.KernelIdeal
import proofs.«136491_j13649406066964_1_alg».proof.Proof.Gen.ReferenceIdeal
import proofs.«136491_j13649406066964_1_alg».proof.Proof.Gen.Pre_finite_inputs
import proofs.«136491_j13649406066964_1_alg».proof.Proof.FrameRunB
import proofs.«136491_j13649406066964_1_alg».proof.Proof.FrameRunI
import proofs.«136491_j13649406066964_1_alg».proof.Proof.RefRun
import proofs.«136491_j13649406066964_1_alg».proof.Proof.KernelValueI
import proofs.«136491_j13649406066964_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_p : Cert.frame_Kernel := fun m ρ _ => Cert.Kernel.Fr.frame m ρ

/-- So does the idealized kernel. -/
theorem frame_pi : Cert.frame_KernelIdeal := fun m ρ _ => Cert.KernelIdeal.Fr.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals both programs end with the specification function of the arguments in their result buffer. -/
theorem algebraic : Cert.algebraic_KernelIdeal_ReferenceIdeal := by
  intro m ρ m' ρ' _ hagree
  refine ⟨fun c => Cert.Spec.GArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Fr.mem_uc Cert.KernelIdeal.main_v28 (by decide))).trans (Cert.KernelIdeal.Val.kernel_result m c),
        (h c _ (Cert.KernelIdeal.Fr.mem_uc Cert.KernelIdeal.main_arg0 (by decide))).trans (Cert.KernelIdeal.Fr.W6_main_arg0 m c),
        (h c _ (Cert.KernelIdeal.Fr.mem_uc Cert.KernelIdeal.main_arg1 (by decide))).trans (Cert.KernelIdeal.Fr.W6_main_arg1 m c),
        (h c _ (Cert.KernelIdeal.Fr.mem_uc Cert.KernelIdeal.main_arg2 (by decide))).trans (Cert.KernelIdeal.Fr.W6_main_arg2 m c),
        (h c _ (Cert.KernelIdeal.Fr.mem_uc Cert.KernelIdeal.main_arg3 (by decide))).trans (Cert.KernelIdeal.Fr.W6_main_arg3 m c),
        (h c _ (Cert.KernelIdeal.Fr.mem_uc Cert.KernelIdeal.main_arg4 (by decide))).trans (Cert.KernelIdeal.Fr.W6_main_arg4 m c),
        (h c _ (Cert.KernelIdeal.Fr.mem_uc Cert.KernelIdeal.main_arg5 (by decide))).trans (Cert.KernelIdeal.Fr.W6_main_arg5 m c),
        (h c _ (Cert.KernelIdeal.Fr.mem_uc Cert.KernelIdeal.main_arg6 (by decide))).trans (Cert.KernelIdeal.Fr.W6_main_arg6 m c),
        (h c _ (Cert.KernelIdeal.Fr.mem_uc Cert.KernelIdeal.main_arg7 (by decide))).trans (Cert.KernelIdeal.Fr.W6_main_arg7 m c),
        (h c _ (Cert.KernelIdeal.Fr.mem_uc Cert.KernelIdeal.main_arg8 (by decide))).trans (Cert.KernelIdeal.Fr.W6_main_arg8 m c),
        (h c _ (Cert.KernelIdeal.Fr.mem_uc Cert.KernelIdeal.main_arg9 (by decide))).trans (Cert.KernelIdeal.Fr.W6_main_arg9 m c)⟩)
      (Cert.KernelIdeal.Fr.run_all m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.RefSide.ref_result m' c, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
